-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x45056 : Shape := ⟨3, ![2048, 2, 45056]⟩
abbrev S256x45056 : Shape := ⟨2, ![256, 45056]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S2048x2x45056 : S_.BroadcastsInDim S2048x2x45056 (![] : Fin 0 → Fin S2048x2x45056.rank)
  reducesTo_S2048x2x45056_S_d0_1_2 : S2048x2x45056.ReducesTo [0, 1, 2] S_
  h_S_ : 0 < S_.numel
  bcast_S_S256x45056 : S_.BroadcastsInDim S256x45056 (![] : Fin 0 → Fin S256x45056.rank)
  reducesTo_S256x45056_S_d0_1 : S256x45056.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x32 .f32) (main_arg8 : FVec F S1 .f32) (main_v33 : IVec S_ 1) : IVec S_ 1 :=
  let main_v34 : FVec F S1x32 .f32 := Host.absf main_arg7
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S1x32 .f32) (main_arg8 : FVec F S1 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S2048x2x45056 .f32) (main_arg1 : FVec F S256x45056 .f32) (main_arg2 : FVec F S256 .f32) (main_arg3 : FVec F S32x512 .f32) (main_arg4 : FVec F S32 .f32) (main_arg5 : FVec F S32x32 .f32) (main_arg6 : FVec F S32 .f32) (main_arg7 : FVec F S1x32 .f32) (main_arg8 : FVec F S1 .f32) : IVec S_ 1 :=
  let main_v0 : FVec F S2048x2x45056 .f32 := Host.absf main_arg0
  let main_cst : FVec F S_ .f32 := constant S_ .f32 0x7F800000#32
  let main_v1 : FVec F S2048x2x45056 .f32 := broadcastInDim S2048x2x45056 ![] bcast_S_S2048x2x45056 main_cst
  let main_v2 : IVec S2048x2x45056 1 := cmpf .olt main_v0 main_v1
  let main_c : IVec S_ 1 := constantI S_ 1 1#1
  let main_v3 : IVec S_ 1 := (fun x v => Host.reduce IntOp.andi x v reducesTo_S2048x2x45056_S_d0_1_2 h_S_) main_v2 main_c
  let main_v4 : FVec F S256x45056 .f32 := Host.absf main_arg1
  let main_cst_0 : FVec F S_ .f32 := constant S_ .f32 0x7F800000#32
  let main_v5 : FVec F S256x45056 .f32 := broadcastInDim S256x45056 ![] bcast_S_S256x45056 main_cst_0
  let main_v6 : IVec S256x45056 1 := cmpf .olt main_v4 main_v5
  let main_c_1 : IVec S_ 1 := constantI S_ 1 1#1
  let main_v7 : IVec S_ 1 := (fun x v => Host.reduce IntOp.andi x v reducesTo_S256x45056_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_arg8 main_v13 main_v16
-- ==== Kernel.lean ====
abbrev S2048x2x45056 : Shape := ⟨3, ![2048, 2, 45056]⟩
abbrev S256x45056 : Shape := ⟨2, ![256, 45056]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S2048x90112 : Shape := ⟨2, ![2048, 90112]⟩
abbrev S2048x1 : Shape := ⟨2, ![2048, 1]⟩
abbrev S1024x1024 : Shape := ⟨2, ![1024, 1024]⟩
abbrev S256x1024 : Shape := ⟨2, ![256, 1024]⟩
abbrev S1024x1 : Shape := ⟨2, ![1024, 1]⟩
abbrev S1024x256 : Shape := ⟨2, ![1024, 256]⟩
abbrev S1x256 : Shape := ⟨2, ![1, 256]⟩
abbrev S1024x512 : Shape := ⟨2, ![1024, 512]⟩
abbrev S512x32 : Shape := ⟨2, ![512, 32]⟩
abbrev S1024x32 : Shape := ⟨2, ![1024, 32]⟩
abbrev S32x1 : Shape := ⟨2, ![32, 1]⟩
abbrev S1x1 : Shape := ⟨2, ![1, 1]⟩

abbrev nBuf : Space → Nat
  | .hbm => 11
  | .vmem => 17
  | .smem => 0
  | _ => 0

abbrev bufTy : (tb : Table) → Fin (tcTables nBuf tb) → BufTy
  | .hbm, ⟨0, _⟩ => ⟨S2048x2x45056, .f32⟩
  | .hbm, ⟨1, _⟩ => ⟨S256x45056, .f32⟩
  | .hbm, ⟨2, _⟩ => ⟨S256, .f32⟩
  | .hbm, ⟨3, _⟩ => ⟨S32x512, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S2048x90112, .f32⟩
  | .hbm, ⟨10, _⟩ => ⟨S2048x1, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256, .f32⟩
  | .local _ .vmem, ⟨7, _⟩ => ⟨S32x512, .f32⟩
  | .local _ .vmem, ⟨8, _⟩ => ⟨S32, .f32⟩
  | .local _ .vmem, ⟨9, _⟩ => ⟨S32x32, .f32⟩
  | .local _ .vmem, ⟨10, _⟩ => ⟨S32, .f32⟩
  | .local _ .vmem, ⟨11, _⟩ => ⟨S1x32, .f32⟩
  | .local _ .vmem, ⟨12, _⟩ => ⟨S1, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | _, _ => ⟨S2048x2x45056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 44], ![false, false]⟩

def k0_cond2 (i : grid0.Coords) : BitVec 1 :=
  let arg1 : BitVec 32 := BitVec.ofNat 32 (i 1).val
  let c43_i32 : BitVec 32 := 43#32
  let v25 : BitVec 1 := Scalar.cmpi .eq arg1 c43_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S2048x2x45056_S2048x90112 : S2048x2x45056.ShapeCasts S2048x90112
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  transposes_S256x1024_p1_0_S1024x256 : S256x1024.Transposes [1, 0] S1024x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  concatenates_S1024x256_S1024x256_S1024x512_d1 : Shape.Concatenates [S1024x256, S1024x256] S1024x512 1
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  transposes_S1x32_p1_0_S32x1 : S1x32.Transposes [1, 0] S32x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x256_S1024x256_1_0_0_1_n_n_wf : DotDims.WF S1024x1024 S1024x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x90112.size a
  hwx0_0 : ∀ i : grid0.Coords, EltTy.bits .f32 = 32 ∨ (Rect.block (s := S2048x90112) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x90112.size a
  hwx0_1 : ∀ i : grid0.Coords, EltTy.bits .f32 = 32 ∨ (Rect.block (s := S2048x90112) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x45056.size a
  hwx0_2 : ∀ i : grid0.Coords, EltTy.bits .f32 = 32 ∨ (Rect.block (s := S256x45056) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x512.size a
  hwx0_4 : ∀ i : grid0.Coords, EltTy.bits .f32 = 32 ∨ (Rect.block (s := S32x512) S32x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S2048x1.size a
  hwx0_10 : ∀ i : grid0.Coords, EltTy.bits .f32 = 32 ∨ (Rect.block (s := S2048x1) S1024x1.size (cc0_transform_10 i) (hinb0_10 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S2048x2x45056 : Shape := ⟨3, ![2048, 2, 45056]⟩
abbrev S256x45056 : Shape := ⟨2, ![256, 45056]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S2048x1x45056 : Shape := ⟨3, ![2048, 1, 45056]⟩
abbrev S2048x45056 : Shape := ⟨2, ![2048, 45056]⟩
abbrev S2048x256 : Shape := ⟨2, ![2048, 256]⟩
abbrev S1x256 : Shape := ⟨2, ![1, 256]⟩
abbrev S_ : Shape := ⟨0, ![]⟩
abbrev S2048x512 : Shape := ⟨2, ![2048, 512]⟩
abbrev S512x32 : Shape := ⟨2, ![512, 32]⟩
abbrev S2048x32 : Shape := ⟨2, ![2048, 32]⟩
abbrev S32x1 : Shape := ⟨2, ![32, 1]⟩
abbrev S2048x1 : Shape := ⟨2, ![2048, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x2x45056, .f32⟩
  | .hbm, ⟨1, _⟩ => ⟨S256x45056, .f32⟩
  | .hbm, ⟨2, _⟩ => ⟨S256, .f32⟩
  | .hbm, ⟨3, _⟩ => ⟨S32x512, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S2048x1x45056, .f32⟩
  | .hbm, ⟨10, _⟩ => ⟨S2048x45056, .f32⟩
  | .hbm, ⟨11, _⟩ => ⟨S2048x256, .f32⟩
  | .hbm, ⟨12, _⟩ => ⟨S1x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x1x45056, .f32⟩
  | .hbm, ⟨19, _⟩ => ⟨S2048x45056, .f32⟩
  | .hbm, ⟨20, _⟩ => ⟨S2048x256, .f32⟩
  | .hbm, ⟨21, _⟩ => ⟨S1x256, .f32⟩
  | .hbm, ⟨22, _⟩ => ⟨S2048x256, .f32⟩
  | .hbm, ⟨23, _⟩ => ⟨S2048x256, .f32⟩
  | .hbm, ⟨24, _⟩ => ⟨S_, .f32⟩
  | .hbm, ⟨25, _⟩ => ⟨S2048x256, .f32⟩
  | .hbm, ⟨26, _⟩ => ⟨S2048x256, .f32⟩
  | .hbm, ⟨27, _⟩ => ⟨S2048x512, .f32⟩
  | .hbm, ⟨28, _⟩ => ⟨S512x32, .f32⟩
  | .hbm, ⟨29, _⟩ => ⟨S2048x32, .f32⟩
  | .hbm, ⟨30, _⟩ => ⟨S1x32, .f32⟩
  | .hbm, ⟨31, _⟩ => ⟨S2048x32, .f32⟩
  | .hbm, ⟨32, _⟩ => ⟨S2048x32, .f32⟩
  | .hbm, ⟨33, _⟩ => ⟨S_, .f32⟩
  | .hbm, ⟨34, _⟩ => ⟨S2048x32, .f32⟩
  | .hbm, ⟨35, _⟩ => ⟨S2048x32, .f32⟩
  | .hbm, ⟨36, _⟩ => ⟨S32x32, .f32⟩
  | .hbm, ⟨37, _⟩ => ⟨S2048x32, .f32⟩
  | .hbm, ⟨38, _⟩ => ⟨S1x32, .f32⟩
  | .hbm, ⟨39, _⟩ => ⟨S2048x32, .f32⟩
  | .hbm, ⟨40, _⟩ => ⟨S2048x32, .f32⟩
  | .hbm, ⟨41, _⟩ => ⟨S_, .f32⟩
  | .hbm, ⟨42, _⟩ => ⟨S2048x32, .f32⟩
  | .hbm, ⟨43, _⟩ => ⟨S2048x32, .f32⟩
  | .hbm, ⟨44, _⟩ => ⟨S32x1, .f32⟩
  | .hbm, ⟨45, _⟩ => ⟨S2048x1, .f32⟩
  | .hbm, ⟨46, _⟩ => ⟨S1x1, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | _, _ => ⟨S2048x2x45056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_cst : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call2_cst : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call3_cst : Ref sig .tc := ⟨.hbm, 41, rfl⟩
abbrev main_call3_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_cst_0 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  slices_S2048x2x45056_S2048x1x45056_0_0_0 : S2048x2x45056.Slices ![0, 0, 0] S2048x1x45056
  shapeCasts_S2048x1x45056_S2048x45056 : S2048x1x45056.ShapeCasts S2048x45056
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  slices_S2048x2x45056_S2048x1x45056_0_1_0 : S2048x2x45056.Slices ![0, 1, 0] S2048x1x45056
  concatenates_S2048x256_S2048x256_S2048x512_d1 : Shape.Concatenates [S2048x256, S2048x256] S2048x512 1
  transposes_S32x512_S512x32_1_0 : S32x512.Transposes [1, 0] S512x32
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S_S2048x1 : S_.BroadcastsInDim S2048x1 (![] : Fin 0 → Fin S2048x1.rank)
  dot_S2048x45056_S256x45056_S2048x256_1_1_0_0_n_n_wf : DotDims.WF S2048x45056 S256x45056 S2048x256 [1] [1] [0] [0] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []

variable [Facts₀]

def dot_S2048x45056_S256x45056_S2048x256_1_1_0_0_n_n : DotDims S2048x45056 S256x45056 S2048x256 where
  lhsContracting := [1]
  rhsContracting := [1]
  lhsNonContracting := [0]
  rhsNonContracting := [0]
  lhsBatch := []
  rhsBatch := []
  wf := dot_S2048x45056_S256x45056_S2048x256_1_1_0_0_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

class Facts : Prop extends Facts₀ where

variable [Facts]
-- ==== Proof.BodyBits.lean ====
import proofs.«139798_j43525198578243_2_alg».proof.Proof.Gen.Kernel.Launch
import proofs.«139798_j43525198578243_2_alg».proof.Proof.Gen.Kernel.Skeleton
import proofs.«139798_j43525198578243_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body, case by case

The grid is (batch tile, feature chunk) = 2 × 44, the chunk axis minor. At every point the body adds the chunk's two
products (each perspective's 1024×1024 block of the features against the 256×1024 block of the first layer's weights)
into two 1024×256 accumulators kept in scratch memory; at chunk 0 it first clears them; at chunk 43 it then runs the
three small dense layers on the finished sums and stores the tile's 1024 scores. So there are three control cases:
the first chunk, a middle chunk, the last chunk. Each is run once, symbolically, and what each buffer holds afterwards
is stated through the body's named pure terms. -/

/-- The first conditional: the chunk coordinate is 0. -/
abbrev cond1 (i : grid0.Coords) : Prop := (Scalar.cmpi .ne (Scalar.extui (Scalar.cmpi .eq (BitVec.ofNat 32 (i 1).val) 0#32)) 0#32) = 1#1
/-- The second conditional: the chunk coordinate is 43. -/
abbrev cond2 (i : grid0.Coords) : Prop := k0_cond2 i = 1#1

theorem hz2 : (![0, 0] : Fin 2 → Nat) = fun _ => 0 := by
  funext a; match a with
  | ⟨0, _⟩ => rfl
  | ⟨1, _⟩ => rfl
theorem hz1 : (![0] : Fin 1 → Nat) = fun _ => 0 := by
  funext a; match a with
  | ⟨0, _⟩ => rfl

/-- The tile's scores from the finished accumulators and the small weights: the last chunk's stored value. -/
def outOf (b1v : Vec F S256 .f32) (a1 a2 : Vec F S1024x256 .f32) (w2 : Vec F S32x512 .f32) (b2v : Vec F S32 .f32)
    (w3 : Vec F S32x32 .f32) (b3v : Vec F S32 .f32) (w4 : Vec F S1x32 .f32) (b4v : Vec F S1 .f32) : Vec F S1024x1 .f32 :=
  k0_pay6 (k0_pay7 b1v a1 a2 w2 b2v w3 b3v w4) b4v

set_option maxHeartbeats 1000000 in
/-- A middle chunk: both accumulators take the chunk's product on top of what they held. -/
theorem run_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x256 .f32) (harg13 : arg13.IsWhole) (arg14 : Memref sig .tc .vmem S1024x256 .f32) (harg14 : arg14.IsWhole) (hc1 : ¬cond1 i) (hc2 : ¬cond2 i)
    (x0 x1 : Vec F S1024x1024 .f32) (w : Vec F S256x1024 .f32) (s1 s2 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare w
        ∗ owns (c : Thread nD τ) arg13 fullShare s1 ∗ owns (c : Thread nD τ) arg14 fullShare s2
        ∗ (iprop(owns (c : Thread nD τ) arg2 fullShare x0 ∗ owns (c : Thread nD τ) arg3 fullShare x1 ∗ owns (c : Thread nD τ) arg4 fullShare w
            ∗ owns (c : Thread nD τ) arg13 fullShare (k0_pay4 x0 w s1) ∗ owns (c : Thread nD τ) arg14 fullShare (k0_pay5 x1 w s2)) -∗ K ⟨⟩))
      ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14) K := by
  simp only [cc0__nnue_kernel_eq_skeleton]; unfold cc0__nnue_kernel_skel
  unfold owns
  iintro ⟨⟨%f0, %hf0, H0⟩, ⟨%f1, %hf1, H1⟩, ⟨%f2, %hf2, H2⟩, ⟨%g1, %hg1, HS1⟩, ⟨%g2, %hg2, HS2⟩, Hk⟩
  obtain rfl := harg2.eq_unread hf0; obtain rfl := harg3.eq_unread hf1; obtain rfl := harg4.eq_unread hf2
  obtain rfl := harg13.eq_unread hg1; obtain rfl := harg14.eq_unread hg2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    rw [View.read_writes_eq_canon _ _ _ (fun y => ⟨_, List.mem_singleton_self _, View.mem_set_unit_zero hz2 inb_S1024x256_S1024x256_0_0 y⟩), View.canon_unit_zero hz2]
    simp only [View.readAt_eq_ld, harg2.read_unread, harg4.read_unread, harg13.read_unread,
      View.ld_unit_zero (S := S1024x1024) hz2, View.ld_unit_zero (S := S256x1024) hz2, View.ld_unit_zero (S := S1024x256) hz2]
  · iexists _; isplitr
    swap; · iexact HS2
    ipureintro
    rw [View.read_writes_eq_canon _ _ _ (fun y => ⟨_, List.mem_singleton_self _, View.mem_set_unit_zero hz2 inb_S1024x256_S1024x256_0_0 y⟩), View.canon_unit_zero hz2]
    simp only [View.readAt_eq_ld, harg3.read_unread, harg4.read_unread, harg14.read_unread,
      View.ld_unit_zero (S := S1024x1024) hz2, View.ld_unit_zero (S := S256x1024) hz2, View.ld_unit_zero (S := S1024x256) hz2]

set_option maxHeartbeats 1000000 in
/-- The first chunk: the accumulators are cleared, whatever they held, then take the chunk's product. -/
theorem run_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x256 .f32) (harg13 : arg13.IsWhole) (arg14 : Memref sig .tc .vmem S1024x256 .f32) (harg14 : arg14.IsWhole) (hc1 : cond1 i) (hc2 : ¬cond2 i)
    (x0 x1 : Vec F S1024x1024 .f32) (w : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare w
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare w
            ∗ owns (c : Thread nD τ) arg13 fullShare (k0_pay4 x0 w k0_pay1) ∗ owns (c : Thread nD τ) arg14 fullShare (k0_pay5 x1 w k0_pay2)) -∗ K ⟨⟩))
      ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14) K := by
  simp only [cc0__nnue_kernel_eq_skeleton]; unfold cc0__nnue_kernel_skel
  unfold owns
  iintro ⟨⟨%f0, %hf0, H0⟩, ⟨%f1, %hf1, H1⟩, ⟨%f2, %hf2, H2⟩, ⟨%d1, %g1, -, HS1⟩, ⟨%d2, %g2, -, HS2⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    sl_unfold_run_names
    rw [View.read_writes_eq_canon _ _ _ (fun y => ⟨_, List.mem_cons_self .., View.mem_set_unit_zero hz2 inb_S1024x256_S1024x256_0_0 y⟩), View.canon_cons_unit_zero hz2]
    simp only [View.readAt_eq_ld, harg2.read_unread, harg4.read_unread, View.readCov_unit_zero (S := S1024x256) arg13.view hz2 inb_S1024x256_S1024x256_0_0,
      View.ld_unit_zero (S := S1024x1024) hz2, View.ld_unit_zero (S := S256x1024) hz2]
  · iexists _; isplitr
    swap; · iexact HS2
    ipureintro
    sl_unfold_run_names
    rw [View.read_writes_eq_canon _ _ _ (fun y => ⟨_, List.mem_cons_self .., View.mem_set_unit_zero hz2 inb_S1024x256_S1024x256_0_0 y⟩), View.canon_cons_unit_zero hz2]
    simp only [View.readAt_eq_ld, harg3.read_unread, harg4.read_unread, View.readCov_unit_zero (S := S1024x256) arg14.view hz2 inb_S1024x256_S1024x256_0_0,
      View.ld_unit_zero (S := S1024x1024) hz2, View.ld_unit_zero (S := S256x1024) hz2]

set_option maxHeartbeats 2000000 in
/-- The last chunk: the accumulators take the chunk's product, then the small layers run on the finished sums and
    the tile's scores are stored. -/
theorem run_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x256 .f32) (harg13 : arg13.IsWhole) (arg14 : Memref sig .tc .vmem S1024x256 .f32) (harg14 : arg14.IsWhole) (hc1 : ¬cond1 i) (hc2 : cond2 i)
    (x0 x1 : Vec F S1024x1024 .f32) (w : Vec F S256x1024 .f32) (b1v : Vec F S256 .f32) (w2 : Vec F S32x512 .f32)
    (b2v : Vec F S32 .f32) (w3 : Vec F S32x32 .f32) (b3v : Vec F S32 .f32) (w4 : Vec F S1x32 .f32) (b4v : Vec F S1 .f32)
    (s1 s2 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare w
        ∗ owns (c : Thread nD τ) arg5 fullShare b1v ∗ owns (c : Thread nD τ) arg6 fullShare w2 ∗ owns (c : Thread nD τ) arg7 fullShare b2v ∗ owns (c : Thread nD τ) arg8 fullShare w3
        ∗ owns (c : Thread nD τ) arg9 fullShare b3v ∗ owns (c : Thread nD τ) arg10 fullShare w4 ∗ owns (c : Thread nD τ) arg11 fullShare b4v ∗ (∃ d, owns (c : Thread nD τ) arg12 fullShare d)
        ∗ owns (c : Thread nD τ) arg13 fullShare s1 ∗ owns (c : Thread nD τ) arg14 fullShare s2
        ∗ (iprop(owns (c : Thread nD τ) arg2 fullShare x0 ∗ owns (c : Thread nD τ) arg3 fullShare x1 ∗ owns (c : Thread nD τ) arg4 fullShare w
            ∗ owns (c : Thread nD τ) arg5 fullShare b1v ∗ owns (c : Thread nD τ) arg6 fullShare w2 ∗ owns (c : Thread nD τ) arg7 fullShare b2v ∗ owns (c : Thread nD τ) arg8 fullShare w3
            ∗ owns (c : Thread nD τ) arg9 fullShare b3v ∗ owns (c : Thread nD τ) arg10 fullShare w4 ∗ owns (c : Thread nD τ) arg11 fullShare b4v
            ∗ owns (c : Thread nD τ) arg12 fullShare (outOf b1v (k0_pay4 x0 w s1) (k0_pay5 x1 w s2) w2 b2v w3 b3v w4 b4v)
            ∗ owns (c : Thread nD τ) arg13 fullShare (k0_pay4 x0 w s1) ∗ owns (c : Thread nD τ) arg14 fullShare (k0_pay5 x1 w s2)) -∗ K ⟨⟩))
      ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14) K := by
  simp only [cc0__nnue_kernel_eq_skeleton, k0_part1_eq_skeleton]; unfold cc0__nnue_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  obtain rfl := harg13.eq_unread hg1; obtain rfl := harg14.eq_unread hg2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr
    swap; · iexact H12
    ipureintro
    sl_unfold_run_names
    rw [View.read_writes_eq_canon _ _ _ (fun y => ⟨_, List.mem_singleton_self _, View.mem_set_unit_zero hz2 inb_S1024x1_S1024x1_0_0 y⟩), View.canon_unit_zero hz2]
    unfold outOf
    simp only [View.readAt_eq_ld, harg2.read_unread, harg3.read_unread, harg4.read_unread, harg5.read_unread,
      harg6.read_unread, harg7.read_unread, harg8.read_unread, harg9.read_unread, harg10.read_unread,
      harg11.read_unread, harg13.read_unread, harg14.read_unread,
      View.readCov_unit_zero (S := S1024x256) arg13.view hz2 inb_S1024x256_S1024x256_0_0,
      View.readCov_unit_zero (S := S1024x256) arg14.view hz2 inb_S1024x256_S1024x256_0_0,
      View.ld_unit_zero (S := S1024x1024) hz2, View.ld_unit_zero (S := S256x1024) hz2, View.ld_unit_zero (S := S1024x256) hz2,
      View.ld_unit_zero (S := S256) hz1, View.ld_unit_zero (S := S32x512) hz2, View.ld_unit_zero (S := S32) hz1,
      View.ld_unit_zero (S := S32x32) hz2, View.ld_unit_zero (S := S1x32) hz2, View.ld_unit_zero (S := S1) hz1]
  isplitl [HS1]
  · iexists _; isplitr
    swap; · iexact HS1
    ipureintro
    sl_unfold_run_names
    rw [View.read_writes_eq_canon _ _ _ (fun y => ⟨_, List.mem_singleton_self _, View.mem_set_unit_zero hz2 inb_S1024x256_S1024x256_0_0 y⟩), View.canon_unit_zero hz2]
    simp only [View.readAt_eq_ld, harg2.read_unread, harg4.read_unread, harg13.read_unread,
      View.ld_unit_zero (S := S1024x1024) hz2, View.ld_unit_zero (S := S256x1024) hz2, View.ld_unit_zero (S := S1024x256) hz2]
  · iexists _; isplitr
    swap; · iexact HS2
    ipureintro
    sl_unfold_run_names
    rw [View.read_writes_eq_canon _ _ _ (fun y => ⟨_, List.mem_singleton_self _, View.mem_set_unit_zero hz2 inb_S1024x256_S1024x256_0_0 y⟩), View.canon_unit_zero hz2]
    simp only [View.readAt_eq_ld, harg3.read_unread, harg4.read_unread, harg14.read_unread,
      View.ld_unit_zero (S := S1024x1024) hz2, View.ld_unit_zero (S := S256x1024) hz2, View.ld_unit_zero (S := S1024x256) hz2]

end Cert.Kernel.Gen

end
-- ==== Proof.DataBits.lean ====
import proofs.«139798_j43525198578243_2_alg».proof.Proof.BodyBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the one pipeline, and its body obligation

Everything here is stated at a parameter `V`: the TensorCore's buffer contents when the region is entered. -/

section Data
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved since the fetch. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the block
    index has not moved since the fetch. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the block
    index has not moved since the fetch. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the block
    index has not moved since the fetch. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: unfetched, the block
    index has not moved since the fetch. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: unfetched, the block
    index has not moved since the fetch. -/
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: unfetched, the block
    index has not moved since the fetch. -/
theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: unfetched, the block
    index has not moved since the fetch. -/
theorem before_in7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: unfetched, the block
    index has not moved since the fetch. -/
theorem before_in8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: unfetched, the block
    index has not moved since the fetch. -/
theorem before_in9 {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- The input blocks at a point, each at its vector type. -/
def blk0 (c : Dev nD) (t : Fin cfg0.N) : Vec F S1024x1024 .f32 := iblk V c 0 t
def blk1 (c : Dev nD) (t : Fin cfg0.N) : Vec F S1024x1024 .f32 := iblk V c 1 t
def blk2 (c : Dev nD) (t : Fin cfg0.N) : Vec F S256x1024 .f32 := iblk V c 2 t
def blk3 (c : Dev nD) (t : Fin cfg0.N) : Vec F S256 .f32 := iblk V c 3 t
def blk4 (c : Dev nD) (t : Fin cfg0.N) : Vec F S32x512 .f32 := iblk V c 4 t
def blk5 (c : Dev nD) (t : Fin cfg0.N) : Vec F S32 .f32 := iblk V c 5 t
def blk6 (c : Dev nD) (t : Fin cfg0.N) : Vec F S32x32 .f32 := iblk V c 6 t
def blk7 (c : Dev nD) (t : Fin cfg0.N) : Vec F S32 .f32 := iblk V c 7 t
def blk8 (c : Dev nD) (t : Fin cfg0.N) : Vec F S1x32 .f32 := iblk V c 8 t
def blk9 (c : Dev nD) (t : Fin cfg0.N) : Vec F S1 .f32 := iblk V c 9 t

/-- The grid point of a natural number (reduced modulo the 88 points, so that it is total). -/
def pt (n : ℕ) : Fin cfg0.N := ⟨n % 88, lt_of_lt_of_eq (Nat.mod_lt n (Nat.succ_pos 87)) N_0.symm⟩
theorem pt_val (t : Fin cfg0.N) : pt t.val = t := Fin.ext (Nat.mod_eq_of_lt (lt_of_lt_of_eq t.isLt N_0))

/-- The first accumulator after chunk `k` of the batch tile whose first point is `base`: cleared, then the chunks'
    products added one after the other. -/
def acc1 (c : Dev nD) (base : ℕ) : ℕ → Vec F S1024x256 .f32
  | 0 => k0_pay4 (blk0 V c (pt base)) (blk2 V c (pt base)) k0_pay1
  | k + 1 => k0_pay4 (blk0 V c (pt (base + (k + 1)))) (blk2 V c (pt (base + (k + 1)))) (acc1 c base k)
/-- The second accumulator, likewise, over the second perspective's blocks. -/
def acc2 (c : Dev nD) (base : ℕ) : ℕ → Vec F S1024x256 .f32
  | 0 => k0_pay5 (blk1 V c (pt base)) (blk2 V c (pt base)) k0_pay2
  | k + 1 => k0_pay5 (blk1 V c (pt (base + (k + 1)))) (blk2 V c (pt (base + (k + 1)))) (acc2 c base k)

/-- What the accumulators hold after point `n`: the tile starts at `n - n % 44`, and `n` is its chunk `n % 44`. -/
def accAt1 (c : Dev nD) (n : ℕ) : Vec F S1024x256 .f32 := acc1 V c (n - n % 44) (n % 44)
def accAt2 (c : Dev nD) (n : ℕ) : Vec F S1024x256 .f32 := acc2 V c (n - n % 44) (n % 44)

theorem accAt1_first (c : Dev nD) (t : Fin cfg0.N) (h : t.val % 44 = 0) :
    accAt1 V c t.val = k0_pay4 (blk0 V c t) (blk2 V c t) k0_pay1 := by
  unfold accAt1; rw [h, Nat.sub_zero]; unfold acc1; rw [pt_val]
theorem accAt2_first (c : Dev nD) (t : Fin cfg0.N) (h : t.val % 44 = 0) :
    accAt2 V c t.val = k0_pay5 (blk1 V c t) (blk2 V c t) k0_pay2 := by
  unfold accAt2; rw [h, Nat.sub_zero]; unfold acc2; rw [pt_val]
theorem accAt1_next (c : Dev nD) (t : Fin cfg0.N) (h : t.val % 44 ≠ 0) :
    accAt1 V c t.val = k0_pay4 (blk0 V c t) (blk2 V c t) (accAt1 V c (t.val - 1)) := by
  obtain ⟨k, hk⟩ : ∃ k, t.val % 44 = k + 1 := ⟨t.val % 44 - 1, by omega⟩
  have hb : (t.val - 1) - (t.val - 1) % 44 = t.val - t.val % 44 := by omega
  have hk' : (t.val - 1) % 44 = k := by omega
  unfold accAt1; rw [hb, hk', hk]
  show k0_pay4 _ _ _ = _
  rw [show t.val - (k + 1) + (k + 1) = t.val from by omega, pt_val]
theorem accAt2_next (c : Dev nD) (t : Fin cfg0.N) (h : t.val % 44 ≠ 0) :
    accAt2 V c t.val = k0_pay5 (blk1 V c t) (blk2 V c t) (accAt2 V c (t.val - 1)) := by
  obtain ⟨k, hk⟩ : ∃ k, t.val % 44 = k + 1 := ⟨t.val % 44 - 1, by omega⟩
  have hb : (t.val - 1) - (t.val - 1) % 44 = t.val - t.val % 44 := by omega
  have hk' : (t.val - 1) % 44 = k := by omega
  unfold accAt2; rw [hb, hk', hk]
  show k0_pay5 _ _ _ = _
  rw [show t.val - (k + 1) + (k + 1) = t.val from by omega, pt_val]

/-- The tile's scores as the last chunk stores them. -/
def outAt (c : Dev nD) (t : Fin cfg0.N) : Vec F S1024x1 .f32 :=
  outOf (blk3 V c t) (accAt1 V c t.val) (accAt2 V c t.val) (blk4 V c t) (blk5 V c t) (blk6 V c t) (blk7 V c t) (blk8 V c t) (blk9 V c t)

/-- The two scratch accumulators as memrefs. -/
abbrev scM0 : Memref sig .tc .vmem S1024x256 .f32 := Memref.whole cc0_scratch0
abbrev scM1 : Memref sig .tc .vmem S1024x256 .f32 := Memref.whole cc0_scratch1

/-- The invariant before point `n`: the two accumulators — inside a batch tile at what the point before left, at a
    tile's first point at anything (the body clears them) — and the generator register at some state. -/
def PhiS (c : Dev nD) (n : ℕ) : sProp 𝕄 :=
  iprop((∃ s1 s2, ⌜n % 44 ≠ 0 → s1 = accAt1 V c (n - 1) ∧ s2 = accAt2 V c (n - 1)⌝
      ∗ owns (c : Thread nD τ) scM0 fullShare s1 ∗ owns (c : Thread nD τ) scM1 fullShare s2) ∗ ∃ r, prngReg c r)

/-- The proof data: the arrays as the region finds them; each input's buffer left at its block, the output's at the
    tile's scores; the invariant above; the two windows onto the reshaped features each hold half of that array. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outAt V c t
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = iblk V c 9 t := by dsimp only [dat]
theorem after10 (c : Dev nD) (t : Fin cfg0.N) : (dat V c).after 10 t = outAt V c t := by dsimp only [dat]
theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d
theorem before5 (c : Dev nD) (t : Fin cfg0.N) (d) : (dat V c).before 5 t d = iblk V c 5 t :=
  before_in5 V (dat V c) (A_eq V c 5) (after5 V c) t d
theorem before6 (c : Dev nD) (t : Fin cfg0.N) (d) : (dat V c).before 6 t d = iblk V c 6 t :=
  before_in6 V (dat V c) (A_eq V c 6) (after6 V c) t d
theorem before7 (c : Dev nD) (t : Fin cfg0.N) (d) : (dat V c).before 7 t d = iblk V c 7 t :=
  before_in7 V (dat V c) (A_eq V c 7) (after7 V c) t d
theorem before8 (c : Dev nD) (t : Fin cfg0.N) (d) : (dat V c).before 8 t d = iblk V c 8 t :=
  before_in8 V (dat V c) (A_eq V c 8) (after8 V c) t d
theorem before9 (c : Dev nD) (t : Fin cfg0.N) (d) : (dat V c).before 9 t d = iblk V c 9 t :=
  before_in9 V (dat V c) (A_eq V c 9) (after9 V c) t d

/-! ## The body obligation -/

/-- The first conditional holds exactly at the first chunk of a tile, the second exactly at the last: decided over the grid. -/
theorem hcond1 : ∀ t : Fin cfg0.N, cond1 (grid0.coords t) ↔ t.val % 44 = 0 :=
  (by decide +kernel : ∀ t : Fin grid0.N, cond1 (grid0.coords t) ↔ t.val % 44 = 0)
theorem hcond2 : ∀ t : Fin cfg0.N, cond2 (grid0.coords t) ↔ t.val % 44 = 43 :=
  (by decide +kernel : ∀ t : Fin grid0.N, cond2 (grid0.coords t) ↔ t.val % 44 = 43)
/-- Away from a tile's last chunk the output window is idle and not written back; at the last chunk it is live. -/
theorem idle10 : ∀ t : Fin cfg0.N, ¬cond2 (grid0.coords t) → cfg0.idle 10 (grid0.coords t) = true := by decide +kernel
theorem noFlush10 : ∀ t : Fin cfg0.N, ¬cond2 (grid0.coords t) → (cfg0.win 10).flush t = false := by decide +kernel
theorem live10 : ∀ t : Fin cfg0.N, cond2 (grid0.coords t) → cfg0.idle 10 (grid0.coords t) = false := by decide +kernel

theorem leaves_in0 (c : Dev nD) (t : Fin cfg0.N) :
    (dat V c).leavesExact 0 t = owns (c : Thread nD τ) (st0_0 t) fullShare (iblk V c 0 t) := by
  unfold Dat.leavesExact; rw [show cfg0.idle 0 (grid0.coords t) = false from rfl, after0]
theorem leaves_in1 (c : Dev nD) (t : Fin cfg0.N) :
    (dat V c).leavesExact 1 t = owns (c : Thread nD τ) (st0_1 t) fullShare (iblk V c 1 t) := by
  unfold Dat.leavesExact; rw [show cfg0.idle 1 (grid0.coords t) = false from rfl, after1]
theorem leaves_in2 (c : Dev nD) (t : Fin cfg0.N) :
    (dat V c).leavesExact 2 t = owns (c : Thread nD τ) (st0_2 t) fullShare (iblk V c 2 t) := by
  unfold Dat.leavesExact; rw [show cfg0.idle 2 (grid0.coords t) = false from rfl, after2]
theorem leaves_in3 (c : Dev nD) (t : Fin cfg0.N) :
    (dat V c).leavesExact 3 t = owns (c : Thread nD τ) (st0_3 t) fullShare (iblk V c 3 t) := by
  unfold Dat.leavesExact; rw [show cfg0.idle 3 (grid0.coords t) = false from rfl, after3]
theorem leaves_in4 (c : Dev nD) (t : Fin cfg0.N) :
    (dat V c).leavesExact 4 t = owns (c : Thread nD τ) (st0_4 t) fullShare (iblk V c 4 t) := by
  unfold Dat.leavesExact; rw [show cfg0.idle 4 (grid0.coords t) = false from rfl, after4]
theorem leaves_in5 (c : Dev nD) (t : Fin cfg0.N) :
    (dat V c).leavesExact 5 t = owns (c : Thread nD τ) (st0_5 t) fullShare (iblk V c 5 t) := by
  unfold Dat.leavesExact; rw [show cfg0.idle 5 (grid0.coords t) = false from rfl, after5]
theorem leaves_in6 (c : Dev nD) (t : Fin cfg0.N) :
    (dat V c).leavesExact 6 t = owns (c : Thread nD τ) (st0_6 t) fullShare (iblk V c 6 t) := by
  unfold Dat.leavesExact; rw [show cfg0.idle 6 (grid0.coords t) = false from rfl, after6]
theorem leaves_in7 (c : Dev nD) (t : Fin cfg0.N) :
    (dat V c).leavesExact 7 t = owns (c : Thread nD τ) (st0_7 t) fullShare (iblk V c 7 t) := by
  unfold Dat.leavesExact; rw [show cfg0.idle 7 (grid0.coords t) = false from rfl, after7]
theorem leaves_in8 (c : Dev nD) (t : Fin cfg0.N) :
    (dat V c).leavesExact 8 t = owns (c : Thread nD τ) (st0_8 t) fullShare (iblk V c 8 t) := by
  unfold Dat.leavesExact; rw [show cfg0.idle 8 (grid0.coords t) = false from rfl, after8]
theorem leaves_in9 (c : Dev nD) (t : Fin cfg0.N) :
    (dat V c).leavesExact 9 t = owns (c : Thread nD τ) (st0_9 t) fullShare (iblk V c 9 t) := by
  unfold Dat.leavesExact; rw [show cfg0.idle 9 (grid0.coords t) = false from rfl, after9]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4000000 in
/-- A tile's first chunk. -/
theorem sound_A (c : Dev nD) (t : Fin cfg0.N) (h0 : t.val % 44 = 0) :
    bodyPre V c t ⊢ wp frame (wpE (defs₀ (F := F)) Variants.none c none) Set.univ (bodyAt0 t) (fun _ => bodyPost V c t) := by
  have hc1 : cond1 (grid0.coords t) := (hcond1 t).mpr h0
  have hc2 : ¬cond2 (grid0.coords t) := fun h => by have := (hcond2 t).mp h; omega
  unfold bodyPre bodyPost bodyAt0
  simp only [before0, before1, before2, before3, before4, before5, before6, before7, before8, before9]
  rw [leaves_in0, leaves_in1, leaves_in2, leaves_in3, leaves_in4, leaves_in5, leaves_in6, leaves_in7, leaves_in8, leaves_in9]
  rw [show (dat V c).owesAt () t.succ = (dat V c).owesAt () t.castSucc from rfl]
  rw [show (dat V c).Φ t.succ = PhiS V c (t.val + 1) from rfl, show (dat V c).Φ t.castSucc = PhiS V c t.val from rfl]
  unfold PhiS
  rw [Dat.leavesExact_idle (dat V c) 10 t (idle10 t hc2) (noFlush10 t hc2)]
  iintro ⟨⟨⟨%s1, %s2, %hs, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_A c (grid0.coords t) _ _ _ _ _ _ _ _ _ _ _ _ _ _ _ _ _ _ _ _ _ _ _ _ _ _ hc1 hc2 (iblk V c 0 t) (iblk V c 1 t) (iblk V c 2 t) Set.univ _)
  isplitl [H0]; · iexact H0
  isplitl [H1]; · iexact H1
  isplitl [H2]; · iexact H2
  isplitl [HS1]; · iexists _; iexact HS1
  isplitl [HS2]; · iexists _; iexact HS2
  iintro ⟨H0, H1, H2, HS1, HS2⟩
  isplitl [HS1 HS2 Hg]
  · isplitl [HS1 HS2]
    · iexists _; iexists _; isplitr
      · ipureintro; intro _; rw [Nat.add_sub_cancel]
        exact ⟨(accAt1_first V c t h0).symm, (accAt2_first V c t h0).symm⟩
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- A middle chunk. -/
theorem sound_B (c : Dev nD) (t : Fin cfg0.N) (h0 : t.val % 44 ≠ 0) (h43 : t.val % 44 ≠ 43) :
    bodyPre V c t ⊢ wp frame (wpE (defs₀ (F := F)) Variants.none c none) Set.univ (bodyAt0 t) (fun _ => bodyPost V c t) := by
  have hc1 : ¬cond1 (grid0.coords t) := fun h => h0 ((hcond1 t).mp h)
  have hc2 : ¬cond2 (grid0.coords t) := fun h => h43 ((hcond2 t).mp h)
  unfold bodyPre bodyPost bodyAt0
  simp only [before0, before1, before2, before3, before4, before5, before6, before7, before8, before9]
  rw [leaves_in0, leaves_in1, leaves_in2, leaves_in3, leaves_in4, leaves_in5, leaves_in6, leaves_in7, leaves_in8, leaves_in9]
  rw [show (dat V c).owesAt () t.succ = (dat V c).owesAt () t.castSucc from rfl]
  rw [show (dat V c).Φ t.succ = PhiS V c (t.val + 1) from rfl, show (dat V c).Φ t.castSucc = PhiS V c t.val from rfl]
  unfold PhiS
  rw [Dat.leavesExact_idle (dat V c) 10 t (idle10 t hc2) (noFlush10 t hc2)]
  iintro ⟨⟨⟨%s1, %s2, %hs, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hs h0
  iapply (run_B c (grid0.coords t) _ _ _ _ _ _ _ _ _ _ _ _ _ _ _ _ _ _ _ _ _ _ _ _ _ _ hc1 hc2 (iblk V c 0 t) (iblk V c 1 t) (iblk V c 2 t) _ _ Set.univ _)
  isplitl [H0]; · iexact H0
  isplitl [H1]; · iexact H1
  isplitl [H2]; · iexact H2
  isplitl [HS1]; · iexact HS1
  isplitl [HS2]; · iexact HS2
  iintro ⟨H0, H1, H2, HS1, HS2⟩
  isplitl [HS1 HS2 Hg]
  · isplitl [HS1 HS2]
    · iexists _; iexists _; isplitr
      · ipureintro; intro _; rw [Nat.add_sub_cancel]
        exact ⟨(accAt1_next V c t h0).symm, (accAt2_next V c t h0).symm⟩
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- A tile's last chunk. -/
theorem sound_C (c : Dev nD) (t : Fin cfg0.N) (h43 : t.val % 44 = 43) :
    bodyPre V c t ⊢ wp frame (wpE (defs₀ (F := F)) Variants.none c none) Set.univ (bodyAt0 t) (fun _ => bodyPost V c t) := by
  have h0 : t.val % 44 ≠ 0 := by omega
  have hc1 : ¬cond1 (grid0.coords t) := fun h => h0 ((hcond1 t).mp h)
  have hc2 : cond2 (grid0.coords t) := (hcond2 t).mpr h43
  unfold bodyPre bodyPost bodyAt0
  simp only [before0, before1, before2, before3, before4, before5, before6, before7, before8, before9]
  rw [leaves_in0, leaves_in1, leaves_in2, leaves_in3, leaves_in4, leaves_in5, leaves_in6, leaves_in7, leaves_in8, leaves_in9]
  rw [show (dat V c).owesAt () t.succ = (dat V c).owesAt () t.castSucc from rfl]
  rw [show (dat V c).Φ t.succ = PhiS V c (t.val + 1) from rfl, show (dat V c).Φ t.castSucc = PhiS V c t.val from rfl]
  unfold PhiS
  rw [show (dat V c).leavesExact 10 t = owns (c : Thread nD τ) (st0_10 t) fullShare (outAt V c t) from by
    unfold Dat.leavesExact; rw [live10 t hc2, after10]]
  iintro ⟨⟨⟨%s1, %s2, %hs, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hs h0
  iapply (run_C c (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) (iblk V c 8 t) (iblk V c 9 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS1]; · iexact HS1
  isplitl [HS2]; · iexact HS2
  iintro ⟨H0, H1, H2, H3, H4, H5, H6, H7, H8, H9, H10, HS1, HS2⟩
  isplitl [HS1 HS2 Hg]
  · isplitl [HS1 HS2]
    · iexists _; iexists _; isplitr
      · ipureintro; intro _; rw [Nat.add_sub_cancel]
        exact ⟨(accAt1_next V c t h0).symm, (accAt2_next V c t h0).symm⟩
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [show outAt V c t = outOf (iblk V c 3 t) (k0_pay4 (iblk V c 0 t) (iblk V c 2 t) (accAt1 V c (t.val - 1)))
      (k0_pay5 (iblk V c 1 t) (iblk V c 2 t) (accAt2 V c (t.val - 1))) (iblk V c 4 t) (iblk V c 5 t) (iblk V c 6 t) (iblk V c 7 t)
      (iblk V c 8 t) (iblk V c 9 t) from by
    unfold outAt; rw [accAt1_next V c t h0, accAt2_next V c t h0]; rfl]
  iexact H10

/-- The library's body obligation, at every point. -/
theorem body_obligation (c : Dev nD) : BodyObligation (dat (F := F) V c) (defs₀ (F := F)) Variants.none () Set.univ := fun t => by
  rw [bigSep_W0, bigSep_W0]
  by_cases h0 : t.val % 44 = 0
  · exact sound_A V c t h0
  · by_cases h43 : t.val % 44 = 43
    · exact sound_C V c t h43
    · exact sound_B V c t h0 h43

end Data

end Cert.Kernel.Gen

end
-- ==== Proof.ArraysBits.lean ====
/-
  The region's arrays at its entry and at its exit, when two windows share one array.

  A core holds every unscoped buffer whole, at the full share. Ten of them are behind the eleven windows: the reshaped
  features are read through two windows, the eight small arguments and the scores through one each. At entry the full
  share of the reshaped features is cut into its left and right halves, one for each window onto it, both at the same
  contents; at exit the halves are joined again (an input is never written, so both still hold what they held at
  entry), and the scores are at what the last write-back left.
-/
import proofs.«139798_j43525198578243_2_alg».proof.Proof.DataBits

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays
variable (V V' : (c : Dev nD) → (b : Ref sig .tc) → Buf (Elt F) ((c : Thread nD τ).loc b))

/-- The distinct buffers behind the windows' arrays, one by one: the reshaped features, the eight small arguments and
    the scores. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0)
          ∗ (((c : Thread nD τ).loc main_arg1) ↦{fullShare} W main_arg1)
          ∗ (((c : Thread nD τ).loc main_arg2) ↦{fullShare} W main_arg2)
          ∗ (((c : Thread nD τ).loc main_arg3) ↦{fullShare} W main_arg3)
          ∗ (((c : Thread nD τ).loc main_arg4) ↦{fullShare} W main_arg4)
          ∗ (((c : Thread nD τ).loc main_arg5) ↦{fullShare} W main_arg5)
          ∗ (((c : Thread nD τ).loc main_arg6) ↦{fullShare} W main_arg6)
          ∗ (((c : Thread nD τ).loc main_arg7) ↦{fullShare} W main_arg7)
          ∗ (((c : Thread nD τ).loc main_arg8) ↦{fullShare} W main_arg8)
          ∗ (((c : Thread nD τ).loc main_v1) ↦{fullShare} W main_v1)) := by
  unfold Pipeline.arrBufs
  exact bigSep_eq_bigSepL_of_eq [main_v0, main_arg1, main_arg2, main_arg3, main_arg4, main_arg5, main_arg6, main_arg7, main_arg8, main_v1]
    (by decide) (by decide) _

/-- The share each window holds its array at: the two windows onto the reshaped features a half each, every other
    window (the output among them) the whole. -/
theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl

set_option maxHeartbeats 1000000 in
/-- The pipeline's arrays, window by window: the two windows onto the reshaped features hold its left and right
    halves, every other window its array whole. -/
theorem arrays_chain (c : Dev nD) (G : (w : Fin cfg0.W) → Buf (Elt F) ((cfg0.win w).arr.view.loc (c : Thread nD τ))) :
    ((dat V c).arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2)
          ∗ (((c : Thread nD τ).loc main_arg2) ↦{fullShare} G 3)
          ∗ (((c : Thread nD τ).loc main_arg3) ↦{fullShare} G 4)
          ∗ (((c : Thread nD τ).loc main_arg4) ↦{fullShare} G 5)
          ∗ (((c : Thread nD τ).loc main_arg5) ↦{fullShare} G 6)
          ∗ (((c : Thread nD τ).loc main_arg6) ↦{fullShare} G 7)
          ∗ (((c : Thread nD τ).loc main_arg7) ↦{fullShare} G 8)
          ∗ (((c : Thread nD τ).loc main_arg8) ↦{fullShare} G 9)
          ∗ (((c : Thread nD τ).loc main_v1) ↦{fullShare} G 10)) := by
  unfold Dat.arrays
  rw [bigSep_W0]
  rw [(arr_whole0 0).set_eq_univ, (arr_whole0 2).set_eq_univ, (arr_whole0 3).set_eq_univ, (arr_whole0 4).set_eq_univ,
    (arr_whole0 5).set_eq_univ, (arr_whole0 6).set_eq_univ, (arr_whole0 7).set_eq_univ, (arr_whole0 8).set_eq_univ,
    (arr_whole0 9).set_eq_univ, (arr_whole0 10).set_eq_univ]
  rw [share0, share1, share2, share3, share4, share5, share6, share7, share8, share9, share10]

/-- ENTRY: of a core's unscoped buffers held whole at `V`, the ten arrays behind the windows are taken out; the
    reshaped features' full share is cut into its two halves, one for each of the two windows onto it, both at the
    contents `V` has there; what is left is the unscoped rest. -/
theorem arrays_entry (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_chain, arrays_chain]
  refine sep_mono ?_ .rfl
  refine (sep_mono (pointsTo_share (PosShare.mem_left_op_right fullShare)).1 .rfl).trans ?_
  exact sep_assoc.1

/-- An input window's array is never written: at every point it holds what `V` has behind the window. -/
theorem arrAt_in0 (c : Dev nD) (n : ℕ) : (dat V c).arrAt 0 n = V c main_v0 := (dat V c).arrAt_in 0 rfl n
theorem arrAt_in1 (c : Dev nD) (n : ℕ) : (dat V c).arrAt 1 n = V c main_v0 := (dat V c).arrAt_in 1 rfl n
theorem arrAt_in2 (c : Dev nD) (n : ℕ) : (dat V c).arrAt 2 n = V c main_arg1 := (dat V c).arrAt_in 2 rfl n
theorem arrAt_in3 (c : Dev nD) (n : ℕ) : (dat V c).arrAt 3 n = V c main_arg2 := (dat V c).arrAt_in 3 rfl n
theorem arrAt_in4 (c : Dev nD) (n : ℕ) : (dat V c).arrAt 4 n = V c main_arg3 := (dat V c).arrAt_in 4 rfl n
theorem arrAt_in5 (c : Dev nD) (n : ℕ) : (dat V c).arrAt 5 n = V c main_arg4 := (dat V c).arrAt_in 5 rfl n
theorem arrAt_in6 (c : Dev nD) (n : ℕ) : (dat V c).arrAt 6 n = V c main_arg5 := (dat V c).arrAt_in 6 rfl n
theorem arrAt_in7 (c : Dev nD) (n : ℕ) : (dat V c).arrAt 7 n = V c main_arg6 := (dat V c).arrAt_in 7 rfl n
theorem arrAt_in8 (c : Dev nD) (n : ℕ) : (dat V c).arrAt 8 n = V c main_arg7 := (dat V c).arrAt_in 8 rfl n
theorem arrAt_in9 (c : Dev nD) (n : ℕ) : (dat V c).arrAt 9 n = V c main_arg8 := (dat V c).arrAt_in 9 rfl n

set_option maxHeartbeats 1000000 in
/-- EXIT: the two halves of the reshaped features, both still at the contents `V` has there, are joined into its full
    share; with the eight small arguments unchanged, the scores at what the last write-back left and the unscoped
    rest, these are the core's unscoped buffers held whole at any `V'` that has the scores there and agrees with `V`
    elsewhere. -/
theorem arrays_exit (c : Dev nD) (hout : V' c main_v1 = (dat V c).arrAt 10 cfg0.N)
    (hrest : ∀ b : Ref sig .tc, b ≠ main_v1 → V' c b = V c b) :
    iprop((dat V c).arrays ((dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  rw [Pipeline.unscopedBufs_split₀ cfgs 0 winFacts₀0.arr_unscoped c (V' c), arrBufs_chain, arrays_chain]
  refine sep_mono ?_ (Entails.of_eq ?_)
  · rw [arrAt_in0, arrAt_in1, arrAt_in2, arrAt_in3, arrAt_in4, arrAt_in5, arrAt_in6, arrAt_in7, arrAt_in8, arrAt_in9]
    rw [hrest main_v0 (by decide), hrest main_arg1 (by decide), hrest main_arg2 (by decide), hrest main_arg3 (by decide),
      hrest main_arg4 (by decide), hrest main_arg5 (by decide), hrest main_arg6 (by decide), hrest main_arg7 (by decide),
      hrest main_arg8 (by decide), hout]
    refine sep_assoc.2.trans ?_
    exact sep_mono (pointsTo_share (PosShare.mem_left_op_right fullShare)).2 .rfl
  · unfold Pipeline.unscopedRest
    exact bigSep_congr fun b hb => by
      rw [hrest b fun e => (Finset.mem_sdiff.mp hb).2 (Finset.mem_image.mpr ⟨10, Finset.mem_univ _, e.symm⟩)]

end Arrays

end Cert.Kernel.Gen

end
-- ==== Proof.RunBits.lean ====
import proofs.«139798_j43525198578243_2_alg».proof.Proof.ArraysBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's two segments (the host reshape, the kernel region) from the launch to the return

The thread state is "every unscoped buffer at a valuation, the generator register at some state, nothing owed".
The valuation starts at the launch memory, takes the reshape's result after the host line, and after the region
differs only at the output array, which holds what the write-backs of the last chunks left there. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host reshape (the region's entry). -/
abbrev W1 : Dev nD → Valuation τ sig (Elt F) := fun c => StableHlo.after hostOps0 (W0 m ρ c)
/-- The same read at the TensorCore's references (what the proof data take). -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v1) ((dat (V1 m ρ) c).arrAt 10 cfg0.N)
theorem W2_out (c : Dev nD) : W2 m ρ c (Proc.devRef .tc main_v1) = (dat (V1 m ρ) c).arrAt 10 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))
    _ = m ((c : Thread nD τ).loc main_arg8) := rfl

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The region over the thread state: entered from every unscoped buffer at `W1`, left at `W2`. The arrays are split
    out of the unscoped buffers (the shared one cut in two halves) and put back; the scratch accumulators and the
    generator register go into the invariant and come back; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_entry (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS (V1 m ρ) c 0 from rfl]; unfold PhiS
    rw [scopedRest0_eq]; simp only [scM0, scM1, owns_whole]
    iintro ⟨Hp, -, ⟨%f1, H1⟩, ⟨%f2, H2⟩⟩
    isplitr [Hp]
    · iexists f1; iexists f2; isplitr
      · ipureintro; intro h; exact absurd (Nat.zero_mod 44) h
      isplitl [H1]; · iexact H1
      iexact H2
    iexact Hp
  hout c := by
    rw [Pipeline.ownSems0_none, show (pdats m ρ 0 c).Φ (Fin.last _) = PhiS (V1 m ρ) c (Fin.last cfg0.N).val from rfl]; unfold PhiS
    rw [scopedRest0_eq]; simp only [scM0, scM1, owns_whole]
    iintro ⟨⟨%s1, %s2, -, H1, H2⟩, Hp⟩
    isplitl [Hp]; · iexact Hp
    isplitr; · iempintro
    isplitl [H1]; · iexists _; iexact H1
    iexists _; iexact H2
  hexit c := by
    have hjoin := arrays_exit (V1 m ρ) (V2 m ρ) c (W2_out m ρ c) (fun b hb => W2_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-- @main's two segments. -/
abbrev segs : List (Pipeline.Seg (pcfgs (F := F)) adm (pdats m ρ) () defs₀ 𝒱₀ L lv) :=
  [ .host (hseg hostOps0 hostOps0_sub hostOps0_fresh (W0 m ρ)),
    .region (reg0 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The run with the result named: the output array ends at what the write-backs leave, the arguments as launched. -/
theorem run_named : θ_run defs (onTc (τ := τ) (main (F := F))) ⟨m, fun _ => 0, ρ⟩ (fun r => ∀ c : Dev nD,
      r.2.mem ((c.tc : Thread nD τ).loc main_v1) = (dat (V1 m ρ) c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v1 (by decide))).trans (W2_out m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c),
      (h c _ (mem_uc main_arg7 (by decide))).trans (W2_main_arg7 m ρ c),
      (h c _ (mem_uc main_arg8 (by decide))).trans (W2_main_arg8 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

/-- What the region finds at its arrays: the arguments as launched, and the features reshaped. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))).trans rfl
theorem V1_main_arg3 (c : Dev nD) : V1 m ρ c main_arg3 = m ((c : Thread nD τ).loc main_arg3) :=
  (StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))).trans rfl
theorem V1_main_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))).trans rfl
theorem V1_main_arg5 (c : Dev nD) : V1 m ρ c main_arg5 = m ((c : Thread nD τ).loc main_arg5) :=
  (StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))).trans rfl
theorem V1_main_arg6 (c : Dev nD) : V1 m ρ c main_arg6 = m ((c : Thread nD τ).loc main_arg6) :=
  (StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))).trans rfl
theorem V1_main_arg7 (c : Dev nD) : V1 m ρ c main_arg7 = m ((c : Thread nD τ).loc main_arg7) :=
  (StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))).trans rfl
theorem V1_main_arg8 (c : Dev nD) : V1 m ρ c main_arg8 = m ((c : Thread nD τ).loc main_arg8) :=
  (StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))).trans rfl
theorem V1_main_v0 (c : Dev nD) :
    V1 m ρ c main_v0 = shapeCast S2048x90112 (m ((c : Thread nD τ).loc main_arg0)) shapeCasts_S2048x2x45056_S2048x90112 := by
  show StableHlo.after hostOps0 _ (Proc.devRef .tc main_v0) = _
  after_results; rfl

end Cert.Kernel.Gen

end
-- ==== Proof.BodyIdeal.lean ====
import proofs.«139798_j43525198578243_2_alg».proof.Proof.Gen.KernelIdeal.Launch
import proofs.«139798_j43525198578243_2_alg».proof.Proof.Gen.KernelIdeal.Skeleton
import proofs.«139798_j43525198578243_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body, case by case

The grid is (batch tile, feature chunk) = 2 × 44, the chunk axis minor. At every point the body adds the chunk's two
products (each perspective's 1024×1024 block of the features against the 256×1024 block of the first layer's weights)
into two 1024×256 accumulators kept in scratch memory; at chunk 0 it first clears them; at chunk 43 it then runs the
three small dense layers on the finished sums and stores the tile's 1024 scores. So there are three control cases:
the first chunk, a middle chunk, the last chunk. Each is run once, symbolically, and what each buffer holds afterwards
is stated through the body's named pure terms. -/

/-- The first conditional: the chunk coordinate is 0. -/
abbrev cond1 (i : grid0.Coords) : Prop := (Scalar.cmpi .ne (Scalar.extui (Scalar.cmpi .eq (BitVec.ofNat 32 (i 1).val) 0#32)) 0#32) = 1#1
/-- The second conditional: the chunk coordinate is 43. -/
abbrev cond2 (i : grid0.Coords) : Prop := k0_cond2 i = 1#1

theorem hz2 : (![0, 0] : Fin 2 → Nat) = fun _ => 0 := by
  funext a; match a with
  | ⟨0, _⟩ => rfl
  | ⟨1, _⟩ => rfl
theorem hz1 : (![0] : Fin 1 → Nat) = fun _ => 0 := by
  funext a; match a with
  | ⟨0, _⟩ => rfl

/-- The tile's scores from the finished accumulators and the small weights: the last chunk's stored value. -/
def outOf (b1v : Vec F S256 .f32) (a1 a2 : Vec F S1024x256 .f32) (w2 : Vec F S32x512 .f32) (b2v : Vec F S32 .f32)
    (w3 : Vec F S32x32 .f32) (b3v : Vec F S32 .f32) (w4 : Vec F S1x32 .f32) (b4v : Vec F S1 .f32) : Vec F S1024x1 .f32 :=
  k0_pay6 (k0_pay7 b1v a1 a2 w2 b2v w3 b3v w4) b4v

set_option maxHeartbeats 1000000 in
/-- A middle chunk: both accumulators take the chunk's product on top of what they held. -/
theorem run_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x256 .f32) (harg13 : arg13.IsWhole) (arg14 : Memref sig .tc .vmem S1024x256 .f32) (harg14 : arg14.IsWhole) (hc1 : ¬cond1 i) (hc2 : ¬cond2 i)
    (x0 x1 : Vec F S1024x1024 .f32) (w : Vec F S256x1024 .f32) (s1 s2 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare w
        ∗ owns (c : Thread nD τ) arg13 fullShare s1 ∗ owns (c : Thread nD τ) arg14 fullShare s2
        ∗ (iprop(owns (c : Thread nD τ) arg2 fullShare x0 ∗ owns (c : Thread nD τ) arg3 fullShare x1 ∗ owns (c : Thread nD τ) arg4 fullShare w
            ∗ owns (c : Thread nD τ) arg13 fullShare (k0_pay4 x0 w s1) ∗ owns (c : Thread nD τ) arg14 fullShare (k0_pay5 x1 w s2)) -∗ K ⟨⟩))
      ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14) K := by
  simp only [cc0__nnue_kernel_eq_skeleton]; unfold cc0__nnue_kernel_skel
  unfold owns
  iintro ⟨⟨%f0, %hf0, H0⟩, ⟨%f1, %hf1, H1⟩, ⟨%f2, %hf2, H2⟩, ⟨%g1, %hg1, HS1⟩, ⟨%g2, %hg2, HS2⟩, Hk⟩
  obtain rfl := harg2.eq_unread hf0; obtain rfl := harg3.eq_unread hf1; obtain rfl := harg4.eq_unread hf2
  obtain rfl := harg13.eq_unread hg1; obtain rfl := harg14.eq_unread hg2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    rw [View.read_writes_eq_canon _ _ _ (fun y => ⟨_, List.mem_singleton_self _, View.mem_set_unit_zero hz2 inb_S1024x256_S1024x256_0_0 y⟩), View.canon_unit_zero hz2]
    simp only [View.readAt_eq_ld, harg2.read_unread, harg4.read_unread, harg13.read_unread,
      View.ld_unit_zero (S := S1024x1024) hz2, View.ld_unit_zero (S := S256x1024) hz2, View.ld_unit_zero (S := S1024x256) hz2]
  · iexists _; isplitr
    swap; · iexact HS2
    ipureintro
    rw [View.read_writes_eq_canon _ _ _ (fun y => ⟨_, List.mem_singleton_self _, View.mem_set_unit_zero hz2 inb_S1024x256_S1024x256_0_0 y⟩), View.canon_unit_zero hz2]
    simp only [View.readAt_eq_ld, harg3.read_unread, harg4.read_unread, harg14.read_unread,
      View.ld_unit_zero (S := S1024x1024) hz2, View.ld_unit_zero (S := S256x1024) hz2, View.ld_unit_zero (S := S1024x256) hz2]

set_option maxHeartbeats 1000000 in
/-- The first chunk: the accumulators are cleared, whatever they held, then take the chunk's product. -/
theorem run_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x256 .f32) (harg13 : arg13.IsWhole) (arg14 : Memref sig .tc .vmem S1024x256 .f32) (harg14 : arg14.IsWhole) (hc1 : cond1 i) (hc2 : ¬cond2 i)
    (x0 x1 : Vec F S1024x1024 .f32) (w : Vec F S256x1024 .f32) (E : Set ℕ) (K : PUnit → sProp 𝕄) :
    iprop(owns (c : Thread nD τ) arg2 fullShare x0 ∗ owns (c : Thread nD τ) arg3 fullShare x1 ∗ owns (c : Thread nD τ) arg4 fullShare w
        ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare w
            ∗ owns (c : Thread nD τ) arg13 fullShare (k0_pay4 x0 w k0_pay1) ∗ owns (c : Thread nD τ) arg14 fullShare (k0_pay5 x1 w k0_pay2)) -∗ K ⟨⟩))
      ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14) K := by
  simp only [cc0__nnue_kernel_eq_skeleton]; unfold cc0__nnue_kernel_skel
  unfold owns
  iintro ⟨⟨%f0, %hf0, H0⟩, ⟨%f1, %hf1, H1⟩, ⟨%f2, %hf2, H2⟩, ⟨%d1, %g1, -, HS1⟩, ⟨%d2, %g2, -, HS2⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS1]
  · iexists _; isplitr
    swap; · iexact HS1
    ipureintro
    sl_unfold_run_names
    rw [View.read_writes_eq_canon _ _ _ (fun y => ⟨_, List.mem_cons_self .., View.mem_set_unit_zero hz2 inb_S1024x256_S1024x256_0_0 y⟩), View.canon_cons_unit_zero hz2]
    simp only [View.readAt_eq_ld, harg2.read_unread, harg4.read_unread, View.readCov_unit_zero (S := S1024x256) arg13.view hz2 inb_S1024x256_S1024x256_0_0,
      View.ld_unit_zero (S := S1024x1024) hz2, View.ld_unit_zero (S := S256x1024) hz2]
  · iexists _; isplitr
    swap; · iexact HS2
    ipureintro
    sl_unfold_run_names
    rw [View.read_writes_eq_canon _ _ _ (fun y => ⟨_, List.mem_cons_self .., View.mem_set_unit_zero hz2 inb_S1024x256_S1024x256_0_0 y⟩), View.canon_cons_unit_zero hz2]
    simp only [View.readAt_eq_ld, harg3.read_unread, harg4.read_unread, View.readCov_unit_zero (S := S1024x256) arg14.view hz2 inb_S1024x256_S1024x256_0_0,
      View.ld_unit_zero (S := S1024x1024) hz2, View.ld_unit_zero (S := S256x1024) hz2]

set_option maxHeartbeats 2000000 in
/-- The last chunk: the accumulators take the chunk's product, then the small layers run on the finished sums and
    the tile's scores are stored. -/
theorem run_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S1024x1 .f32) (harg12 : arg12.IsWhole) (arg13 : Memref sig .tc .vmem S1024x256 .f32) (harg13 : arg13.IsWhole) (arg14 : Memref sig .tc .vmem S1024x256 .f32) (harg14 : arg14.IsWhole) (hc1 : ¬cond1 i) (hc2 : cond2 i)
    (x0 x1 : Vec F S1024x1024 .f32) (w : Vec F S256x1024 .f32) (b1v : Vec F S256 .f32) (w2 : Vec F S32x512 .f32)
    (b2v : Vec F S32 .f32) (w3 : Vec F S32x32 .f32) (b3v : Vec F S32 .f32) (w4 : Vec F S1x32 .f32) (b4v : Vec F S1 .f32)
    (s1 s2 : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare w
        ∗ owns (c : Thread nD τ) arg5 fullShare b1v ∗ owns (c : Thread nD τ) arg6 fullShare w2 ∗ owns (c : Thread nD τ) arg7 fullShare b2v ∗ owns (c : Thread nD τ) arg8 fullShare w3
        ∗ owns (c : Thread nD τ) arg9 fullShare b3v ∗ owns (c : Thread nD τ) arg10 fullShare w4 ∗ owns (c : Thread nD τ) arg11 fullShare b4v ∗ (∃ d, owns (c : Thread nD τ) arg12 fullShare d)
        ∗ owns (c : Thread nD τ) arg13 fullShare s1 ∗ owns (c : Thread nD τ) arg14 fullShare s2
        ∗ (iprop(owns (c : Thread nD τ) arg2 fullShare x0 ∗ owns (c : Thread nD τ) arg3 fullShare x1 ∗ owns (c : Thread nD τ) arg4 fullShare w
            ∗ owns (c : Thread nD τ) arg5 fullShare b1v ∗ owns (c : Thread nD τ) arg6 fullShare w2 ∗ owns (c : Thread nD τ) arg7 fullShare b2v ∗ owns (c : Thread nD τ) arg8 fullShare w3
            ∗ owns (c : Thread nD τ) arg9 fullShare b3v ∗ owns (c : Thread nD τ) arg10 fullShare w4 ∗ owns (c : Thread nD τ) arg11 fullShare b4v
            ∗ owns (c : Thread nD τ) arg12 fullShare (outOf b1v (k0_pay4 x0 w s1) (k0_pay5 x1 w s2) w2 b2v w3 b3v w4 b4v)
            ∗ owns (c : Thread nD τ) arg13 fullShare (k0_pay4 x0 w s1) ∗ owns (c : Thread nD τ) arg14 fullShare (k0_pay5 x1 w s2)) -∗ K ⟨⟩))
      ⊢ wp frame (wpE (defs₀ (F := F)) Variants.none c none) E (cc0__nnue_kernel i arg2 harg2 arg3 harg3 arg4 harg4 arg5 harg5 arg6 harg6 arg7 harg7 arg8 harg8 arg9 harg9 arg10 harg10 arg11 harg11 arg12 harg12 arg13 harg13 arg14 harg14) K := by
  simp only [cc0__nnue_kernel_eq_skeleton, k0_part1_eq_skeleton]; unfold cc0__nnue_kernel_skel
  unfold owns
  iintro ⟨⟨%f0, %hf0, H0⟩, ⟨%f1, %hf1, H1⟩, ⟨%f2, %hf2, H2⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%g1, %hg1, HS1⟩, ⟨%g2, %hg2, HS2⟩, Hk⟩
  obtain rfl := harg2.eq_unread hf0; obtain rfl := harg3.eq_unread hf1; obtain rfl := harg4.eq_unread hf2
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11
  obtain rfl := harg13.eq_unread hg1; obtain rfl := harg14.eq_unread hg2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr
    swap; · iexact H12
    ipureintro
    sl_unfold_run_names
    rw [View.read_writes_eq_canon _ _ _ (fun y => ⟨_, List.mem_singleton_self _, View.mem_set_unit_zero hz2 inb_S1024x1_S1024x1_0_0 y⟩), View.canon_unit_zero hz2]
    unfold outOf
    simp only [View.readAt_eq_ld, harg2.read_unread, harg3.read_unread, harg4.read_unread, harg5.read_unread,
      harg6.read_unread, harg7.read_unread, harg8.read_unread, harg9.read_unread, harg10.read_unread,
      harg11.read_unread, harg13.read_unread, harg14.read_unread,
      View.readCov_unit_zero (S := S1024x256) arg13.view hz2 inb_S1024x256_S1024x256_0_0,
      View.readCov_unit_zero (S := S1024x256) arg14.view hz2 inb_S1024x256_S1024x256_0_0,
      View.ld_unit_zero (S := S1024x1024) hz2, View.ld_unit_zero (S := S256x1024) hz2, View.ld_unit_zero (S := S1024x256) hz2,
      View.ld_unit_zero (S := S256) hz1, View.ld_unit_zero (S := S32x512) hz2, View.ld_unit_zero (S := S32) hz1,
      View.ld_unit_zero (S := S32x32) hz2, View.ld_unit_zero (S := S1x32) hz2, View.ld_unit_zero (S := S1) hz1]
  isplitl [HS1]
  · iexists _; isplitr
    swap; · iexact HS1
    ipureintro
    sl_unfold_run_names
    rw [View.read_writes_eq_canon _ _ _ (fun y => ⟨_, List.mem_singleton_self _, View.mem_set_unit_zero hz2 inb_S1024x256_S1024x256_0_0 y⟩), View.canon_unit_zero hz2]
    simp only [View.readAt_eq_ld, harg2.read_unread, harg4.read_unread, harg13.read_unread,
      View.ld_unit_zero (S := S1024x1024) hz2, View.ld_unit_zero (S := S256x1024) hz2, View.ld_unit_zero (S := S1024x256) hz2]
  · iexists _; isplitr
    swap; · iexact HS2
    ipureintro
    sl_unfold_run_names
    rw [View.read_writes_eq_canon _ _ _ (fun y => ⟨_, List.mem_singleton_self _, View.mem_set_unit_zero hz2 inb_S1024x256_S1024x256_0_0 y⟩), View.canon_unit_zero hz2]
    simp only [View.readAt_eq_ld, harg3.read_unread, harg4.read_unread, harg14.read_unread,
      View.ld_unit_zero (S := S1024x1024) hz2, View.ld_unit_zero (S := S256x1024) hz2, View.ld_unit_zero (S := S1024x256) hz2]

end Cert.KernelIdeal.Gen

end
-- ==== Proof.DataIdeal.lean ====
import proofs.«139798_j43525198578243_2_alg».proof.Proof.BodyIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the one pipeline, and its body obligation

Everything here is stated at a parameter `V`: the TensorCore's buffer contents when the region is entered. -/

section Data
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the block
    index has not moved since the fetch. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the block
    index has not moved since the fetch. -/
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the block
    index has not moved since the fetch. -/
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the block
    index has not moved since the fetch. -/
theorem before_in3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: unfetched, the block
    index has not moved since the fetch. -/
theorem before_in4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: unfetched, the block
    index has not moved since the fetch. -/
theorem before_in5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: unfetched, the block
    index has not moved since the fetch. -/
theorem before_in6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: unfetched, the block
    index has not moved since the fetch. -/
theorem before_in7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: unfetched, the block
    index has not moved since the fetch. -/
theorem before_in8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: unfetched, the block
    index has not moved since the fetch. -/
theorem before_in9 {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- The input blocks at a point, each at its vector type. -/
def blk0 (c : Dev nD) (t : Fin cfg0.N) : Vec F S1024x1024 .f32 := iblk V c 0 t
def blk1 (c : Dev nD) (t : Fin cfg0.N) : Vec F S1024x1024 .f32 := iblk V c 1 t
def blk2 (c : Dev nD) (t : Fin cfg0.N) : Vec F S256x1024 .f32 := iblk V c 2 t
def blk3 (c : Dev nD) (t : Fin cfg0.N) : Vec F S256 .f32 := iblk V c 3 t
def blk4 (c : Dev nD) (t : Fin cfg0.N) : Vec F S32x512 .f32 := iblk V c 4 t
def blk5 (c : Dev nD) (t : Fin cfg0.N) : Vec F S32 .f32 := iblk V c 5 t
def blk6 (c : Dev nD) (t : Fin cfg0.N) : Vec F S32x32 .f32 := iblk V c 6 t
def blk7 (c : Dev nD) (t : Fin cfg0.N) : Vec F S32 .f32 := iblk V c 7 t
def blk8 (c : Dev nD) (t : Fin cfg0.N) : Vec F S1x32 .f32 := iblk V c 8 t
def blk9 (c : Dev nD) (t : Fin cfg0.N) : Vec F S1 .f32 := iblk V c 9 t

/-- The grid point of a natural number (reduced modulo the 88 points, so that it is total). -/
def pt (n : ℕ) : Fin cfg0.N := ⟨n % 88, lt_of_lt_of_eq (Nat.mod_lt n (Nat.succ_pos 87)) N_0.symm⟩
theorem pt_val (t : Fin cfg0.N) : pt t.val = t := Fin.ext (Nat.mod_eq_of_lt (lt_of_lt_of_eq t.isLt N_0))

/-- The first accumulator after chunk `k` of the batch tile whose first point is `base`: cleared, then the chunks'
    products added one after the other. -/
def acc1 (c : Dev nD) (base : ℕ) : ℕ → Vec F S1024x256 .f32
  | 0 => k0_pay4 (blk0 V c (pt base)) (blk2 V c (pt base)) k0_pay1
  | k + 1 => k0_pay4 (blk0 V c (pt (base + (k + 1)))) (blk2 V c (pt (base + (k + 1)))) (acc1 c base k)
/-- The second accumulator, likewise, over the second perspective's blocks. -/
def acc2 (c : Dev nD) (base : ℕ) : ℕ → Vec F S1024x256 .f32
  | 0 => k0_pay5 (blk1 V c (pt base)) (blk2 V c (pt base)) k0_pay2
  | k + 1 => k0_pay5 (blk1 V c (pt (base + (k + 1)))) (blk2 V c (pt (base + (k + 1)))) (acc2 c base k)

/-- What the accumulators hold after point `n`: the tile starts at `n - n % 44`, and `n` is its chunk `n % 44`. -/
def accAt1 (c : Dev nD) (n : ℕ) : Vec F S1024x256 .f32 := acc1 V c (n - n % 44) (n % 44)
def accAt2 (c : Dev nD) (n : ℕ) : Vec F S1024x256 .f32 := acc2 V c (n - n % 44) (n % 44)

theorem accAt1_first (c : Dev nD) (t : Fin cfg0.N) (h : t.val % 44 = 0) :
    accAt1 V c t.val = k0_pay4 (blk0 V c t) (blk2 V c t) k0_pay1 := by
  unfold accAt1; rw [h, Nat.sub_zero]; unfold acc1; rw [pt_val]
theorem accAt2_first (c : Dev nD) (t : Fin cfg0.N) (h : t.val % 44 = 0) :
    accAt2 V c t.val = k0_pay5 (blk1 V c t) (blk2 V c t) k0_pay2 := by
  unfold accAt2; rw [h, Nat.sub_zero]; unfold acc2; rw [pt_val]
theorem accAt1_next (c : Dev nD) (t : Fin cfg0.N) (h : t.val % 44 ≠ 0) :
    accAt1 V c t.val = k0_pay4 (blk0 V c t) (blk2 V c t) (accAt1 V c (t.val - 1)) := by
  obtain ⟨k, hk⟩ : ∃ k, t.val % 44 = k + 1 := ⟨t.val % 44 - 1, by omega⟩
  have hb : (t.val - 1) - (t.val - 1) % 44 = t.val - t.val % 44 := by omega
  have hk' : (t.val - 1) % 44 = k := by omega
  unfold accAt1; rw [hb, hk', hk]
  show k0_pay4 _ _ _ = _
  rw [show t.val - (k + 1) + (k + 1) = t.val from by omega, pt_val]
theorem accAt2_next (c : Dev nD) (t : Fin cfg0.N) (h : t.val % 44 ≠ 0) :
    accAt2 V c t.val = k0_pay5 (blk1 V c t) (blk2 V c t) (accAt2 V c (t.val - 1)) := by
  obtain ⟨k, hk⟩ : ∃ k, t.val % 44 = k + 1 := ⟨t.val % 44 - 1, by omega⟩
  have hb : (t.val - 1) - (t.val - 1) % 44 = t.val - t.val % 44 := by omega
  have hk' : (t.val - 1) % 44 = k := by omega
  unfold accAt2; rw [hb, hk', hk]
  show k0_pay5 _ _ _ = _
  rw [show t.val - (k + 1) + (k + 1) = t.val from by omega, pt_val]

/-- The tile's scores as the last chunk stores them. -/
def outAt (c : Dev nD) (t : Fin cfg0.N) : Vec F S1024x1 .f32 :=
  outOf (blk3 V c t) (accAt1 V c t.val) (accAt2 V c t.val) (blk4 V c t) (blk5 V c t) (blk6 V c t) (blk7 V c t) (blk8 V c t) (blk9 V c t)

/-- The two scratch accumulators as memrefs. -/
abbrev scM0 : Memref sig .tc .vmem S1024x256 .f32 := Memref.whole cc0_scratch0
abbrev scM1 : Memref sig .tc .vmem S1024x256 .f32 := Memref.whole cc0_scratch1

/-- The invariant before point `n`: the two accumulators — inside a batch tile at what the point before left, at a
    tile's first point at anything (the body clears them) — and the generator register at some state. -/
def PhiS (c : Dev nD) (n : ℕ) : sProp 𝕄 :=
  iprop((∃ s1 s2, ⌜n % 44 ≠ 0 → s1 = accAt1 V c (n - 1) ∧ s2 = accAt2 V c (n - 1)⌝
      ∗ owns (c : Thread nD τ) scM0 fullShare s1 ∗ owns (c : Thread nD τ) scM1 fullShare s2) ∗ ∃ r, prngReg c r)

/-- The proof data: the arrays as the region finds them; each input's buffer left at its block, the output's at the
    tile's scores; the invariant above; the two windows onto the reshaped features each hold half of that array. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => outAt V c t
  Φ t := PhiS V c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dat V c).A w = V c (Pipeline.arrRef spec0 w) := by
  dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = iblk V c 9 t := by dsimp only [dat]
theorem after10 (c : Dev nD) (t : Fin cfg0.N) : (dat V c).after 10 t = outAt V c t := by dsimp only [dat]
theorem before0 (c : Dev nD) (t : Fin cfg0.N) (d) : (dat V c).before 0 t d = iblk V c 0 t :=
  before_in0 V (dat V c) (A_eq V c 0) (after0 V c) t d
theorem before1 (c : Dev nD) (t : Fin cfg0.N) (d) : (dat V c).before 1 t d = iblk V c 1 t :=
  before_in1 V (dat V c) (A_eq V c 1) (after1 V c) t d
theorem before2 (c : Dev nD) (t : Fin cfg0.N) (d) : (dat V c).before 2 t d = iblk V c 2 t :=
  before_in2 V (dat V c) (A_eq V c 2) (after2 V c) t d
theorem before3 (c : Dev nD) (t : Fin cfg0.N) (d) : (dat V c).before 3 t d = iblk V c 3 t :=
  before_in3 V (dat V c) (A_eq V c 3) (after3 V c) t d
theorem before4 (c : Dev nD) (t : Fin cfg0.N) (d) : (dat V c).before 4 t d = iblk V c 4 t :=
  before_in4 V (dat V c) (A_eq V c 4) (after4 V c) t d
theorem before5 (c : Dev nD) (t : Fin cfg0.N) (d) : (dat V c).before 5 t d = iblk V c 5 t :=
  before_in5 V (dat V c) (A_eq V c 5) (after5 V c) t d
theorem before6 (c : Dev nD) (t : Fin cfg0.N) (d) : (dat V c).before 6 t d = iblk V c 6 t :=
  before_in6 V (dat V c) (A_eq V c 6) (after6 V c) t d
theorem before7 (c : Dev nD) (t : Fin cfg0.N) (d) : (dat V c).before 7 t d = iblk V c 7 t :=
  before_in7 V (dat V c) (A_eq V c 7) (after7 V c) t d
theorem before8 (c : Dev nD) (t : Fin cfg0.N) (d) : (dat V c).before 8 t d = iblk V c 8 t :=
  before_in8 V (dat V c) (A_eq V c 8) (after8 V c) t d
theorem before9 (c : Dev nD) (t : Fin cfg0.N) (d) : (dat V c).before 9 t d = iblk V c 9 t :=
  before_in9 V (dat V c) (A_eq V c 9) (after9 V c) t d

/-! ## The body obligation -/

/-- The first conditional holds exactly at the first chunk of a tile, the second exactly at the last: decided over the grid. -/
theorem hcond1 : ∀ t : Fin cfg0.N, cond1 (grid0.coords t) ↔ t.val % 44 = 0 :=
  (by decide +kernel : ∀ t : Fin grid0.N, cond1 (grid0.coords t) ↔ t.val % 44 = 0)
theorem hcond2 : ∀ t : Fin cfg0.N, cond2 (grid0.coords t) ↔ t.val % 44 = 43 :=
  (by decide +kernel : ∀ t : Fin grid0.N, cond2 (grid0.coords t) ↔ t.val % 44 = 43)
/-- Away from a tile's last chunk the output window is idle and not written back; at the last chunk it is live. -/
theorem idle10 : ∀ t : Fin cfg0.N, ¬cond2 (grid0.coords t) → cfg0.idle 10 (grid0.coords t) = true := by decide +kernel
theorem noFlush10 : ∀ t : Fin cfg0.N, ¬cond2 (grid0.coords t) → (cfg0.win 10).flush t = false := by decide +kernel
theorem live10 : ∀ t : Fin cfg0.N, cond2 (grid0.coords t) → cfg0.idle 10 (grid0.coords t) = false := by decide +kernel

theorem leaves_in0 (c : Dev nD) (t : Fin cfg0.N) :
    (dat V c).leavesExact 0 t = owns (c : Thread nD τ) (st0_0 t) fullShare (iblk V c 0 t) := by
  unfold Dat.leavesExact; rw [show cfg0.idle 0 (grid0.coords t) = false from rfl, after0]
theorem leaves_in1 (c : Dev nD) (t : Fin cfg0.N) :
    (dat V c).leavesExact 1 t = owns (c : Thread nD τ) (st0_1 t) fullShare (iblk V c 1 t) := by
  unfold Dat.leavesExact; rw [show cfg0.idle 1 (grid0.coords t) = false from rfl, after1]
theorem leaves_in2 (c : Dev nD) (t : Fin cfg0.N) :
    (dat V c).leavesExact 2 t = owns (c : Thread nD τ) (st0_2 t) fullShare (iblk V c 2 t) := by
  unfold Dat.leavesExact; rw [show cfg0.idle 2 (grid0.coords t) = false from rfl, after2]
theorem leaves_in3 (c : Dev nD) (t : Fin cfg0.N) :
    (dat V c).leavesExact 3 t = owns (c : Thread nD τ) (st0_3 t) fullShare (iblk V c 3 t) := by
  unfold Dat.leavesExact; rw [show cfg0.idle 3 (grid0.coords t) = false from rfl, after3]
theorem leaves_in4 (c : Dev nD) (t : Fin cfg0.N) :
    (dat V c).leavesExact 4 t = owns (c : Thread nD τ) (st0_4 t) fullShare (iblk V c 4 t) := by
  unfold Dat.leavesExact; rw [show cfg0.idle 4 (grid0.coords t) = false from rfl, after4]
theorem leaves_in5 (c : Dev nD) (t : Fin cfg0.N) :
    (dat V c).leavesExact 5 t = owns (c : Thread nD τ) (st0_5 t) fullShare (iblk V c 5 t) := by
  unfold Dat.leavesExact; rw [show cfg0.idle 5 (grid0.coords t) = false from rfl, after5]
theorem leaves_in6 (c : Dev nD) (t : Fin cfg0.N) :
    (dat V c).leavesExact 6 t = owns (c : Thread nD τ) (st0_6 t) fullShare (iblk V c 6 t) := by
  unfold Dat.leavesExact; rw [show cfg0.idle 6 (grid0.coords t) = false from rfl, after6]
theorem leaves_in7 (c : Dev nD) (t : Fin cfg0.N) :
    (dat V c).leavesExact 7 t = owns (c : Thread nD τ) (st0_7 t) fullShare (iblk V c 7 t) := by
  unfold Dat.leavesExact; rw [show cfg0.idle 7 (grid0.coords t) = false from rfl, after7]
theorem leaves_in8 (c : Dev nD) (t : Fin cfg0.N) :
    (dat V c).leavesExact 8 t = owns (c : Thread nD τ) (st0_8 t) fullShare (iblk V c 8 t) := by
  unfold Dat.leavesExact; rw [show cfg0.idle 8 (grid0.coords t) = false from rfl, after8]
theorem leaves_in9 (c : Dev nD) (t : Fin cfg0.N) :
    (dat V c).leavesExact 9 t = owns (c : Thread nD τ) (st0_9 t) fullShare (iblk V c 9 t) := by
  unfold Dat.leavesExact; rw [show cfg0.idle 9 (grid0.coords t) = false from rfl, after9]

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

set_option maxHeartbeats 4000000 in
/-- A tile's first chunk. -/
theorem sound_A (c : Dev nD) (t : Fin cfg0.N) (h0 : t.val % 44 = 0) :
    bodyPre V c t ⊢ wp frame (wpE (defs₀ (F := F)) Variants.none c none) Set.univ (bodyAt0 t) (fun _ => bodyPost V c t) := by
  have hc1 : cond1 (grid0.coords t) := (hcond1 t).mpr h0
  have hc2 : ¬cond2 (grid0.coords t) := fun h => by have := (hcond2 t).mp h; omega
  unfold bodyPre bodyPost bodyAt0
  simp only [before0, before1, before2, before3, before4, before5, before6, before7, before8, before9]
  rw [leaves_in0, leaves_in1, leaves_in2, leaves_in3, leaves_in4, leaves_in5, leaves_in6, leaves_in7, leaves_in8, leaves_in9]
  rw [show (dat V c).owesAt () t.succ = (dat V c).owesAt () t.castSucc from rfl]
  rw [show (dat V c).Φ t.succ = PhiS V c (t.val + 1) from rfl, show (dat V c).Φ t.castSucc = PhiS V c t.val from rfl]
  unfold PhiS
  rw [Dat.leavesExact_idle (dat V c) 10 t (idle10 t hc2) (noFlush10 t hc2)]
  iintro ⟨⟨⟨%s1, %s2, %hs, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_A c (grid0.coords t) _ _ _ _ _ _ _ _ _ _ _ _ _ _ _ _ _ _ _ _ _ _ _ _ _ _ hc1 hc2 (iblk V c 0 t) (iblk V c 1 t) (iblk V c 2 t) Set.univ _)
  isplitl [H0]; · iexact H0
  isplitl [H1]; · iexact H1
  isplitl [H2]; · iexact H2
  isplitl [HS1]; · iexists _; iexact HS1
  isplitl [HS2]; · iexists _; iexact HS2
  iintro ⟨H0, H1, H2, HS1, HS2⟩
  isplitl [HS1 HS2 Hg]
  · isplitl [HS1 HS2]
    · iexists _; iexists _; isplitr
      · ipureintro; intro _; rw [Nat.add_sub_cancel]
        exact ⟨(accAt1_first V c t h0).symm, (accAt2_first V c t h0).symm⟩
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- A middle chunk. -/
theorem sound_B (c : Dev nD) (t : Fin cfg0.N) (h0 : t.val % 44 ≠ 0) (h43 : t.val % 44 ≠ 43) :
    bodyPre V c t ⊢ wp frame (wpE (defs₀ (F := F)) Variants.none c none) Set.univ (bodyAt0 t) (fun _ => bodyPost V c t) := by
  have hc1 : ¬cond1 (grid0.coords t) := fun h => h0 ((hcond1 t).mp h)
  have hc2 : ¬cond2 (grid0.coords t) := fun h => h43 ((hcond2 t).mp h)
  unfold bodyPre bodyPost bodyAt0
  simp only [before0, before1, before2, before3, before4, before5, before6, before7, before8, before9]
  rw [leaves_in0, leaves_in1, leaves_in2, leaves_in3, leaves_in4, leaves_in5, leaves_in6, leaves_in7, leaves_in8, leaves_in9]
  rw [show (dat V c).owesAt () t.succ = (dat V c).owesAt () t.castSucc from rfl]
  rw [show (dat V c).Φ t.succ = PhiS V c (t.val + 1) from rfl, show (dat V c).Φ t.castSucc = PhiS V c t.val from rfl]
  unfold PhiS
  rw [Dat.leavesExact_idle (dat V c) 10 t (idle10 t hc2) (noFlush10 t hc2)]
  iintro ⟨⟨⟨%s1, %s2, %hs, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hs h0
  iapply (run_B c (grid0.coords t) _ _ _ _ _ _ _ _ _ _ _ _ _ _ _ _ _ _ _ _ _ _ _ _ _ _ hc1 hc2 (iblk V c 0 t) (iblk V c 1 t) (iblk V c 2 t) _ _ Set.univ _)
  isplitl [H0]; · iexact H0
  isplitl [H1]; · iexact H1
  isplitl [H2]; · iexact H2
  isplitl [HS1]; · iexact HS1
  isplitl [HS2]; · iexact HS2
  iintro ⟨H0, H1, H2, HS1, HS2⟩
  isplitl [HS1 HS2 Hg]
  · isplitl [HS1 HS2]
    · iexists _; iexists _; isplitr
      · ipureintro; intro _; rw [Nat.add_sub_cancel]
        exact ⟨(accAt1_next V c t h0).symm, (accAt2_next V c t h0).symm⟩
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- A tile's last chunk. -/
theorem sound_C (c : Dev nD) (t : Fin cfg0.N) (h43 : t.val % 44 = 43) :
    bodyPre V c t ⊢ wp frame (wpE (defs₀ (F := F)) Variants.none c none) Set.univ (bodyAt0 t) (fun _ => bodyPost V c t) := by
  have h0 : t.val % 44 ≠ 0 := by omega
  have hc1 : ¬cond1 (grid0.coords t) := fun h => h0 ((hcond1 t).mp h)
  have hc2 : cond2 (grid0.coords t) := (hcond2 t).mpr h43
  unfold bodyPre bodyPost bodyAt0
  simp only [before0, before1, before2, before3, before4, before5, before6, before7, before8, before9]
  rw [leaves_in0, leaves_in1, leaves_in2, leaves_in3, leaves_in4, leaves_in5, leaves_in6, leaves_in7, leaves_in8, leaves_in9]
  rw [show (dat V c).owesAt () t.succ = (dat V c).owesAt () t.castSucc from rfl]
  rw [show (dat V c).Φ t.succ = PhiS V c (t.val + 1) from rfl, show (dat V c).Φ t.castSucc = PhiS V c t.val from rfl]
  unfold PhiS
  rw [show (dat V c).leavesExact 10 t = owns (c : Thread nD τ) (st0_10 t) fullShare (outAt V c t) from by
    unfold Dat.leavesExact; rw [live10 t hc2, after10]]
  iintro ⟨⟨⟨%s1, %s2, %hs, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨rfl, rfl⟩ := hs h0
  iapply (run_C c (grid0.coords t) _ _ _ _ _ _ _ _ _ _ _ _ _ _ _ _ _ _ _ _ _ _ _ _ _ _ hc1 hc2 (iblk V c 0 t) (iblk V c 1 t) (iblk V c 2 t) (iblk V c 3 t) (iblk V c 4 t) (iblk V c 5 t) (iblk V c 6 t) (iblk V c 7 t) (iblk V c 8 t) (iblk V c 9 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS1]; · iexact HS1
  isplitl [HS2]; · iexact HS2
  iintro ⟨H0, H1, H2, H3, H4, H5, H6, H7, H8, H9, H10, HS1, HS2⟩
  isplitl [HS1 HS2 Hg]
  · isplitl [HS1 HS2]
    · iexists _; iexists _; isplitr
      · ipureintro; intro _; rw [Nat.add_sub_cancel]
        exact ⟨(accAt1_next V c t h0).symm, (accAt2_next V c t h0).symm⟩
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [show outAt V c t = outOf (iblk V c 3 t) (k0_pay4 (iblk V c 0 t) (iblk V c 2 t) (accAt1 V c (t.val - 1)))
      (k0_pay5 (iblk V c 1 t) (iblk V c 2 t) (accAt2 V c (t.val - 1))) (iblk V c 4 t) (iblk V c 5 t) (iblk V c 6 t) (iblk V c 7 t)
      (iblk V c 8 t) (iblk V c 9 t) from by
    unfold outAt; rw [accAt1_next V c t h0, accAt2_next V c t h0]; rfl]
  iexact H10

/-- The library's body obligation, at every point. -/
theorem body_obligation (c : Dev nD) : BodyObligation (dat (F := F) V c) (defs₀ (F := F)) Variants.none () Set.univ := fun t => by
  rw [bigSep_W0, bigSep_W0]
  by_cases h0 : t.val % 44 = 0
  · exact sound_A V c t h0
  · by_cases h43 : t.val % 44 = 43
    · exact sound_C V c t h43
    · exact sound_B V c t h0 h43

end Data

end Cert.KernelIdeal.Gen

end
-- ==== Proof.ArraysIdeal.lean ====
/-
  The region's arrays at its entry and at its exit, when two windows share one array.

  A core holds every unscoped buffer whole, at the full share. Ten of them are behind the eleven windows: the reshaped
  features are read through two windows, the eight small arguments and the scores through one each. At entry the full
  share of the reshaped features is cut into its left and right halves, one for each window onto it, both at the same
  contents; at exit the halves are joined again (an input is never written, so both still hold what they held at
  entry), and the scores are at what the last write-back left.
-/
import proofs.«139798_j43525198578243_2_alg».proof.Proof.DataIdeal

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Arrays
variable (V V' : (c : Dev nD) → (b : Ref sig .tc) → Buf (Elt F) ((c : Thread nD τ).loc b))

/-- The distinct buffers behind the windows' arrays, one by one: the reshaped features, the eight small arguments and
    the scores. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0)
          ∗ (((c : Thread nD τ).loc main_arg1) ↦{fullShare} W main_arg1)
          ∗ (((c : Thread nD τ).loc main_arg2) ↦{fullShare} W main_arg2)
          ∗ (((c : Thread nD τ).loc main_arg3) ↦{fullShare} W main_arg3)
          ∗ (((c : Thread nD τ).loc main_arg4) ↦{fullShare} W main_arg4)
          ∗ (((c : Thread nD τ).loc main_arg5) ↦{fullShare} W main_arg5)
          ∗ (((c : Thread nD τ).loc main_arg6) ↦{fullShare} W main_arg6)
          ∗ (((c : Thread nD τ).loc main_arg7) ↦{fullShare} W main_arg7)
          ∗ (((c : Thread nD τ).loc main_arg8) ↦{fullShare} W main_arg8)
          ∗ (((c : Thread nD τ).loc main_v1) ↦{fullShare} W main_v1)) := by
  unfold Pipeline.arrBufs
  exact bigSep_eq_bigSepL_of_eq [main_v0, main_arg1, main_arg2, main_arg3, main_arg4, main_arg5, main_arg6, main_arg7, main_arg8, main_v1]
    (by decide) (by decide) _

/-- The share each window holds its array at: the two windows onto the reshaped features a half each, every other
    window (the output among them) the whole. -/
theorem share0 (c : Dev nD) : (dat V c).share 0 = fullShare.left := rfl
theorem share1 (c : Dev nD) : (dat V c).share 1 = fullShare.right := rfl
theorem share2 (c : Dev nD) : (dat V c).share 2 = fullShare := rfl
theorem share3 (c : Dev nD) : (dat V c).share 3 = fullShare := rfl
theorem share4 (c : Dev nD) : (dat V c).share 4 = fullShare := rfl
theorem share5 (c : Dev nD) : (dat V c).share 5 = fullShare := rfl
theorem share6 (c : Dev nD) : (dat V c).share 6 = fullShare := rfl
theorem share7 (c : Dev nD) : (dat V c).share 7 = fullShare := rfl
theorem share8 (c : Dev nD) : (dat V c).share 8 = fullShare := rfl
theorem share9 (c : Dev nD) : (dat V c).share 9 = fullShare := rfl
theorem share10 (c : Dev nD) : (dat V c).share 10 = fullShare := rfl

set_option maxHeartbeats 1000000 in
/-- The pipeline's arrays, window by window: the two windows onto the reshaped features hold its left and right
    halves, every other window its array whole. -/
theorem arrays_chain (c : Dev nD) (G : (w : Fin cfg0.W) → Buf (Elt F) ((cfg0.win w).arr.view.loc (c : Thread nD τ))) :
    ((dat V c).arrays G : sProp 𝕄)
      = iprop((((c : Thread nD τ).loc main_v0) ↦{fullShare.left} G 0) ∗ (((c : Thread nD τ).loc main_v0) ↦{fullShare.right} G 1)
          ∗ (((c : Thread nD τ).loc main_arg1) ↦{fullShare} G 2)
          ∗ (((c : Thread nD τ).loc main_arg2) ↦{fullShare} G 3)
          ∗ (((c : Thread nD τ).loc main_arg3) ↦{fullShare} G 4)
          ∗ (((c : Thread nD τ).loc main_arg4) ↦{fullShare} G 5)
          ∗ (((c : Thread nD τ).loc main_arg5) ↦{fullShare} G 6)
          ∗ (((c : Thread nD τ).loc main_arg6) ↦{fullShare} G 7)
          ∗ (((c : Thread nD τ).loc main_arg7) ↦{fullShare} G 8)
          ∗ (((c : Thread nD τ).loc main_arg8) ↦{fullShare} G 9)
          ∗ (((c : Thread nD τ).loc main_v1) ↦{fullShare} G 10)) := by
  unfold Dat.arrays
  rw [bigSep_W0]
  rw [(arr_whole0 0).set_eq_univ, (arr_whole0 2).set_eq_univ, (arr_whole0 3).set_eq_univ, (arr_whole0 4).set_eq_univ,
    (arr_whole0 5).set_eq_univ, (arr_whole0 6).set_eq_univ, (arr_whole0 7).set_eq_univ, (arr_whole0 8).set_eq_univ,
    (arr_whole0 9).set_eq_univ, (arr_whole0 10).set_eq_univ]
  rw [share0, share1, share2, share3, share4, share5, share6, share7, share8, share9, share10]

/-- ENTRY: of a core's unscoped buffers held whole at `V`, the ten arrays behind the windows are taken out; the
    reshaped features' full share is cut into its two halves, one for each of the two windows onto it, both at the
    contents `V` has there; what is left is the unscoped rest. -/
theorem arrays_entry (c : Dev nD) :
    (unscopedBufs (Ix := Unit) (Name := ℕ) (U := UR sig nD τ) (Lvl := ℕ) c (V c) : sProp 𝕄)
      ⊢ iprop((dat V c).arrays ((dat V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c), arrBufs_chain, arrays_chain]
  refine sep_mono ?_ .rfl
  refine (sep_mono (pointsTo_share (PosShare.mem_left_op_right fullShare)).1 .rfl).trans ?_
  exact sep_assoc.1

/-- An input window's array is never written: at every point it holds what `V` has behind the window. -/
theorem arrAt_in0 (c : Dev nD) (n : ℕ) : (dat V c).arrAt 0 n = V c main_v0 := (dat V c).arrAt_in 0 rfl n
theorem arrAt_in1 (c : Dev nD) (n : ℕ) : (dat V c).arrAt 1 n = V c main_v0 := (dat V c).arrAt_in 1 rfl n
theorem arrAt_in2 (c : Dev nD) (n : ℕ) : (dat V c).arrAt 2 n = V c main_arg1 := (dat V c).arrAt_in 2 rfl n
theorem arrAt_in3 (c : Dev nD) (n : ℕ) : (dat V c).arrAt 3 n = V c main_arg2 := (dat V c).arrAt_in 3 rfl n
theorem arrAt_in4 (c : Dev nD) (n : ℕ) : (dat V c).arrAt 4 n = V c main_arg3 := (dat V c).arrAt_in 4 rfl n
theorem arrAt_in5 (c : Dev nD) (n : ℕ) : (dat V c).arrAt 5 n = V c main_arg4 := (dat V c).arrAt_in 5 rfl n
theorem arrAt_in6 (c : Dev nD) (n : ℕ) : (dat V c).arrAt 6 n = V c main_arg5 := (dat V c).arrAt_in 6 rfl n
theorem arrAt_in7 (c : Dev nD) (n : ℕ) : (dat V c).arrAt 7 n = V c main_arg6 := (dat V c).arrAt_in 7 rfl n
theorem arrAt_in8 (c : Dev nD) (n : ℕ) : (dat V c).arrAt 8 n = V c main_arg7 := (dat V c).arrAt_in 8 rfl n
theorem arrAt_in9 (c : Dev nD) (n : ℕ) : (dat V c).arrAt 9 n = V c main_arg8 := (dat V c).arrAt_in 9 rfl n

set_option maxHeartbeats 1000000 in
/-- EXIT: the two halves of the reshaped features, both still at the contents `V` has there, are joined into its full
    share; with the eight small arguments unchanged, the scores at what the last write-back left and the unscoped
    rest, these are the core's unscoped buffers held whole at any `V'` that has the scores there and agrees with `V`
    elsewhere. -/
theorem arrays_exit (c : Dev nD) (hout : V' c main_v1 = (dat V c).arrAt 10 cfg0.N)
    (hrest : ∀ b : Ref sig .tc, b ≠ main_v1 → V' c b = V c b) :
    iprop((dat V c).arrays ((dat V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c (V' c) : sProp 𝕄) := by
  rw [Pipeline.unscopedBufs_split₀ cfgs 0 winFacts₀0.arr_unscoped c (V' c), arrBufs_chain, arrays_chain]
  refine sep_mono ?_ (Entails.of_eq ?_)
  · rw [arrAt_in0, arrAt_in1, arrAt_in2, arrAt_in3, arrAt_in4, arrAt_in5, arrAt_in6, arrAt_in7, arrAt_in8, arrAt_in9]
    rw [hrest main_v0 (by decide), hrest main_arg1 (by decide), hrest main_arg2 (by decide), hrest main_arg3 (by decide),
      hrest main_arg4 (by decide), hrest main_arg5 (by decide), hrest main_arg6 (by decide), hrest main_arg7 (by decide),
      hrest main_arg8 (by decide), hout]
    refine sep_assoc.2.trans ?_
    exact sep_mono (pointsTo_share (PosShare.mem_left_op_right fullShare)).2 .rfl
  · unfold Pipeline.unscopedRest
    exact bigSep_congr fun b hb => by
      rw [hrest b fun e => (Finset.mem_sdiff.mp hb).2 (Finset.mem_image.mpr ⟨10, Finset.mem_univ _, e.symm⟩)]

end Arrays

end Cert.KernelIdeal.Gen

end
-- ==== Proof.RunIdeal.lean ====
import proofs.«139798_j43525198578243_2_alg».proof.Proof.ArraysIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's two segments (the host reshape, the kernel region) from the launch to the return

The thread state is "every unscoped buffer at a valuation, the generator register at some state, nothing owed".
The valuation starts at the launch memory, takes the reshape's result after the host line, and after the region
differs only at the output array, which holds what the write-backs of the last chunks left there. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host reshape (the region's entry). -/
abbrev W1 : Dev nD → Valuation τ sig (Elt F) := fun c => StableHlo.after hostOps0 (W0 m ρ c)
/-- The same read at the TensorCore's references (what the proof data take). -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_v1) ((dat (V1 m ρ) c).arrAt 10 cfg0.N)
theorem W2_out (c : Dev nD) : W2 m ρ c (Proc.devRef .tc main_v1) = (dat (V1 m ρ) c).arrAt 10 cfg0.N := by
  unfold W2; exact Function.update_self ..
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) ..
/-- The same read at the TensorCore's references. -/
abbrev V2 : (c : Dev nD) → (b : Ref sig .tc) → Buf (Elt F) ((c : Thread nD τ).loc b) := fun c b => W2 m ρ c b

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))
    _ = m ((c : Thread nD τ).loc main_arg3) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))
    _ = m ((c : Thread nD τ).loc main_arg4) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))
    _ = m ((c : Thread nD τ).loc main_arg5) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))
    _ = m ((c : Thread nD τ).loc main_arg6) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))
    _ = m ((c : Thread nD τ).loc main_arg7) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))
    _ = m ((c : Thread nD τ).loc main_arg8) := rfl

/-- No pipeline has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The region over the thread state: entered from every unscoped buffer at `W1`, left at `W2`. The arrays are split
    out of the unscoped buffers (the shared one cut in two halves) and put back; the scratch accumulators and the
    generator register go into the invariant and come back; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_entry (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS (V1 m ρ) c 0 from rfl]; unfold PhiS
    rw [scopedRest0_eq]; simp only [scM0, scM1, owns_whole]
    iintro ⟨Hp, -, ⟨%f1, H1⟩, ⟨%f2, H2⟩⟩
    isplitr [Hp]
    · iexists f1; iexists f2; isplitr
      · ipureintro; intro h; exact absurd (Nat.zero_mod 44) h
      isplitl [H1]; · iexact H1
      iexact H2
    iexact Hp
  hout c := by
    rw [Pipeline.ownSems0_none, show (pdats m ρ 0 c).Φ (Fin.last _) = PhiS (V1 m ρ) c (Fin.last cfg0.N).val from rfl]; unfold PhiS
    rw [scopedRest0_eq]; simp only [scM0, scM1, owns_whole]
    iintro ⟨⟨%s1, %s2, -, H1, H2⟩, Hp⟩
    isplitl [Hp]; · iexact Hp
    isplitr; · iempintro
    isplitl [H1]; · iexists _; iexact H1
    iexists _; iexact H2
  hexit c := by
    have hjoin := arrays_exit (V1 m ρ) (V2 m ρ) c (W2_out m ρ c) (fun b hb => W2_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-- @main's two segments. -/
abbrev segs : List (Pipeline.Seg (pcfgs (F := F)) adm (pdats m ρ) () defs₀ 𝒱₀ L lv) :=
  [ .host (hseg hostOps0 hostOps0_sub hostOps0_fresh (W0 m ρ)),
    .region (reg0 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The run with the result named: the output array ends at what the write-backs leave, the arguments as launched. -/
theorem run_named : θ_run defs (onTc (τ := τ) (main (F := F))) ⟨m, fun _ => 0, ρ⟩ (fun r => ∀ c : Dev nD,
      r.2.mem ((c.tc : Thread nD τ).loc main_v1) = (dat (V1 m ρ) c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_v1 (by decide))).trans (W2_out m ρ c),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c),
      (h c _ (mem_uc main_arg5 (by decide))).trans (W2_main_arg5 m ρ c),
      (h c _ (mem_uc main_arg6 (by decide))).trans (W2_main_arg6 m ρ c),
      (h c _ (mem_uc main_arg7 (by decide))).trans (W2_main_arg7 m ρ c),
      (h c _ (mem_uc main_arg8 (by decide))).trans (W2_main_arg8 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_named m ρ)

/-- What the region finds at its arrays: the arguments as launched, and the features reshaped. -/
theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.Forall, StableHlo.reshape_writes, Finset.mem_singleton]
          exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.Forall, StableHlo.reshape_writes, Finset.mem_singleton]
          exact StableHlo.devRef_ne_of_ne (by decide)))).trans rfl
theorem V1_main_arg3 (c : Dev nD) : V1 m ρ c main_arg3 = m ((c : Thread nD τ).loc main_arg3) :=
  (StableHlo.after_of_forall_not_mem (b := Proc.devRef .tc main_arg3) _ _ (List.forall_iff_forall_mem.mp (by
          simp only [hostOps0, List.Forall, StableHlo.reshape_writes, Finset.mem_singleton]
          exact StableHlo.devRef_ne_of_ne (by decide)))).trans rfl
theorem V1_main_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.Forall, StableHlo.reshape_writes, Finset.mem_singleton]
          exact StableHlo.devRef_ne_of_ne (by decide)))).trans rfl
theorem V1_main_arg5 (c : Dev nD) : V1 m ρ c main_arg5 = m ((c : Thread nD τ).loc main_arg5) :=
  (StableHlo.after_of_forall_not_mem (b := Proc.devRef .tc main_arg5) _ _ (List.forall_iff_forall_mem.mp (by
          simp only [hostOps0, List.Forall, StableHlo.reshape_writes, Finset.mem_singleton]
          exact StableHlo.devRef_ne_of_ne (by decide)))).trans rfl
theorem V1_main_arg6 (c : Dev nD) : V1 m ρ c main_arg6 = m ((c : Thread nD τ).loc main_arg6) :=
  (StableHlo.after_of_forall_not_mem (b := Proc.devRef .tc main_arg6) _ _ (List.forall_iff_forall_mem.mp (by
          simp only [hostOps0, List.Forall, StableHlo.reshape_writes, Finset.mem_singleton]
          exact StableHlo.devRef_ne_of_ne (by decide)))).trans rfl
theorem V1_main_arg7 (c : Dev nD) : V1 m ρ c main_arg7 = m ((c : Thread nD τ).loc main_arg7) :=
  (StableHlo.after_of_forall_not_mem (b := Proc.devRef .tc main_arg7) _ _ (List.forall_iff_forall_mem.mp (by
          simp only [hostOps0, List.Forall, StableHlo.reshape_writes, Finset.mem_singleton]
          exact StableHlo.devRef_ne_of_ne (by decide)))).trans rfl
theorem V1_main_arg8 (c : Dev nD) : V1 m ρ c main_arg8 = m ((c : Thread nD τ).loc main_arg8) :=
  (StableHlo.after_of_forall_not_mem (b := Proc.devRef .tc main_arg8) _ _ (List.forall_iff_forall_mem.mp (by
          simp only [hostOps0, List.Forall, StableHlo.reshape_writes, Finset.mem_singleton]
          exact StableHlo.devRef_ne_of_ne (by decide)))).trans rfl
theorem V1_main_v0 (c : Dev nD) :
    V1 m ρ c main_v0 = shapeCast S2048x90112 (m ((c : Thread nD τ).loc main_arg0)) shapeCasts_S2048x2x45056_S2048x90112 := by
  show StableHlo.after hostOps0 _ (Proc.devRef .tc main_v0) = _
  after_results; rfl

end Cert.KernelIdeal.Gen

end
-- ==== Proof.BlocksIdeal.lean ====
import proofs.«139798_j43525198578243_2_alg».proof.Proof.Gen.KernelIdeal.Launch
import proofs.«139798_j43525198578243_2_alg».proof.Proof.Gen.KernelIdeal.Points
import Idealize.ShloMosaic.Lib.Pipeline.Value
import Idealize.ShloMosaic.Lib.Pipeline.FrameBody
import Idealize.ShloMosaic.Lib.ValueIdx
import Idealize.ShloMosaic.Lib.ValueLayout

/-
  The kernel's windows read at an index.

  The grid has two batch tiles and 44 feature chunks; point `t` is tile `t / 44`, chunk `t % 44`. Each window's
  block at a point is a rectangle of its array: its coordinate on an axis is the block index times the block's
  extent plus the coordinate inside the block.
-/

set_option maxRecDepth 16384

noncomputable section

namespace Cert.KernelIdeal.Blocks

open Cert.KernelIdeal Cert.KernelIdeal.Gen Idealize.ShloMosaic Idealize.ShloMosaic.ValueIdx
  Idealize.ShloMosaic.TcCoe Idealize.SL.Sem

/-- The block indices of the three moving input windows and of the output window, decided over the grid's 88
    points: the tile is `t / 44` and the chunk is `t % 44`. -/
theorem idx_facts : ∀ t : Fin cfg0.N,
    win0_0.index t (0 : Fin 2) = t.val / 44 ∧ win0_0.index t (1 : Fin 2) = t.val % 44
    ∧ win0_1.index t (0 : Fin 2) = t.val / 44 ∧ win0_1.index t (1 : Fin 2) = 44 + t.val % 44
    ∧ win0_2.index t (0 : Fin 2) = 0 ∧ win0_2.index t (1 : Fin 2) = t.val % 44
    ∧ win0_10.index t (0 : Fin 2) = t.val / 44 ∧ win0_10.index t (1 : Fin 2) = 0 :=
  (by decide +kernel : ∀ t : Fin grid0.N, _)

/-- The seven small windows never move: their block index is zero at every point (decided over the grid). -/
theorem idx_small : ∀ t : Fin cfg0.N,
    win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

variable [Cert.KernelIdeal.Facts]

/-- Window 0's block at point `t`: rows of tile `t / 44`, columns of chunk `t % 44` in the first half. -/
theorem blk0_apply (c : Dev nD) (A : Buf (Elt Ideal) ((cfg0.win 0).arr.view.loc (c.tc : Thread nD τ)))
    (t : Fin cfg0.N) (r j : Fin 1024) :
    ((cfg0.win 0).blk t).view.read (Elt Ideal) A (ix2 r j)
      = A (ix2 ⟨1024 * (t.val / 44) + r.val, by
              have := lt_of_lt_of_eq t.isLt N_0; have := r.isLt; omega⟩
            ⟨1024 * (t.val % 44) + j.val, by
              have := lt_of_lt_of_eq t.isLt N_0; have := j.isLt; omega⟩) := by
  have e0 : win0_0.index t (0 : Fin 2) = t.val / 44 := (idx_facts t).1
  have e1 : win0_0.index t (1 : Fin 2) = t.val % 44 := (idx_facts t).2.1
  show A (((cfg0.win 0).blk t).view.emb (ix2 r j)) = A _
  refine congrArg A (funext fun a => Fin.ext ?_)
  match a with
  | ⟨0, _⟩ => show win0_0.index t (0 : Fin 2) * 1024 + 1 * r.val = 1024 * (t.val / 44) + r.val; rw [e0]; omega
  | ⟨1, _⟩ => show win0_0.index t (1 : Fin 2) * 1024 + 1 * j.val = 1024 * (t.val % 44) + j.val; rw [e1]; omega

/-- Window 1's block at point `t`: the same rows, the chunk's columns in the second half of the row. -/
theorem blk1_apply (c : Dev nD) (A : Buf (Elt Ideal) ((cfg0.win 1).arr.view.loc (c.tc : Thread nD τ)))
    (t : Fin cfg0.N) (r j : Fin 1024) :
    ((cfg0.win 1).blk t).view.read (Elt Ideal) A (ix2 r j)
      = A (ix2 ⟨1024 * (t.val / 44) + r.val, by
              have := lt_of_lt_of_eq t.isLt N_0; have := r.isLt; omega⟩
            ⟨45056 + 1024 * (t.val % 44) + j.val, by
              have := lt_of_lt_of_eq t.isLt N_0; have := j.isLt; omega⟩) := by
  have e0 : win0_1.index t (0 : Fin 2) = t.val / 44 := (idx_facts t).2.2.1
  have e1 : win0_1.index t (1 : Fin 2) = 44 + t.val % 44 := (idx_facts t).2.2.2.1
  show A (((cfg0.win 1).blk t).view.emb (ix2 r j)) = A _
  refine congrArg A (funext fun a => Fin.ext ?_)
  match a with
  | ⟨0, _⟩ => show win0_1.index t (0 : Fin 2) * 1024 + 1 * r.val = 1024 * (t.val / 44) + r.val; rw [e0]; omega
  | ⟨1, _⟩ =>
    show win0_1.index t (1 : Fin 2) * 1024 + 1 * j.val = 45056 + 1024 * (t.val % 44) + j.val; rw [e1]; omega

/-- Window 2's block at point `t`: every row of the front weight, the chunk's columns. -/
theorem blk2_apply (c : Dev nD) (A : Buf (Elt Ideal) ((cfg0.win 2).arr.view.loc (c.tc : Thread nD τ)))
    (t : Fin cfg0.N) (o : Fin 256) (j : Fin 1024) :
    ((cfg0.win 2).blk t).view.read (Elt Ideal) A (ix2 o j)
      = A (ix2 o ⟨1024 * (t.val % 44) + j.val, by
              have := lt_of_lt_of_eq t.isLt N_0; have := j.isLt; omega⟩) := by
  have e0 : win0_2.index t (0 : Fin 2) = 0 := (idx_facts t).2.2.2.2.1
  have e1 : win0_2.index t (1 : Fin 2) = t.val % 44 := (idx_facts t).2.2.2.2.2.1
  show A (((cfg0.win 2).blk t).view.emb (ix2 o j)) = A _
  refine congrArg A (funext fun a => Fin.ext ?_)
  match a with
  | ⟨0, _⟩ => show win0_2.index t (0 : Fin 2) * 256 + 1 * o.val = o.val; rw [e0]; omega
  | ⟨1, _⟩ => show win0_2.index t (1 : Fin 2) * 1024 + 1 * j.val = 1024 * (t.val % 44) + j.val; rw [e1]; omega

/-- The output window's block at point `t`: the rows of tile `t / 44`. -/
theorem blk10_apply (c : Dev nD) (G : Buf (Elt Ideal) ((cfg0.win 10).arr.view.loc (c.tc : Thread nD τ)))
    (t : Fin cfg0.N) (r : Fin 1024) :
    ((cfg0.win 10).blk t).view.read (Elt Ideal) G (ix2 r (0 : Fin 1))
      = G (ix2 ⟨1024 * (t.val / 44) + r.val, by
              have := lt_of_lt_of_eq t.isLt N_0; have := r.isLt; omega⟩ (0 : Fin 1)) := by
  have e0 : win0_10.index t (0 : Fin 2) = t.val / 44 := (idx_facts t).2.2.2.2.2.2.1
  have e1 : win0_10.index t (1 : Fin 2) = 0 := (idx_facts t).2.2.2.2.2.2.2
  show G (((cfg0.win 10).blk t).view.emb (ix2 r (0 : Fin 1))) = G _
  refine congrArg G (funext fun a => Fin.ext ?_)
  match a with
  | ⟨0, _⟩ => show win0_10.index t (0 : Fin 2) * 1024 + 1 * r.val = 1024 * (t.val / 44) + r.val; rw [e0]; omega
  | ⟨1, _⟩ => show win0_10.index t (1 : Fin 2) * 1 + 1 * 0 = 0; rw [e1]

/-- An index of the output array is in point `t`'s block iff each coordinate is in the block's range on its axis. -/
theorem mem_blk10 (t : Fin cfg0.N) (i : S2048x1.Idx) :
    i ∈ ((cfg0.win 10).blk t).view.set ↔ ∀ a : Fin 2, win0_10.index t a * S1024x1.size a ≤ (i a).val
      ∧ (i a).val < win0_10.index t a * S1024x1.size a + S1024x1.size a := by
  show i ∈ ((View.whole main_v1).slice (win0_10.rect t)).set ↔ _
  rw [View.set_slice_whole, Rect.mem_set_unit]
  exact Iff.rfl

/-- Every index of the output array is written back by some point: row `b` by the last chunk of its tile, the
    point `44 * (b / 1024) + 43`. -/
theorem cover10 (c : Dev nD) : ∀ i : S2048x1.Idx,
    ∃ t : Fin cfg0.N, (cfg0.win 10).flush t = true ∧ i ∈ ((cfg0.win 10).blk t).view.set := by
  intro i
  have hi0 : (i 0).val < 2048 := (i 0).isLt
  have hi1 : (i 1).val < 1 := (i 1).isLt
  have hN : cfg0.N = 88 := N_0
  let t : Fin cfg0.N := ⟨44 * ((i 0).val / 1024) + 43, by rw [hN]; omega⟩
  have ht : t.val = 44 * ((i 0).val / 1024) + 43 := rfl
  have e0 : win0_10.index t (0 : Fin 2) = t.val / 44 := (idx_facts t).2.2.2.2.2.2.1
  have e1 : win0_10.index t (1 : Fin 2) = 0 := (idx_facts t).2.2.2.2.2.2.2
  refine ⟨t, (flush0_10 t).mpr (by rw [ht]; omega), ?_⟩
  rw [mem_blk10]
  intro a
  match a with
  | ⟨0, _⟩ =>
    show win0_10.index t (0 : Fin 2) * 1024 ≤ (i 0).val ∧ (i 0).val < win0_10.index t (0 : Fin 2) * 1024 + 1024
    rw [e0, ht]; omega
  | ⟨1, _⟩ =>
    show win0_10.index t (1 : Fin 2) * 1 ≤ (i 1).val ∧ (i 1).val < win0_10.index t (1 : Fin 2) * 1 + 1
    rw [e1]; omega

/-- Window 3's block is its whole array. -/
theorem blk3_apply (c : Dev nD) (A : Buf (Elt Ideal) ((cfg0.win 3).arr.view.loc (c.tc : Thread nD τ)))
    (t : Fin cfg0.N) (y : S256.Idx) :
    ((cfg0.win 3).blk t).view.read (Elt Ideal) A y = A y := by
  have e0 : win0_3.index t (0 : Fin 1) = 0 := (idx_small t).1
  show A (((cfg0.win 3).blk t).view.emb y) = A y
  refine congrArg A (funext fun a => Fin.ext ?_)
  match a with
  | ⟨0, _⟩ => show win0_3.index t (0 : Fin 1) * 256 + 1 * (y 0).val = (y 0).val; rw [e0]; omega

/-- Window 4's block is its whole array. -/
theorem blk4_apply (c : Dev nD) (A : Buf (Elt Ideal) ((cfg0.win 4).arr.view.loc (c.tc : Thread nD τ)))
    (t : Fin cfg0.N) (y : S32x512.Idx) :
    ((cfg0.win 4).blk t).view.read (Elt Ideal) A y = A y := by
  have e0 : win0_4.index t (0 : Fin 2) = 0 := (idx_small t).2.1
  have e1 : win0_4.index t (1 : Fin 2) = 0 := (idx_small t).2.2.1
  show A (((cfg0.win 4).blk t).view.emb y) = A y
  refine congrArg A (funext fun a => Fin.ext ?_)
  match a with
  | ⟨0, _⟩ => show win0_4.index t (0 : Fin 2) * 32 + 1 * (y 0).val = (y 0).val; rw [e0]; omega
  | ⟨1, _⟩ => show win0_4.index t (1 : Fin 2) * 512 + 1 * (y 1).val = (y 1).val; rw [e1]; omega

/-- Window 5's block is its whole array. -/
theorem blk5_apply (c : Dev nD) (A : Buf (Elt Ideal) ((cfg0.win 5).arr.view.loc (c.tc : Thread nD τ)))
    (t : Fin cfg0.N) (y : S32.Idx) :
    ((cfg0.win 5).blk t).view.read (Elt Ideal) A y = A y := by
  have e0 : win0_5.index t (0 : Fin 1) = 0 := (idx_small t).2.2.2.1
  show A (((cfg0.win 5).blk t).view.emb y) = A y
  refine congrArg A (funext fun a => Fin.ext ?_)
  match a with
  | ⟨0, _⟩ => show win0_5.index t (0 : Fin 1) * 32 + 1 * (y 0).val = (y 0).val; rw [e0]; omega

/-- Window 6's block is its whole array. -/
theorem blk6_apply (c : Dev nD) (A : Buf (Elt Ideal) ((cfg0.win 6).arr.view.loc (c.tc : Thread nD τ)))
    (t : Fin cfg0.N) (y : S32x32.Idx) :
    ((cfg0.win 6).blk t).view.read (Elt Ideal) A y = A y := by
  have e0 : win0_6.index t (0 : Fin 2) = 0 := (idx_small t).2.2.2.2.1
  have e1 : win0_6.index t (1 : Fin 2) = 0 := (idx_small t).2.2.2.2.2.1
  show A (((cfg0.win 6).blk t).view.emb y) = A y
  refine congrArg A (funext fun a => Fin.ext ?_)
  match a with
  | ⟨0, _⟩ => show win0_6.index t (0 : Fin 2) * 32 + 1 * (y 0).val = (y 0).val; rw [e0]; omega
  | ⟨1, _⟩ => show win0_6.index t (1 : Fin 2) * 32 + 1 * (y 1).val = (y 1).val; rw [e1]; omega

/-- Window 7's block is its whole array. -/
theorem blk7_apply (c : Dev nD) (A : Buf (Elt Ideal) ((cfg0.win 7).arr.view.loc (c.tc : Thread nD τ)))
    (t : Fin cfg0.N) (y : S32.Idx) :
    ((cfg0.win 7).blk t).view.read (Elt Ideal) A y = A y := by
  have e0 : win0_7.index t (0 : Fin 1) = 0 := (idx_small t).2.2.2.2.2.2.1
  show A (((cfg0.win 7).blk t).view.emb y) = A y
  refine congrArg A (funext fun a => Fin.ext ?_)
  match a with
  | ⟨0, _⟩ => show win0_7.index t (0 : Fin 1) * 32 + 1 * (y 0).val = (y 0).val; rw [e0]; omega

/-- Window 8's block is its whole array. -/
theorem blk8_apply (c : Dev nD) (A : Buf (Elt Ideal) ((cfg0.win 8).arr.view.loc (c.tc : Thread nD τ)))
    (t : Fin cfg0.N) (y : S1x32.Idx) :
    ((cfg0.win 8).blk t).view.read (Elt Ideal) A y = A y := by
  have e0 : win0_8.index t (0 : Fin 2) = 0 := (idx_small t).2.2.2.2.2.2.2.1
  have e1 : win0_8.index t (1 : Fin 2) = 0 := (idx_small t).2.2.2.2.2.2.2.2.1
  show A (((cfg0.win 8).blk t).view.emb y) = A y
  refine congrArg A (funext fun a => Fin.ext ?_)
  match a with
  | ⟨0, _⟩ => show win0_8.index t (0 : Fin 2) * 1 + 1 * (y 0).val = (y 0).val; rw [e0]; omega
  | ⟨1, _⟩ => show win0_8.index t (1 : Fin 2) * 32 + 1 * (y 1).val = (y 1).val; rw [e1]; omega

/-- Window 9's block is its whole array. -/
theorem blk9_apply (c : Dev nD) (A : Buf (Elt Ideal) ((cfg0.win 9).arr.view.loc (c.tc : Thread nD τ)))
    (t : Fin cfg0.N) (y : S1.Idx) :
    ((cfg0.win 9).blk t).view.read (Elt Ideal) A y = A y := by
  have e0 : win0_9.index t (0 : Fin 1) = 0 := (idx_small t).2.2.2.2.2.2.2.2.2
  show A (((cfg0.win 9).blk t).view.emb y) = A y
  refine congrArg A (funext fun a => Fin.ext ?_)
  match a with
  | ⟨0, _⟩ => show win0_9.index t (0 : Fin 1) * 1 + 1 * (y 0).val = (y 0).val; rw [e0]; omega

/-- The host reshape of the input to one row per batch row, read at an index: column `col` is perspective
    `col / 45056`, feature `col % 45056`. -/
theorem reshape_apply (X : FVec Ideal S2048x2x45056 .f32) (b : Fin 2048) (col : Fin 90112) :
    shapeCast S2048x90112 X Facts₀.shapeCasts_S2048x2x45056_S2048x90112 (ix2 b col)
      = X (ix3 b ⟨col.val / 45056, by have := col.isLt; omega⟩
            ⟨col.val % 45056, Nat.mod_lt _ (by decide)⟩) := by
  have hb : b.val < 2048 := b.isLt
  have hc : col.val < 90112 := col.isLt
  refine shapeCast_apply X Facts₀.shapeCasts_S2048x2x45056_S2048x90112 (ix2 b col) _ ?_
  rw [Shape.rowMajor_val_three, Shape.rowMajor_val_two]
  show (b.val * 2 + col.val / 45056) * 45056 + col.val % 45056 = b.val * 90112 + col.val
  omega

end Cert.KernelIdeal.Blocks

end
-- ==== Proof.Spec.lean ====
/-
  The network both programs compute, written once over the extended reals.

  A board is scored from two perspectives. For a batch row `b` and perspective `p` the front layer is the
  product of the row's 45056 features with the 256 rows of `W1`:
      u_p o = ∑ f, x (b, p, f) * W1 (o, f).
  Each perspective's sums get the bias and a rectifier, the two vectors are joined into 512 entries, and three
  dense layers follow (512 → 32 with a rectifier, 32 → 32 with a rectifier, 32 → 1), the last one through the
  logistic function. Everything after the front layer depends on the batch row only through `u_0` and `u_1`:
  that part is `tailRow`, a function of two vectors of 256 extended reals and the small weights.
-/
import Idealize.ShloMosaic.PureOps.Ideal.Laws
import Idealize.ShloMosaic.Lib.ValueIdx

noncomputable section

namespace Cert.Nnue

open Idealize.ShloMosaic Idealize.ShloMosaic.ValueIdx

/-- The value of the all-zero f32 word (it is `0`; kept as the word so that both programs' rectifiers meet it
    without evaluating it). -/
abbrev zero32 : EReal := Ideal.ofBits .f32 0x00000000#32

/-- One perspective's 256 activations: bias, then the rectifier. -/
def act (u b1 : Fin 256 → EReal) (o : Fin 256) : EReal := max (u o + b1 o) zero32

/-- The two perspectives' activations joined: entries 0–255 from the first, 256–511 from the second. -/
def cat (u1 u2 b1 : Fin 256 → EReal) (k : Fin 512) : EReal :=
  if h : k.val < 256 then act u1 b1 ⟨k.val, h⟩ else act u2 b1 ⟨k.val - 256, by omega⟩

/-- The first dense layer (512 → 32) with its rectifier. -/
def hid1 (u1 u2 b1 : Fin 256 → EReal) (W2 : Fin 32 → Fin 512 → EReal) (b2 : Fin 32 → EReal) (j : Fin 32) : EReal :=
  max ((∑ k : Fin 512, cat u1 u2 b1 k * W2 j k) + b2 j) zero32

/-- The second dense layer (32 → 32) with its rectifier. -/
def hid2 (u1 u2 b1 : Fin 256 → EReal) (W2 : Fin 32 → Fin 512 → EReal) (b2 : Fin 32 → EReal)
    (W3 : Fin 32 → Fin 32 → EReal) (b3 : Fin 32 → EReal) (j : Fin 32) : EReal :=
  max ((∑ k : Fin 32, hid1 u1 u2 b1 W2 b2 k * W3 j k) + b3 j) zero32

/-- The last layer (32 → 1) before the logistic function. -/
def logit (u1 u2 b1 : Fin 256 → EReal) (W2 : Fin 32 → Fin 512 → EReal) (b2 : Fin 32 → EReal)
    (W3 : Fin 32 → Fin 32 → EReal) (b3 : Fin 32 → EReal) (W4 : Fin 32 → EReal) (b4 : EReal) : EReal :=
  (∑ k : Fin 32, hid2 u1 u2 b1 W2 b2 W3 b3 k * W4 k) + b4

/-- Everything after the front layer, for one batch row. -/
def tailRow (u1 u2 b1 : Fin 256 → EReal) (W2 : Fin 32 → Fin 512 → EReal) (b2 : Fin 32 → EReal)
    (W3 : Fin 32 → Fin 32 → EReal) (b3 : Fin 32 → EReal) (W4 : Fin 32 → EReal) (b4 : EReal) : EReal :=
  Ideal.logistic (logit u1 u2 b1 W2 b2 W3 b3 W4 b4)

/-- The front layer of batch row `b`, perspective `p`, output feature `o`. -/
def front (x : (⟨3, ![2048, 2, 45056]⟩ : Shape).Idx → EReal) (W1 : (⟨2, ![256, 45056]⟩ : Shape).Idx → EReal)
    (b : Fin 2048) (p : Fin 2) (o : Fin 256) : EReal :=
  ∑ f : Fin 45056, x (ix3 b p f) * W1 (ix2 o f)

/-- The whole network: the score of every batch row, as one function of the nine argument arrays. -/
def G (x : (⟨3, ![2048, 2, 45056]⟩ : Shape).Idx → EReal) (W1 : (⟨2, ![256, 45056]⟩ : Shape).Idx → EReal)
    (b1 : (⟨1, ![256]⟩ : Shape).Idx → EReal) (W2 : (⟨2, ![32, 512]⟩ : Shape).Idx → EReal)
    (b2 : (⟨1, ![32]⟩ : Shape).Idx → EReal) (W3 : (⟨2, ![32, 32]⟩ : Shape).Idx → EReal)
    (b3 : (⟨1, ![32]⟩ : Shape).Idx → EReal) (W4 : (⟨2, ![1, 32]⟩ : Shape).Idx → EReal)
    (b4 : (⟨1, ![1]⟩ : Shape).Idx → EReal) : (⟨2, ![2048, 1]⟩ : Shape).Idx → EReal := fun i =>
  tailRow (front x W1 (i 0) 0) (front x W1 (i 0) 1) (fun o => b1 (ix1 o)) (fun j k => W2 (ix2 j k))
    (fun j => b2 (ix1 j)) (fun j k => W3 (ix2 j k)) (fun j => b3 (ix1 j)) (fun k => W4 (ix2 0 k)) (b4 (ix1 0))

end Cert.Nnue

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.PayTail.lean ====
/-
  The dense layers that follow the accumulation, read at one batch row.

  From the two accumulators `u₁, u₂ : [1024, 256]`, the bias `b₁ : [256]` and the small weights, the payload forms
  `max (u_p + b₁) 0` for both perspectives, joins the two along the feature axis into `[1024, 512]`, and applies
  three matrix products against the transposed weights (512 → 32 and 32 → 32, each with bias and rectifier, then
  32 → 1), the last one followed by its bias and the logistic function. On the extended reals the format changes
  are the identity and a matrix product into the zero accumulator is the plain sum of products, so row `r` of the
  result is `tailRow` of row `r` of the two accumulators: each stage is read at an index in turn.
-/
import proofs.«139798_j43525198578243_2_alg».proof.Proof.Gen.KernelIdeal.Skeleton
import proofs.«139798_j43525198578243_2_alg».proof.Proof.Spec
import proofs.«139798_j43525198578243_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.Nnue.PayTail

open Cert.KernelIdeal Cert.KernelIdeal.Gen Idealize.ShloMosaic Idealize.ShloMosaic.ValueIdx

variable [Cert.KernelIdeal.Facts]

/-! ## The layout steps at an index, for any sizes -/

/-- A vector of `n` entries cast to one row and broadcast over `m` rows reads, at `(r, o)`, its entry `o`. -/
theorem rowBias_apply {α : Type} {m n : ℕ} (b : (⟨1, ![n]⟩ : Shape).Idx → α)
    (h1 : (⟨1, ![n]⟩ : Shape).ShapeCasts ⟨2, ![1, n]⟩) (h2 : (⟨2, ![1, n]⟩ : Shape).Broadcasts ⟨2, ![m, n]⟩)
    (r : Fin m) (o : Fin n) :
    broadcastTo ⟨2, ![m, n]⟩ (shapeCast ⟨2, ![1, n]⟩ b h1) h2 (ix2 r o) = b (ix1 o) :=
  (broadcastTo_1b_ab_apply _ h2 r o).trans (shapeCast_a_1a_apply b h1 0 o)

/-- A matrix plus a broadcast bias row, rectified against the zero word, at `(r, o)`. -/
theorem reluBias_apply {m n : ℕ} (x : FVec Ideal ⟨2, ![m, n]⟩ .f32) (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (r : Fin m) (o : Fin n) :
    maximumf (addf x (broadcastTo ⟨2, ![m, n]⟩ (shapeCast ⟨2, ![1, n]⟩ b h1) h2))
        (broadcast ⟨2, ![m, n]⟩ (Scalar.ofBits (F := Ideal) .f32 0x00000000#32)) (ix2 r o)
      = max (x (ix2 r o) + b (ix1 o)) zero32 :=
  congrArg (fun t => max (x (ix2 r o) + t) zero32) (rowBias_apply b h1 h2 r o)

/-- A product of an `M×K` matrix with the transpose of an `N×K` weight matrix, into the zero accumulator, at
    `(r, j)`: the sum over `k` of the row's entry `k` times the weight's entry `(j, k)`. -/
theorem dense_apply (M K N : ℕ) (l : FVec Ideal ⟨2, ![M, K]⟩ .f32) (w : FVec Ideal ⟨2, ![N, K]⟩ .f32)
    (hb : FTy.bits .bf16 < FTy.bits .f32) (hT : (⟨2, ![N, K]⟩ : Shape).Transposes [1, 0] ⟨2, ![K, N]⟩)
    (r : Fin M) (j : Fin N) :
    FloatOps.matmul (DotDims.plain M K N) none (truncf .bf16 l hb)
        (transpose ⟨2, ![K, N]⟩ [1, 0] (truncf .bf16 w hb) hT) (constant ⟨2, ![M, N]⟩ .f32 0x00000000#32) (ix2 r j)
      = ∑ k : Fin K, l (ix2 r k) * w (ix2 j k) := by
  refine (Cert.PlainDot.matmul_zero_apply M K N (φ₁ := .bf16) (φ₂ := .bf16) none _ _ (ix2 r j)).trans ?_
  refine Finset.sum_congr rfl fun k _ => ?_
  exact congrArg (fun t => l (ix2 r k) * t) (transpose_ix2_apply (truncf .bf16 w hb) hT k j)

/-- Two `1024×256` matrices joined along the columns, at `(r, k)`: the first below column 256, the second from
    there on. -/
theorem join_apply (A1 A2 : FVec Ideal S1024x256 .f32) (h : Shape.Concatenates [S1024x256, S1024x256] S1024x512 1)
    (r : Fin 1024) (k : Fin 512) :
    concatenate S1024x512 1 [⟨S1024x256, A1⟩, ⟨S1024x256, A2⟩] h (ix2 r k)
      = if hk : k.val < 256 then A1 (ix2 r ⟨k.val, hk⟩) else A2 (ix2 r ⟨k.val - 256, by omega⟩) := by
  split
  · next hk =>
    refine concatenate_pair_apply_left (t := S1024x512) (s₁ := S1024x256) (s₂ := S1024x256) 1 A1 A2 h (ix2 r k) rfl
      (ix2 r ⟨k.val, hk⟩) fun b => ?_
    match b with
    | ⟨0, _⟩ => rfl
    | ⟨1, _⟩ => rfl
  · next hk =>
    refine concatenate_pair_apply_right (t := S1024x512) (s₁ := S1024x256) (s₂ := S1024x256) 1 A1 A2 h (ix2 r k) rfl rfl
      (ix2 r ⟨k.val - 256, by omega⟩) (fun b hb => ?_) ?_
    · match b, hb with
      | ⟨0, _⟩, _ => rfl
      | ⟨1, _⟩, hb => exact absurd rfl hb
    · show (k.val - 256) + 256 = k.val
      omega

/-! ## The payload stage by stage -/

/-- One perspective's activations as the payload forms them. -/
def actV (b1 : FVec Ideal S256 .f32) (u : FVec Ideal S1024x256 .f32) : FVec Ideal S1024x256 .f32 :=
  maximumf (addf u (broadcastTo S1024x256 (shapeCast S1x256 b1 shapeCasts_S256_S1x256) broadcasts_S1x256_S1024x256))
    (broadcast S1024x256 (Scalar.ofBits (F := Ideal) .f32 0x00000000#32))

/-- The two perspectives' activations joined. -/
def catV (b1 : FVec Ideal S256 .f32) (u1 u2 : FVec Ideal S1024x256 .f32) : FVec Ideal S1024x512 .f32 :=
  concatenate S1024x512 1 [⟨S1024x256, actV b1 u1⟩, ⟨S1024x256, actV b1 u2⟩] concatenates_S1024x256_S1024x256_S1024x512_d1

/-- The first dense layer as the payload forms it. -/
def hid1V (b1 : FVec Ideal S256 .f32) (u1 u2 : FVec Ideal S1024x256 .f32) (W2 : FVec Ideal S32x512 .f32)
    (b2 : FVec Ideal S32 .f32) : FVec Ideal S1024x32 .f32 :=
  maximumf (addf
      (matmul dot_S1024x512_S512x32_S1024x32_1_0_0_1_n_n none (truncf .bf16 (catV b1 u1 u2) bitsLt_bf16_f32)
        (transpose S512x32 [1, 0] (truncf .bf16 W2 bitsLt_bf16_f32) transposes_S32x512_p1_0_S512x32)
        (constant S1024x32 .f32 0x00000000#32))
      (broadcastTo S1024x32 (shapeCast S1x32 b2 shapeCasts_S32_S1x32) broadcasts_S1x32_S1024x32))
    (broadcast S1024x32 (Scalar.ofBits (F := Ideal) .f32 0x00000000#32))

/-- The second dense layer as the payload forms it. -/
def hid2V (b1 : FVec Ideal S256 .f32) (u1 u2 : FVec Ideal S1024x256 .f32) (W2 : FVec Ideal S32x512 .f32)
    (b2 : FVec Ideal S32 .f32) (W3 : FVec Ideal S32x32 .f32) (b3 : FVec Ideal S32 .f32) : FVec Ideal S1024x32 .f32 :=
  maximumf (addf
      (matmul dot_S1024x32_S32x32_S1024x32_1_0_0_1_n_n none (truncf .bf16 (hid1V b1 u1 u2 W2 b2) bitsLt_bf16_f32)
        (transpose S32x32 [1, 0] (truncf .bf16 W3 bitsLt_bf16_f32) transposes_S32x32_p1_0_S32x32)
        (constant S1024x32 .f32 0x00000000#32))
      (broadcastTo S1024x32 (shapeCast S1x32 b3 shapeCasts_S32_S1x32) broadcasts_S1x32_S1024x32))
    (broadcast S1024x32 (Scalar.ofBits (F := Ideal) .f32 0x00000000#32))

/-- The last product as the payload forms it. -/
def lastV (b1 : FVec Ideal S256 .f32) (u1 u2 : FVec Ideal S1024x256 .f32) (W2 : FVec Ideal S32x512 .f32)
    (b2 : FVec Ideal S32 .f32) (W3 : FVec Ideal S32x32 .f32) (b3 : FVec Ideal S32 .f32) (W4 : FVec Ideal S1x32 .f32) :
    FVec Ideal S1024x1 .f32 :=
  matmul dot_S1024x32_S32x1_S1024x1_1_0_0_1_n_n none (truncf .bf16 (hid2V b1 u1 u2 W2 b2 W3 b3) bitsLt_bf16_f32)
    (transpose S32x1 [1, 0] (truncf .bf16 W4 bitsLt_bf16_f32) transposes_S1x32_p1_0_S32x1)
    (constant S1024x1 .f32 0x00000000#32)

/-- The tail payload is these stages composed. -/
theorem pay7_eq (v28 : Vec Ideal S256 .f32) (v30 v35 : Vec Ideal S1024x256 .f32) (v42 : Vec Ideal S32x512 .f32)
    (v46 : Vec Ideal S32 .f32) (v53 : Vec Ideal S32x32 .f32) (v57 : Vec Ideal S32 .f32) (v64 : Vec Ideal S1x32 .f32) :
    k0_pay7 (F := Ideal) v28 v30 v35 v42 v46 v53 v57 v64 = lastV v28 v30 v35 v42 v46 v53 v57 v64 := rfl

/-! ## Each stage at an index -/

/-- The activations at `(r, o)`. -/
theorem actV_apply (b1 : FVec Ideal S256 .f32) (u : FVec Ideal S1024x256 .f32) (r : Fin 1024) (o : Fin 256) :
    actV b1 u (ix2 r o) = Cert.Nnue.act (fun o => u (ix2 r o)) (fun o => b1 (ix1 o)) o :=
  reluBias_apply u b1 shapeCasts_S256_S1x256 broadcasts_S1x256_S1024x256 r o

/-- The joined activations at `(r, k)`. -/
theorem catV_apply (b1 : FVec Ideal S256 .f32) (u1 u2 : FVec Ideal S1024x256 .f32) (r : Fin 1024) (k : Fin 512) :
    catV b1 u1 u2 (ix2 r k)
      = Cert.Nnue.cat (fun o => u1 (ix2 r o)) (fun o => u2 (ix2 r o)) (fun o => b1 (ix1 o)) k := by
  refine (join_apply (actV b1 u1) (actV b1 u2) concatenates_S1024x256_S1024x256_S1024x512_d1 r k).trans ?_
  unfold Cert.Nnue.cat
  by_cases hk : k.val < 256
  · rw [dif_pos hk, dif_pos hk]
    exact actV_apply b1 u1 r ⟨k.val, hk⟩
  · rw [dif_neg hk, dif_neg hk]
    exact actV_apply b1 u2 r ⟨k.val - 256, by omega⟩

/-- The first dense layer at `(r, j)`. -/
theorem hid1V_apply (b1 : FVec Ideal S256 .f32) (u1 u2 : FVec Ideal S1024x256 .f32) (W2 : FVec Ideal S32x512 .f32)
    (b2 : FVec Ideal S32 .f32) (r : Fin 1024) (j : Fin 32) :
    hid1V b1 u1 u2 W2 b2 (ix2 r j)
      = Cert.Nnue.hid1 (fun o => u1 (ix2 r o)) (fun o => u2 (ix2 r o)) (fun o => b1 (ix1 o))
          (fun j k => W2 (ix2 j k)) (fun j => b2 (ix1 j)) j := by
  refine (reluBias_apply _ b2 shapeCasts_S32_S1x32 broadcasts_S1x32_S1024x32 r j).trans ?_
  refine congrArg (fun t => max (t + b2 (ix1 j)) zero32) ?_
  refine (dense_apply 1024 512 32 (catV b1 u1 u2) W2 bitsLt_bf16_f32 transposes_S32x512_p1_0_S512x32 r j).trans ?_
  exact Finset.sum_congr rfl fun k _ => congrArg (fun t => t * W2 (ix2 j k)) (catV_apply b1 u1 u2 r k)

/-- The second dense layer at `(r, j)`. -/
theorem hid2V_apply (b1 : FVec Ideal S256 .f32) (u1 u2 : FVec Ideal S1024x256 .f32) (W2 : FVec Ideal S32x512 .f32)
    (b2 : FVec Ideal S32 .f32) (W3 : FVec Ideal S32x32 .f32) (b3 : FVec Ideal S32 .f32) (r : Fin 1024) (j : Fin 32) :
    hid2V b1 u1 u2 W2 b2 W3 b3 (ix2 r j)
      = Cert.Nnue.hid2 (fun o => u1 (ix2 r o)) (fun o => u2 (ix2 r o)) (fun o => b1 (ix1 o))
          (fun j k => W2 (ix2 j k)) (fun j => b2 (ix1 j)) (fun j k => W3 (ix2 j k)) (fun j => b3 (ix1 j)) j := by
  refine (reluBias_apply _ b3 shapeCasts_S32_S1x32 broadcasts_S1x32_S1024x32 r j).trans ?_
  refine congrArg (fun t => max (t + b3 (ix1 j)) zero32) ?_
  refine (dense_apply 1024 32 32 (hid1V b1 u1 u2 W2 b2) W3 bitsLt_bf16_f32 transposes_S32x32_p1_0_S32x32 r j).trans ?_
  exact Finset.sum_congr rfl fun k _ => congrArg (fun t => t * W3 (ix2 j k)) (hid1V_apply b1 u1 u2 W2 b2 r k)

/-- The last product at `(r, 0)`. -/
theorem lastV_apply (b1 : FVec Ideal S256 .f32) (u1 u2 : FVec Ideal S1024x256 .f32) (W2 : FVec Ideal S32x512 .f32)
    (b2 : FVec Ideal S32 .f32) (W3 : FVec Ideal S32x32 .f32) (b3 : FVec Ideal S32 .f32) (W4 : FVec Ideal S1x32 .f32)
    (r : Fin 1024) :
    lastV b1 u1 u2 W2 b2 W3 b3 W4 (ix2 r (0 : Fin 1))
      = ∑ k : Fin 32, Cert.Nnue.hid2 (fun o => u1 (ix2 r o)) (fun o => u2 (ix2 r o)) (fun o => b1 (ix1 o))
          (fun j k => W2 (ix2 j k)) (fun j => b2 (ix1 j)) (fun j k => W3 (ix2 j k)) (fun j => b3 (ix1 j)) k
            * W4 (ix2 (0 : Fin 1) k) := by
  refine (dense_apply 1024 32 1 (hid2V b1 u1 u2 W2 b2 W3 b3) W4 bitsLt_bf16_f32 transposes_S1x32_p1_0_S32x1 r 0).trans ?_
  exact Finset.sum_congr rfl fun k _ =>
    congrArg (fun t => t * W4 (ix2 (0 : Fin 1) k)) (hid2V_apply b1 u1 u2 W2 b2 W3 b3 r k)

/-- The closing payload (bias, then the logistic function lane by lane) at `(r, 0)`. -/
theorem pay6_apply (x : FVec Ideal S1024x1 .f32) (v68 : Vec Ideal S1 .f32) (r : Fin 1024) :
    k0_pay6 (F := Ideal) x v68 (ix2 r (0 : Fin 1)) = Ideal.logistic (x (ix2 r (0 : Fin 1)) + v68 (ix1 (0 : Fin 1))) :=
  congrArg (fun t => Ideal.logistic (x (ix2 r (0 : Fin 1)) + t))
    (rowBias_apply v68 shapeCasts_S1_S1x1 broadcasts_S1x1_S1024x1 r (0 : Fin 1))

/-! ## The two payloads composed -/

/-- Row `r` of the kernel's tail is `tailRow` of row `r` of the two accumulators. -/
theorem pay67_apply (v28 : Vec Ideal S256 .f32) (v30 v35 : Vec Ideal S1024x256 .f32) (v42 : Vec Ideal S32x512 .f32)
    (v46 : Vec Ideal S32 .f32) (v53 : Vec Ideal S32x32 .f32) (v57 : Vec Ideal S32 .f32) (v64 : Vec Ideal S1x32 .f32)
    (v68 : Vec Ideal S1 .f32) (r : Fin 1024) :
    k0_pay6 (F := Ideal) (k0_pay7 (F := Ideal) v28 v30 v35 v42 v46 v53 v57 v64) v68 (ix2 r (0 : Fin 1))
      = Cert.Nnue.tailRow (fun o => v30 (ix2 r o)) (fun o => v35 (ix2 r o)) (fun o => v28 (ix1 o))
          (fun j k => v42 (ix2 j k)) (fun j => v46 (ix1 j)) (fun j k => v53 (ix2 j k)) (fun j => v57 (ix1 j))
          (fun k => v64 (ix2 (0 : Fin 1) k)) (v68 (ix1 (0 : Fin 1))) :=
  (pay6_apply _ v68 r).trans
    (congrArg (fun t => Ideal.logistic (t + v68 (ix1 (0 : Fin 1))))
      ((congrFun (pay7_eq v28 v30 v35 v42 v46 v53 v57 v64) (ix2 r (0 : Fin 1))).trans
        (lastV_apply v28 v30 v35 v42 v46 v53 v57 v64 r)))

end Cert.Nnue.PayTail

end
-- ==== Proof.PayAcc.lean ====
/-
  The kernel's accumulation payloads read at an index, over the extended reals, and the algebra of the running sum.

  The kernel walks the 45056 features in 44 blocks of 1024. At the first block it stores the zero word into both
  accumulators; at every block it adds to each accumulator the product of the block of features (1024 rows by 1024
  features) with the transposed block of the weights (256 rows by 1024 features): the entry at (r, o) grows by
      ∑ j, x (r, j) * W (o, j).
  Over the extended reals the roundings to the narrower format are the identity, and a shape cast to the same shape
  moves nothing, so each payload is read entry by entry as stated below.

  The second part is the arithmetic of the accumulation alone: a sequence that starts at zero plus the first term and
  adds one term per step is the partial sum, and a sum over 45056 features is the sum over 44 blocks of the sums
  over the 1024 features of each block. The extended reals are a commutative monoid under addition, which is all
  that regrouping a finite sum needs.
-/
import proofs.«139798_j43525198578243_2_alg».proof.Proof.Gen.KernelIdeal.Skeleton
import proofs.«139798_j43525198578243_2_alg».proof.Proof.Spec
import proofs.«139798_j43525198578243_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.Nnue.Pay

open Cert.KernelIdeal Cert.KernelIdeal.Gen Idealize.ShloMosaic Idealize.ShloMosaic.ValueIdx

variable [Cert.KernelIdeal.Facts]

/-- The first accumulator's initial store: every entry is the value of the zero word, which is `0`. -/
theorem pay1_apply (j : S1024x256.Idx) : k0_pay1 (F := Ideal) j = 0 := by
  unfold k0_pay1
  refine (congrFun (shapeCast_self _ _) j).trans ?_
  exact Ideal.ofBits_zero_f32

/-- The second accumulator's initial store: every entry is `0`. -/
theorem pay2_apply (j : S1024x256.Idx) : k0_pay2 (F := Ideal) j = 0 := by
  unfold k0_pay2
  refine (congrFun (shapeCast_self _ _) j).trans ?_
  exact Ideal.ofBits_zero_f32

/-- One block's product at `(r, o)`: the features of row `r` against the weights of output `o`; the left operand
    passes a shape cast to its own shape and a rounding that is the identity, the right operand a rounding that is
    the identity and a transposition, which reads `(j, o)` at `(o, j)`. -/
theorem block_apply (x : Vec Ideal S1024x1024 .f32) (v9 : Vec Ideal S256x1024 .f32) (r : Fin 1024) (o : Fin 256) :
    matmul (F := Ideal) dot_S1024x1024_S1024x256_S1024x256_1_0_0_1_n_n none
        (truncf .bf16 (shapeCast S1024x1024 x shapeCasts_S1024x1024_S1024x1024) bitsLt_bf16_f32)
        (transpose S1024x256 [1, 0] (k0_pay3 (F := Ideal) v9) transposes_S256x1024_p1_0_S1024x256)
        (constant S1024x256 .f32 0x00000000#32) (ix2 r o)
      = ∑ j : Fin 1024, x (ix2 r j) * v9 (ix2 o j) := by
  refine (Cert.PlainDot.matmul_zero_apply 1024 1024 256 none _ _ (ix2 r o)).trans ?_
  refine Finset.sum_congr rfl fun j _ => ?_
  have el : (truncf .bf16 (shapeCast S1024x1024 x shapeCasts_S1024x1024_S1024x1024) bitsLt_bf16_f32 : FVec Ideal S1024x1024 .bf16)
      (ix2 r j) = x (ix2 r j) := congrFun (shapeCast_self x _) (ix2 r j)
  have er : (transpose S1024x256 [1, 0] (k0_pay3 (F := Ideal) v9) transposes_S256x1024_p1_0_S1024x256 : FVec Ideal S1024x256 .bf16)
      (ix2 j o) = v9 (ix2 o j) := transpose_ix2_apply (k0_pay3 (F := Ideal) v9) _ j o
  exact congrArg₂ (· * ·) el er

/-- The first accumulator's update at `(r, o)`: the loaded entry plus the block's product. -/
theorem pay4_apply (v3 : Vec Ideal S1024x1024 .f32) (v9 : Vec Ideal S256x1024 .f32) (v11 : Vec Ideal S1024x256 .f32)
    (r : Fin 1024) (o : Fin 256) :
    k0_pay4 (F := Ideal) v3 v9 v11 (ix2 r o) = v11 (ix2 r o) + ∑ j : Fin 1024, v3 (ix2 r j) * v9 (ix2 o j) := by
  unfold k0_pay4
  refine (congrFun (shapeCast_self _ _) (ix2 r o)).trans ?_
  exact congrArg (v11 (ix2 r o) + ·) (block_apply v3 v9 r o)

/-- The second accumulator's update at `(r, o)`: the loaded entry plus the block's product. -/
theorem pay5_apply (v6 : Vec Ideal S1024x1024 .f32) (v9 : Vec Ideal S256x1024 .f32) (v18 : Vec Ideal S1024x256 .f32)
    (r : Fin 1024) (o : Fin 256) :
    k0_pay5 (F := Ideal) v6 v9 v18 (ix2 r o) = v18 (ix2 r o) + ∑ j : Fin 1024, v6 (ix2 r j) * v9 (ix2 o j) := by
  unfold k0_pay5
  refine (congrFun (shapeCast_self _ _) (ix2 r o)).trans ?_
  exact congrArg (v18 (ix2 r o) + ·) (block_apply v6 v9 r o)

end Cert.Nnue.Pay

namespace Cert.Nnue.Alg

/-- A sequence that starts at `0 + d 0` and adds `d (k + 1)` at step `k + 1` is the partial sum of `d`. -/
theorem acc_closed (d a : ℕ → EReal) (h0 : a 0 = 0 + d 0) (hs : ∀ k, a (k + 1) = a k + d (k + 1)) (n : ℕ) :
    a n = ∑ k ∈ Finset.range (n + 1), d k := by
  induction n with
  | zero => rw [h0, zero_add, Finset.sum_range_one]
  | succ n ih => rw [hs, ih, Finset.sum_range_succ d (n + 1)]

/-- A sum over the first `b * m` naturals is the sum over `m` blocks of the sums over the `b` places of each block. -/
theorem sum_range_blocks (b : ℕ) (G : ℕ → EReal) (m : ℕ) :
    ∑ n ∈ Finset.range (b * m), G n = ∑ k ∈ Finset.range m, ∑ j ∈ Finset.range b, G (b * k + j) := by
  induction m with
  | zero => rfl
  | succ m ih => rw [Nat.mul_succ, Finset.sum_range_add, ih, Finset.sum_range_succ]

/-- The sum over 45056 features is the sum over 44 blocks of the sums over the 1024 features of each block (the
    remainder modulo 45056 only makes the index total: inside the ranges it is the identity). -/
theorem sum_blocks (g : Fin 45056 → EReal) :
    ∑ f : Fin 45056, g f
      = ∑ k ∈ Finset.range 44, ∑ j : Fin 1024, g ⟨(1024 * k + j.val) % 45056, Nat.mod_lt _ (by norm_num)⟩ := by
  have h1 : ∑ f : Fin 45056, g f
      = ∑ n ∈ Finset.range 45056, g ⟨n % 45056, Nat.mod_lt _ (by norm_num)⟩ := by
    rw [← Fin.sum_univ_eq_sum_range (fun n => g ⟨n % 45056, Nat.mod_lt _ (by norm_num)⟩) 45056]
    exact Finset.sum_congr rfl fun f _ => congrArg g (Fin.ext (Nat.mod_eq_of_lt f.isLt).symm)
  have h2 : ∑ n ∈ Finset.range 45056, g ⟨n % 45056, Nat.mod_lt _ (by norm_num)⟩
      = ∑ k ∈ Finset.range 44, ∑ j ∈ Finset.range 1024, g ⟨(1024 * k + j) % 45056, Nat.mod_lt _ (by norm_num)⟩ :=
    sum_range_blocks 1024 (fun n => g ⟨n % 45056, Nat.mod_lt _ (by norm_num)⟩) 44
  rw [h1, h2]
  refine Finset.sum_congr rfl fun k _ => ?_
  exact (Fin.sum_univ_eq_sum_range (fun j => g ⟨(1024 * k + j) % 45056, Nat.mod_lt _ (by norm_num)⟩) 1024).symm

end Cert.Nnue.Alg

end
-- ==== Proof.AccSum.lean ====
/-
  The accumulators in closed form, and the front layer's sum cut into blocks.

  Each accumulator starts from the zero store and, block after block, gains the product of that block's features
  with that block's weights. Read at an entry `(r, o)`, the sequence of accumulator values therefore starts at
  `0 + d 0` and adds `d (k + 1)` at step `k + 1`, where `d k = ∑ j, X k (r, j) * Wt k (o, j)`; such a sequence is
  the partial sum of `d`. The front layer's sum over the 45056 features is the same double sum, block by block.
-/
import proofs.«139798_j43525198578243_2_alg».proof.Proof.PayAcc

noncomputable section

namespace Cert.Nnue.AccSum

open Cert.KernelIdeal Cert.KernelIdeal.Gen Idealize.ShloMosaic Idealize.ShloMosaic.ValueIdx

variable [Cert.KernelIdeal.Facts]

/-- The first accumulator after block `n`, at `(r, o)`: the sum over the blocks so far of the blocks' products. -/
theorem accum1_apply (X : ℕ → Vec Ideal S1024x1024 .f32) (Wt : ℕ → Vec Ideal S256x1024 .f32) (a : ℕ → Vec Ideal S1024x256 .f32)
    (h0 : a 0 = k0_pay4 (F := Ideal) (X 0) (Wt 0) (k0_pay1 (F := Ideal)))
    (hs : ∀ k, a (k + 1) = k0_pay4 (F := Ideal) (X (k + 1)) (Wt (k + 1)) (a k))
    (n : ℕ) (r : Fin 1024) (o : Fin 256) :
    a n (ix2 r o) = ∑ k ∈ Finset.range (n + 1), ∑ j : Fin 1024, X k (ix2 r j) * Wt k (ix2 o j) :=
  Cert.Nnue.Alg.acc_closed (fun k => ∑ j : Fin 1024, X k (ix2 r j) * Wt k (ix2 o j)) (fun k => a k (ix2 r o))
    ((congrFun h0 (ix2 r o)).trans
      ((Cert.Nnue.Pay.pay4_apply (X 0) (Wt 0) (k0_pay1 (F := Ideal)) r o).trans
        (congrArg (· + ∑ j : Fin 1024, X 0 (ix2 r j) * Wt 0 (ix2 o j)) (Cert.Nnue.Pay.pay1_apply (ix2 r o)))))
    (fun k => (congrFun (hs k) (ix2 r o)).trans (Cert.Nnue.Pay.pay4_apply (X (k + 1)) (Wt (k + 1)) (a k) r o)) n

/-- The second accumulator after block `n`, at `(r, o)`: the sum over the blocks so far of the blocks' products. -/
theorem accum2_apply (X : ℕ → Vec Ideal S1024x1024 .f32) (Wt : ℕ → Vec Ideal S256x1024 .f32) (a : ℕ → Vec Ideal S1024x256 .f32)
    (h0 : a 0 = k0_pay5 (F := Ideal) (X 0) (Wt 0) (k0_pay2 (F := Ideal)))
    (hs : ∀ k, a (k + 1) = k0_pay5 (F := Ideal) (X (k + 1)) (Wt (k + 1)) (a k))
    (n : ℕ) (r : Fin 1024) (o : Fin 256) :
    a n (ix2 r o) = ∑ k ∈ Finset.range (n + 1), ∑ j : Fin 1024, X k (ix2 r j) * Wt k (ix2 o j) :=
  Cert.Nnue.Alg.acc_closed (fun k => ∑ j : Fin 1024, X k (ix2 r j) * Wt k (ix2 o j)) (fun k => a k (ix2 r o))
    ((congrFun h0 (ix2 r o)).trans
      ((Cert.Nnue.Pay.pay5_apply (X 0) (Wt 0) (k0_pay2 (F := Ideal)) r o).trans
        (congrArg (· + ∑ j : Fin 1024, X 0 (ix2 r j) * Wt 0 (ix2 o j)) (Cert.Nnue.Pay.pay2_apply (ix2 r o)))))
    (fun k => (congrFun (hs k) (ix2 r o)).trans (Cert.Nnue.Pay.pay5_apply (X (k + 1)) (Wt (k + 1)) (a k) r o)) n

/-- The front layer's sum over the 45056 features, cut into 44 blocks of 1024 (the remainder modulo 45056 only
    makes the index total: inside the ranges it is the identity). -/
theorem front_blocks (x : Fin 45056 → EReal) (w : Fin 45056 → EReal) :
    ∑ f : Fin 45056, x f * w f
      = ∑ k ∈ Finset.range 44, ∑ j : Fin 1024,
          x ⟨(1024 * k + j.val) % 45056, Nat.mod_lt _ (by norm_num)⟩ * w ⟨(1024 * k + j.val) % 45056, Nat.mod_lt _ (by norm_num)⟩ :=
  Cert.Nnue.Alg.sum_blocks (fun f => x f * w f)

end Cert.Nnue.AccSum

end
-- ==== Proof.FinalIdeal.lean ====
/-
  The output array after the run is the network of the specification.

  The grid has two batch tiles of 1024 rows and, per tile, 44 chunks of 1024 features; point `t` is tile `t / 44`,
  chunk `t % 44`, and the output block of a tile is written back at its last chunk (`t % 44 = 43`). At such a point
  the tile's first point is `t - 43`, and the accumulators hold, at `(r, o)`, the sum over the 44 chunks `k` of
      ∑ j, X_k (r, j) * W_k (o, j),
  where `X_k` is the chunk's block of the features (one of the two halves of the reshaped input row: perspective 0
  in columns below 45056, perspective 1 from there on) and `W_k` the chunk's block of the front weights. Read through
  the blocks and the reshape, `X_k (r, j)` is the feature `1024 * k + j` of batch row `1024 * (t / 44) + r`, and
  `W_k (o, j)` is the front weight of output `o` at that feature; so the double sum is the front layer's sum over all
  45056 features cut into its blocks. The small weights' windows are their whole arrays. The stored scores are
  therefore, row by row, the specification's `tailRow` of the two front vectors: the block of the specified output
  at that tile. Since the two tiles' blocks cover the output array, it ends holding the specified output.
-/
import proofs.«139798_j43525198578243_2_alg».proof.Proof.DataIdeal
import proofs.«139798_j43525198578243_2_alg».proof.Proof.BlocksIdeal
import proofs.«139798_j43525198578243_2_alg».proof.Proof.PayTail
import proofs.«139798_j43525198578243_2_alg».proof.Proof.AccSum
import proofs.«139798_j43525198578243_2_alg».proof.Proof.Spec

set_option maxRecDepth 16384

noncomputable section

namespace Cert.KernelIdeal.Final

open Cert.KernelIdeal Cert.KernelIdeal.Gen Cert.KernelIdeal.Blocks Idealize.ShloMosaic Idealize.ShloMosaic.ValueIdx
  Idealize.ShloMosaic.TcCoe Idealize.SL.Sem

/-- Two-coordinate indices with equal coordinates are equal. -/
theorem ix2_congr {n0 n1 : ℕ} {a a' : Fin n0} {b b' : Fin n1} (ha : a = a') (hb : b = b') :
    (ix2 a b : (⟨2, ![n0, n1]⟩ : Shape).Idx) = ix2 a' b' := by subst ha hb; rfl

/-- Three-coordinate indices with equal coordinates are equal. -/
theorem ix3_congr {n0 n1 n2 : ℕ} {a a' : Fin n0} {b b' : Fin n1} {d d' : Fin n2} (ha : a = a') (hb : b = b') (hd : d = d') :
    (ix3 a b d : (⟨3, ![n0, n1, n2]⟩ : Shape).Idx) = ix3 a' b' d' := by subst ha hb hd; rfl

section
variable (V : (c : Dev nD) → (b : Ref sig .tc) → Buf (Elt Ideal) ((c : Thread nD τ).loc b)) (c : Dev nD)

/-- In the tile whose last point is `t`, the point `k` places after the first has the number `t - 43 + k`: it is
    below the 88 points of the grid. -/
theorem pt_tile (t : Fin cfg0.N) (h : t.val % 44 = 43) (k : ℕ) (hk : k < 44) :
    (pt (t.val - 43 + k)).val = t.val - 43 + k := by
  have hN := lt_of_lt_of_eq t.isLt N_0
  show (t.val - 43 + k) % 88 = _
  omega

/-- The first accumulator at a tile's last point, at `(r, o)`: the sum over the tile's 44 chunks of the chunk's
    product of the first perspective's block with the weights' block. -/
theorem accAt1_sum (t : Fin cfg0.N) (h : t.val % 44 = 43) (r : Fin 1024) (o : Fin 256) :
    accAt1 V c t.val (ix2 r o)
      = ∑ k ∈ Finset.range 44, ∑ j : Fin 1024,
          blk0 V c (pt (t.val - 43 + k)) (ix2 r j) * blk2 V c (pt (t.val - 43 + k)) (ix2 o j) := by
  unfold accAt1
  rw [h]
  exact Cert.Nnue.AccSum.accum1_apply (fun k => blk0 V c (pt (t.val - 43 + k))) (fun k => blk2 V c (pt (t.val - 43 + k)))
    (fun k => acc1 V c (t.val - 43) k) rfl (fun k => rfl) 43 r o

/-- The second accumulator at a tile's last point, likewise over the second perspective's blocks. -/
theorem accAt2_sum (t : Fin cfg0.N) (h : t.val % 44 = 43) (r : Fin 1024) (o : Fin 256) :
    accAt2 V c t.val (ix2 r o)
      = ∑ k ∈ Finset.range 44, ∑ j : Fin 1024,
          blk1 V c (pt (t.val - 43 + k)) (ix2 r j) * blk2 V c (pt (t.val - 43 + k)) (ix2 o j) := by
  unfold accAt2
  rw [h]
  exact Cert.Nnue.AccSum.accum2_apply (fun k => blk1 V c (pt (t.val - 43 + k))) (fun k => blk2 V c (pt (t.val - 43 + k)))
    (fun k => acc2 V c (t.val - 43) k) rfl (fun k => rfl) 43 r o

/-- Row `r` of the scores a tile's last chunk stores: the dense layers of the specification applied to row `r` of
    the two accumulators and to the small weights' blocks. -/
theorem outAt_apply (t : Fin cfg0.N) (r : Fin 1024) :
    outAt V c t (ix2 r (0 : Fin 1))
      = Cert.Nnue.tailRow (fun o => accAt1 V c t.val (ix2 r o)) (fun o => accAt2 V c t.val (ix2 r o))
          (fun o => blk3 V c t (ix1 o)) (fun j k => blk4 V c t (ix2 j k)) (fun j => blk5 V c t (ix1 j))
          (fun j k => blk6 V c t (ix2 j k)) (fun j => blk7 V c t (ix1 j)) (fun k => blk8 V c t (ix2 (0 : Fin 1) k))
          (blk9 V c t (ix1 (0 : Fin 1))) :=
  Cert.Nnue.PayTail.pay67_apply _ _ _ _ _ _ _ _ _ r

end

section
variable (V : (c : Dev nD) → (b : Ref sig .tc) → Buf (Elt Ideal) ((c : Thread nD τ).loc b)) (c : Dev nD)

/-- The first perspective's block at chunk `k` of the tile, at `(r, j)`: the feature `1024 * k + j` of perspective 0
    of batch row `1024 * (t / 44) + r` (the column is below 45056: quotient 0, remainder itself). -/
theorem blk0_entry (x : FVec Ideal S2048x2x45056 .f32)
    (hv0 : V c main_v0 = shapeCast S2048x90112 x shapeCasts_S2048x2x45056_S2048x90112)
    (t : Fin cfg0.N) (h : t.val % 44 = 43) (k : ℕ) (hk : k < 44) (r j : Fin 1024) :
    blk0 V c (pt (t.val - 43 + k)) (ix2 r j)
      = x (ix3 ⟨1024 * (t.val / 44) + r.val, by have := lt_of_lt_of_eq t.isLt N_0; have := r.isLt; omega⟩ (0 : Fin 2)
            ⟨(1024 * k + j.val) % 45056, Nat.mod_lt _ (by norm_num)⟩) := by
  have hN := lt_of_lt_of_eq t.isLt N_0
  have hp := pt_tile t h k hk
  have hr := r.isLt
  have hj := j.isLt
  have hA : V c (Pipeline.arrRef spec0 0) = shapeCast S2048x90112 x shapeCasts_S2048x2x45056_S2048x90112 := hv0
  refine (blk0_apply c _ (pt (t.val - 43 + k)) r j).trans ?_
  refine (congrFun hA _).trans ?_
  refine (reshape_apply x _ _).trans (congrArg x (ix3_congr (Fin.ext ?_) (Fin.ext ?_) (Fin.ext ?_)))
  · show 1024 * ((pt (t.val - 43 + k)).val / 44) + r.val = 1024 * (t.val / 44) + r.val
    rw [hp]; omega
  · show (1024 * ((pt (t.val - 43 + k)).val % 44) + j.val) / 45056 = 0
    rw [hp]; omega
  · show (1024 * ((pt (t.val - 43 + k)).val % 44) + j.val) % 45056 = (1024 * k + j.val) % 45056
    rw [hp]; omega

/-- The second perspective's block at chunk `k`, at `(r, j)`: the column is `45056 + 1024 * k + j`, of quotient 1 and
    the same remainder. -/
theorem blk1_entry (x : FVec Ideal S2048x2x45056 .f32)
    (hv0 : V c main_v0 = shapeCast S2048x90112 x shapeCasts_S2048x2x45056_S2048x90112)
    (t : Fin cfg0.N) (h : t.val % 44 = 43) (k : ℕ) (hk : k < 44) (r j : Fin 1024) :
    blk1 V c (pt (t.val - 43 + k)) (ix2 r j)
      = x (ix3 ⟨1024 * (t.val / 44) + r.val, by have := lt_of_lt_of_eq t.isLt N_0; have := r.isLt; omega⟩ (1 : Fin 2)
            ⟨(1024 * k + j.val) % 45056, Nat.mod_lt _ (by norm_num)⟩) := by
  have hN := lt_of_lt_of_eq t.isLt N_0
  have hp := pt_tile t h k hk
  have hr := r.isLt
  have hj := j.isLt
  have hA : V c (Pipeline.arrRef spec0 1) = shapeCast S2048x90112 x shapeCasts_S2048x2x45056_S2048x90112 := hv0
  refine (blk1_apply c _ (pt (t.val - 43 + k)) r j).trans ?_
  refine (congrFun hA _).trans ?_
  refine (reshape_apply x _ _).trans (congrArg x (ix3_congr (Fin.ext ?_) (Fin.ext ?_) (Fin.ext ?_)))
  · show 1024 * ((pt (t.val - 43 + k)).val / 44) + r.val = 1024 * (t.val / 44) + r.val
    rw [hp]; omega
  · show (45056 + 1024 * ((pt (t.val - 43 + k)).val % 44) + j.val) / 45056 = 1
    rw [hp]; omega
  · show (45056 + 1024 * ((pt (t.val - 43 + k)).val % 44) + j.val) % 45056 = (1024 * k + j.val) % 45056
    rw [hp]; omega

/-- The front weights' block at chunk `k`, at `(o, j)`: the weight of output `o` at feature `1024 * k + j`. -/
theorem blk2_entry (W1 : FVec Ideal S256x45056 .f32) (h1 : V c main_arg1 = W1)
    (t : Fin cfg0.N) (h : t.val % 44 = 43) (k : ℕ) (hk : k < 44) (o : Fin 256) (j : Fin 1024) :
    blk2 V c (pt (t.val - 43 + k)) (ix2 o j)
      = W1 (ix2 o ⟨(1024 * k + j.val) % 45056, Nat.mod_lt _ (by norm_num)⟩) := by
  have hN := lt_of_lt_of_eq t.isLt N_0
  have hp := pt_tile t h k hk
  have hj := j.isLt
  have hA : V c (Pipeline.arrRef spec0 2) = W1 := h1
  refine (blk2_apply c _ (pt (t.val - 43 + k)) o j).trans ?_
  refine (congrFun hA _).trans ?_
  refine congrArg W1 (ix2_congr rfl (Fin.ext ?_))
  show 1024 * ((pt (t.val - 43 + k)).val % 44) + j.val = (1024 * k + j.val) % 45056
  rw [hp]; omega

/-- Row `r` of the first accumulator at a tile's last point is the front layer of perspective 0 at batch row
    `1024 * (t / 44) + r`: the sum over the chunks is the sum over all features, cut into its blocks. -/
theorem accAt1_front (x : FVec Ideal S2048x2x45056 .f32) (W1 : FVec Ideal S256x45056 .f32)
    (hv0 : V c main_v0 = shapeCast S2048x90112 x shapeCasts_S2048x2x45056_S2048x90112) (h1 : V c main_arg1 = W1)
    (t : Fin cfg0.N) (h : t.val % 44 = 43) (r : Fin 1024) :
    (fun o => accAt1 V c t.val (ix2 r o))
      = Cert.Nnue.front x W1 ⟨1024 * (t.val / 44) + r.val, by have := lt_of_lt_of_eq t.isLt N_0; have := r.isLt; omega⟩ 0 := by
  funext o
  refine (accAt1_sum V c t h r o).trans ?_
  refine (Finset.sum_congr rfl fun k hk => Finset.sum_congr rfl fun j _ =>
    congrArg₂ (· * ·) (blk0_entry V c x hv0 t h k (Finset.mem_range.mp hk) r j)
      (blk2_entry V c W1 h1 t h k (Finset.mem_range.mp hk) o j)).trans ?_
  exact (Cert.Nnue.AccSum.front_blocks
    (fun f => x (ix3 ⟨1024 * (t.val / 44) + r.val, by have := lt_of_lt_of_eq t.isLt N_0; have := r.isLt; omega⟩ (0 : Fin 2) f))
    (fun f => W1 (ix2 o f))).symm

/-- Row `r` of the second accumulator, likewise, is the front layer of perspective 1. -/
theorem accAt2_front (x : FVec Ideal S2048x2x45056 .f32) (W1 : FVec Ideal S256x45056 .f32)
    (hv0 : V c main_v0 = shapeCast S2048x90112 x shapeCasts_S2048x2x45056_S2048x90112) (h1 : V c main_arg1 = W1)
    (t : Fin cfg0.N) (h : t.val % 44 = 43) (r : Fin 1024) :
    (fun o => accAt2 V c t.val (ix2 r o))
      = Cert.Nnue.front x W1 ⟨1024 * (t.val / 44) + r.val, by have := lt_of_lt_of_eq t.isLt N_0; have := r.isLt; omega⟩ 1 := by
  funext o
  refine (accAt2_sum V c t h r o).trans ?_
  refine (Finset.sum_congr rfl fun k hk => Finset.sum_congr rfl fun j _ =>
    congrArg₂ (· * ·) (blk1_entry V c x hv0 t h k (Finset.mem_range.mp hk) r j)
      (blk2_entry V c W1 h1 t h k (Finset.mem_range.mp hk) o j)).trans ?_
  exact (Cert.Nnue.AccSum.front_blocks
    (fun f => x (ix3 ⟨1024 * (t.val / 44) + r.val, by have := lt_of_lt_of_eq t.isLt N_0; have := r.isLt; omega⟩ (1 : Fin 2) f))
    (fun f => W1 (ix2 o f))).symm

end

section
variable (V : (c : Dev nD) → (b : Ref sig .tc) → Buf (Elt Ideal) ((c : Thread nD τ).loc b)) (c : Dev nD)
  (x : FVec Ideal S2048x2x45056 .f32) (W1 : FVec Ideal S256x45056 .f32) (b1 : FVec Ideal S256 .f32) (W2 : FVec Ideal S32x512 .f32)
  (b2 : FVec Ideal S32 .f32) (W3 : FVec Ideal S32x32 .f32) (b3 : FVec Ideal S32 .f32) (W4 : FVec Ideal S1x32 .f32) (b4 : FVec Ideal S1 .f32)
  (hv0 : V c main_v0 = shapeCast S2048x90112 x shapeCasts_S2048x2x45056_S2048x90112)
  (h1 : V c main_arg1 = W1) (h2 : V c main_arg2 = b1) (h3 : V c main_arg3 = W2) (h4 : V c main_arg4 = b2)
  (h5 : V c main_arg5 = W3) (h6 : V c main_arg6 = b3) (h7 : V c main_arg7 = W4) (h8 : V c main_arg8 = b4)
include hv0 h1 h2 h3 h4 h5 h6 h7 h8

/-- Row `r` of the scores stored at a tile's last point is the specified output at batch row `1024 * (t / 44) + r`:
    the small windows are their whole arrays, and the accumulators' rows are the two front vectors. -/
theorem outAt_G (t : Fin cfg0.N) (h : t.val % 44 = 43) (r : Fin 1024) :
    outAt V c t (ix2 r (0 : Fin 1))
      = Cert.Nnue.G x W1 b1 W2 b2 W3 b3 W4 b4
          (ix2 ⟨1024 * (t.val / 44) + r.val, by have := lt_of_lt_of_eq t.isLt N_0; have := r.isLt; omega⟩ (0 : Fin 1)) := by
  have a3 : V c (Pipeline.arrRef spec0 3) = b1 := h2
  have a4 : V c (Pipeline.arrRef spec0 4) = W2 := h3
  have a5 : V c (Pipeline.arrRef spec0 5) = b2 := h4
  have a6 : V c (Pipeline.arrRef spec0 6) = W3 := h5
  have a7 : V c (Pipeline.arrRef spec0 7) = b3 := h6
  have a8 : V c (Pipeline.arrRef spec0 8) = W4 := h7
  have a9 : V c (Pipeline.arrRef spec0 9) = b4 := h8
  have e3 : blk3 V c t = b1 := funext fun y => (blk3_apply c _ t y).trans (congrFun a3 y)
  have e4 : blk4 V c t = W2 := funext fun y => (blk4_apply c _ t y).trans (congrFun a4 y)
  have e5 : blk5 V c t = b2 := funext fun y => (blk5_apply c _ t y).trans (congrFun a5 y)
  have e6 : blk6 V c t = W3 := funext fun y => (blk6_apply c _ t y).trans (congrFun a6 y)
  have e7 : blk7 V c t = b3 := funext fun y => (blk7_apply c _ t y).trans (congrFun a7 y)
  have e8 : blk8 V c t = W4 := funext fun y => (blk8_apply c _ t y).trans (congrFun a8 y)
  have e9 : blk9 V c t = b4 := funext fun y => (blk9_apply c _ t y).trans (congrFun a9 y)
  rw [outAt_apply, accAt1_front V c x W1 hv0 h1 t h r, accAt2_front V c x W1 hv0 h1 t h r, e3, e4, e5, e6, e7, e8, e9]
  rfl

/-- What a flushing point writes back is the block of the specified output at that point (the block has one
    column, so an index of it is a row and the column 0). -/
theorem flushed_eq (t : Fin cfg0.N) (hf : (cfg0.win 10).flush t = true) :
    (dat (F := Ideal) V c).flushed 10 t
      = ((cfg0.win 10).blk t).view.read (Elt Ideal) (Cert.Nnue.G x W1 b1 W2 b2 W3 b3 W4 b4) := by
  have h := (flush0_10 t).mp hf
  show (cfg0.win 10).cut (grid0.coords t) ((dat (F := Ideal) V c).after 10 t) = _
  rw [after10]
  show outAt V c t = _
  funext y
  obtain ⟨r, rfl⟩ : ∃ r : Fin 1024, y = ix2 r (0 : Fin 1) :=
    ⟨y 0, (eq_ix2 y).trans (ix2_congr rfl (Fin.ext (by have := idx2_lt1 y; show (y 1).val = 0; omega)))⟩
  exact (outAt_G V c x W1 b1 W2 b2 W3 b3 W4 b4 hv0 h1 h2 h3 h4 h5 h6 h7 h8 t h r).trans
    (blk10_apply c (Cert.Nnue.G x W1 b1 W2 b2 W3 b3 W4 b4) t r).symm

end

/-- The output array after the run is the specified network of the nine argument arrays: every flushed block is the
    block of the specified output, and the two tiles' blocks cover the array. -/
theorem final (V : (c : Dev nD) → (b : Ref sig .tc) → Buf (Elt Ideal) ((c : Thread nD τ).loc b)) (c : Dev nD)
    (x : FVec Ideal S2048x2x45056 .f32) (W1 : FVec Ideal S256x45056 .f32) (b1 : FVec Ideal S256 .f32) (W2 : FVec Ideal S32x512 .f32)
    (b2 : FVec Ideal S32 .f32) (W3 : FVec Ideal S32x32 .f32) (b3 : FVec Ideal S32 .f32) (W4 : FVec Ideal S1x32 .f32) (b4 : FVec Ideal S1 .f32)
    (hv0 : V c main_v0 = shapeCast S2048x90112 x shapeCasts_S2048x2x45056_S2048x90112)
    (h1 : V c main_arg1 = W1) (h2 : V c main_arg2 = b1) (h3 : V c main_arg3 = W2) (h4 : V c main_arg4 = b2)
    (h5 : V c main_arg5 = W3) (h6 : V c main_arg6 = b3) (h7 : V c main_arg7 = W4) (h8 : V c main_arg8 = b4) :
    (dat (F := Ideal) V c).arrAt 10 cfg0.N = Cert.Nnue.G x W1 b1 W2 b2 W3 b3 W4 b4 :=
  (dat (F := Ideal) V c).arrAt_eq_of_cover 10 (Cert.Nnue.G x W1 b1 W2 b2 W3 b3 W4 b4)
    (flushed_eq V c x W1 b1 W2 b2 W3 b3 W4 b4 hv0 h1 h2 h3 h4 h5 h6 h7 h8) (cover10 c)

end Cert.KernelIdeal.Final

end
-- ==== Proof.RefSide.lean ====
import proofs.«139798_j43525198578243_2_alg».proof.Defs
import proofs.«139798_j43525198578243_2_alg».proof.Proof.Gen.ReferenceIdeal.Read
import proofs.«139798_j43525198578243_2_alg».proof.Proof.Spec

/-
  The reference program computes the network of the specification.

  Each stage of the reference is read at an index: the slice and reshape of the input pick perspective `p` of a
  batch row, the contraction with `W1` over the feature axis is the front layer, the broadcast bias and the
  rectifier give the activations, the concatenation joins the two perspectives, and three dense layers with
  transposed weights follow, the last one through `1 / (1 + exp (-z))`, which is the logistic function.
-/

noncomputable section

namespace Cert.Nnue.Ref

open Cert.ReferenceIdeal Cert.ReferenceIdeal.Gen Cert.ReferenceIdeal.Read Idealize.ShloMosaic Idealize.ShloMosaic.ValueIdx

/-- Perspective 0 of the input, sliced and flattened, at batch row `b` and feature `f`. -/
theorem slice0_at (x : (⟨S2048x2x45056, .f32⟩ : BufTy).Contents (Elt Ideal)) (j : S2048x45056.Idx)
    (b : Fin 2048) (f : Fin 45056) (h0 : j 0 = b) (h1 : j 1 = f) :
    val_main_v1 (F := Ideal) x j = x (ix3 b 0 f) := by
  rw [val_main_v1_apply, val_main_v0_apply]
  have hb : (j 0).val = b.val := congrArg Fin.val h0
  have hf : (j 1).val = f.val := congrArg Fin.val h1
  have hbl : b.val < 2048 := b.isLt
  have hfl : f.val < 45056 := f.isLt
  refine congrArg x (funext fun a => Fin.ext ?_)
  match a with
  | ⟨0, _⟩ => show ((j 0).val * 45056 + (j 1).val) / 45056 = b.val; omega
  | ⟨1, _⟩ => rfl
  | ⟨2, _⟩ => show ((j 0).val * 45056 + (j 1).val) % 45056 = f.val; omega

/-- Perspective 1 of the input, sliced and flattened, at batch row `b` and feature `f`. -/
theorem slice1_at (x : (⟨S2048x2x45056, .f32⟩ : BufTy).Contents (Elt Ideal)) (j : S2048x45056.Idx)
    (b : Fin 2048) (f : Fin 45056) (h0 : j 0 = b) (h1 : j 1 = f) :
    val_main_v8 (F := Ideal) x j = x (ix3 b 1 f) := by
  rw [val_main_v8_apply, val_main_v7_apply]
  have hb : (j 0).val = b.val := congrArg Fin.val h0
  have hf : (j 1).val = f.val := congrArg Fin.val h1
  have hbl : b.val < 2048 := b.isLt
  have hfl : f.val < 45056 := f.isLt
  refine congrArg x (funext fun a => Fin.ext ?_)
  match a with
  | ⟨0, _⟩ => show ((j 0).val * 45056 + (j 1).val) / 45056 = b.val; omega
  | ⟨1, _⟩ => rfl
  | ⟨2, _⟩ => show ((j 0).val * 45056 + (j 1).val) % 45056 = f.val; omega

/-- The first contraction is the front layer of perspective 0. -/
theorem front0_at (x : (⟨S2048x2x45056, .f32⟩ : BufTy).Contents (Elt Ideal))
    (W1 : (⟨S256x45056, .f32⟩ : BufTy).Contents (Elt Ideal)) (i : S2048x256.Idx)
    (b : Fin 2048) (o : Fin 256) (h0 : i 0 = b) (h1 : i 1 = o) :
    val_main_v2 (F := Ideal) x W1 i = front x W1 b 0 o := by
  rw [val_main_v2_apply]
  unfold front
  refine Finset.sum_congr rfl fun f _ => ?_
  rw [slice0_at x (lidx_main_v2 i f) b f h0 rfl]
  refine congrArg (fun t => x (ix3 b 0 f) * W1 t) (funext fun a => ?_)
  match a with
  | ⟨0, _⟩ => exact h1
  | ⟨1, _⟩ => rfl

/-- The second contraction is the front layer of perspective 1. -/
theorem front1_at (x : (⟨S2048x2x45056, .f32⟩ : BufTy).Contents (Elt Ideal))
    (W1 : (⟨S256x45056, .f32⟩ : BufTy).Contents (Elt Ideal)) (i : S2048x256.Idx)
    (b : Fin 2048) (o : Fin 256) (h0 : i 0 = b) (h1 : i 1 = o) :
    val_main_v9 (F := Ideal) x W1 i = front x W1 b 1 o := by
  rw [val_main_v9_apply]
  unfold front
  refine Finset.sum_congr rfl fun f _ => ?_
  rw [slice1_at x (lidx_main_v9 i f) b f h0 rfl]
  refine congrArg (fun t => x (ix3 b 1 f) * W1 t) (funext fun a => ?_)
  match a with
  | ⟨0, _⟩ => exact h1
  | ⟨1, _⟩ => rfl

/-- The bias broadcast over the batch rows, first copy. -/
theorem bias1a_at (b1 : (⟨S256, .f32⟩ : BufTy).Contents (Elt Ideal)) (i : S2048x256.Idx) (o : Fin 256)
    (h1 : i 1 = o) : val_main_v4 (F := Ideal) b1 i = b1 (ix1 o) := by
  rw [val_main_v4_apply, val_main_v3_apply]
  refine congrArg b1 (funext fun a => ?_)
  match a with
  | ⟨0, _⟩ => exact h1

/-- The bias broadcast over the batch rows, second copy. -/
theorem bias1b_at (b1 : (⟨S256, .f32⟩ : BufTy).Contents (Elt Ideal)) (i : S2048x256.Idx) (o : Fin 256)
    (h1 : i 1 = o) : val_main_v11 (F := Ideal) b1 i = b1 (ix1 o) := by
  rw [val_main_v11_apply, val_main_v10_apply]
  refine congrArg b1 (funext fun a => ?_)
  match a with
  | ⟨0, _⟩ => exact h1

/-- The rectifier's zero, first copy. -/
theorem zero0_at (i : S2048x256.Idx) : val_main_call0_v0 (F := Ideal) i = zero32 := by
  rw [val_main_call0_v0_apply, val_main_call0_cst_apply]; rfl

/-- The rectifier's zero, second copy. -/
theorem zero1_at (i : S2048x256.Idx) : val_main_call1_v0 (F := Ideal) i = zero32 := by
  rw [val_main_call1_v0_apply, val_main_call1_cst_apply]; rfl

/-- Perspective 0's activations. -/
theorem act0_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (i : S2048x256.Idx) (b : Fin 2048) (o : Fin 256) (h0 : i 0 = b) (h1 : i 1 = o) :
    val_main_v6 (F := Ideal) x W1 b1 i = act (front x W1 b 0) (fun o => b1 (ix1 o)) o := by
  rw [val_main_v6_apply, val_main_v5_apply, front0_at x W1 i b o h0 h1, bias1a_at b1 i o h1, zero0_at]
  rfl

/-- Perspective 1's activations. -/
theorem act1_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (i : S2048x256.Idx) (b : Fin 2048) (o : Fin 256) (h0 : i 0 = b) (h1 : i 1 = o) :
    val_main_v13 (F := Ideal) x W1 b1 i = act (front x W1 b 1) (fun o => b1 (ix1 o)) o := by
  rw [val_main_v13_apply, val_main_v12_apply, front1_at x W1 i b o h0 h1, bias1b_at b1 i o h1, zero1_at]
  rfl

/-- The two perspectives' activations joined along the feature axis. -/
theorem cat_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (j : S2048x512.Idx) (b : Fin 2048) (k : Fin 512) (h0 : j 0 = b) (h1 : j 1 = k) :
    val_main_v14 (F := Ideal) x W1 b1 j
      = cat (front x W1 b 0) (front x W1 b 1) (fun o => b1 (ix1 o)) k := by
  unfold val_main_v14 cat
  have hk : (j 1).val = k.val := congrArg Fin.val h1
  by_cases h : k.val < 256
  · rw [dif_pos h]
    rw [← act0_at x W1 b1 (ix2 b ⟨k.val, h⟩) b ⟨k.val, h⟩ rfl rfl]
    generalize val_main_v6 (F := Ideal) x W1 b1 = y1
    generalize val_main_v13 (F := Ideal) x W1 b1 = y2
    refine concatenate_pair_apply_left (t := S2048x512) (s₁ := S2048x256) (s₂ := S2048x256) 1 y1 y2
      concatenates_S2048x256_S2048x256_S2048x512_d1 j rfl (ix2 b ⟨k.val, h⟩) (fun a => ?_)
    match a with
    | ⟨0, _⟩ => exact (congrArg Fin.val h0).symm
    | ⟨1, _⟩ => exact hk.symm
  · rw [dif_neg h]
    have hlt : k.val - 256 < 256 := by have := k.isLt; omega
    rw [← act1_at x W1 b1 (ix2 b ⟨k.val - 256, hlt⟩) b ⟨k.val - 256, hlt⟩ rfl rfl]
    generalize val_main_v6 (F := Ideal) x W1 b1 = y1
    generalize val_main_v13 (F := Ideal) x W1 b1 = y2
    refine concatenate_pair_apply_right (t := S2048x512) (s₁ := S2048x256) (s₂ := S2048x256) 1 y1 y2
      concatenates_S2048x256_S2048x256_S2048x512_d1 j rfl rfl (ix2 b ⟨k.val - 256, hlt⟩) (fun a ha => ?_) ?_
    · match a with
      | ⟨0, _⟩ => exact (congrArg Fin.val h0).symm
      | ⟨1, _⟩ => exact absurd rfl ha
    · show k.val - 256 + 256 = (j 1).val
      omega

/-- The first dense layer's bias broadcast over the batch rows. -/
theorem bias2_at (b2 : (⟨S32, .f32⟩ : BufTy).Contents (Elt Ideal)) (i : S2048x32.Idx) (o : Fin 32)
    (h1 : i 1 = o) : val_main_v18 (F := Ideal) b2 i = b2 (ix1 o) := by
  rw [val_main_v18_apply, val_main_v17_apply]
  refine congrArg b2 (funext fun a => ?_)
  match a with
  | ⟨0, _⟩ => exact h1

/-- The second dense layer's bias broadcast over the batch rows. -/
theorem bias3_at (b3 : (⟨S32, .f32⟩ : BufTy).Contents (Elt Ideal)) (i : S2048x32.Idx) (o : Fin 32)
    (h1 : i 1 = o) : val_main_v24 (F := Ideal) b3 i = b3 (ix1 o) := by
  rw [val_main_v24_apply, val_main_v23_apply]
  refine congrArg b3 (funext fun a => ?_)
  match a with
  | ⟨0, _⟩ => exact h1

/-- The rectifier's zero of the first dense layer. -/
theorem zero2_at (i : S2048x32.Idx) : val_main_call2_v0 (F := Ideal) i = zero32 := by
  rw [val_main_call2_v0_apply, val_main_call2_cst_apply]; rfl

/-- The rectifier's zero of the second dense layer. -/
theorem zero3_at (i : S2048x32.Idx) : val_main_call3_v0 (F := Ideal) i = zero32 := by
  rw [val_main_call3_v0_apply, val_main_call3_cst_apply]; rfl

/-- The transposed first dense weight read at `(k, j)` is `W2 (j, k)`. -/
theorem w2_at (W2 : (⟨S32x512, .f32⟩ : BufTy).Contents (Elt Ideal)) (i : S512x32.Idx) (k : Fin 512) (j : Fin 32)
    (h0 : i 0 = k) (h1 : i 1 = j) : val_main_v15 (F := Ideal) W2 i = W2 (ix2 j k) := by
  rw [val_main_v15_apply]
  refine congrArg W2 (funext fun a => ?_)
  match a with
  | ⟨0, _⟩ => exact h1
  | ⟨1, _⟩ => exact h0

/-- The transposed second dense weight read at `(k, j)` is `W3 (j, k)`. -/
theorem w3_at (W3 : (⟨S32x32, .f32⟩ : BufTy).Contents (Elt Ideal)) (i : S32x32.Idx) (k : Fin 32) (j : Fin 32)
    (h0 : i 0 = k) (h1 : i 1 = j) : val_main_v21 (F := Ideal) W3 i = W3 (ix2 j k) := by
  rw [val_main_v21_apply]
  refine congrArg W3 (funext fun a => ?_)
  match a with
  | ⟨0, _⟩ => exact h1
  | ⟨1, _⟩ => exact h0

/-- The transposed last weight read at `(k, 0)` is `W4 (0, k)`. -/
theorem w4_at (W4 : (⟨S1x32, .f32⟩ : BufTy).Contents (Elt Ideal)) (i : S32x1.Idx) (k : Fin 32)
    (h0 : i 0 = k) : val_main_v27 (F := Ideal) W4 i = W4 (ix2 0 k) := by
  rw [val_main_v27_apply]
  refine congrArg W4 (funext fun a => ?_)
  match a with
  | ⟨0, _⟩ =>
    refine Fin.ext ?_
    have h : (i 1).val < 1 := (i 1).isLt
    show (i 1).val = 0
    omega
  | ⟨1, _⟩ => exact h0

/-- The first dense layer with its rectifier. -/
theorem hid1_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (W2 : (⟨S32x512, .f32⟩ : BufTy).Contents (Elt Ideal)) (b2 : (⟨S32, .f32⟩ : BufTy).Contents (Elt Ideal))
    (i : S2048x32.Idx) (b : Fin 2048) (j : Fin 32) (h0 : i 0 = b) (h1 : i 1 = j) :
    val_main_v20 (F := Ideal) x W1 b1 W2 b2 i
      = hid1 (front x W1 b 0) (front x W1 b 1) (fun o => b1 (ix1 o)) (fun j k => W2 (ix2 j k))
          (fun j => b2 (ix1 j)) j := by
  rw [val_main_v20_apply, val_main_v19_apply, val_main_v16_apply, bias2_at b2 i j h1, zero2_at]
  unfold hid1
  have hs : (∑ k : Fin 512, (val_main_v14 (F := Ideal) x W1 b1) (lidx_main_v16 i k)
        * (val_main_v15 (F := Ideal) W2) (ridx_main_v16 i k))
      = ∑ k : Fin 512, cat (front x W1 b 0) (front x W1 b 1) (fun o => b1 (ix1 o)) k * W2 (ix2 j k) := by
    refine Finset.sum_congr rfl fun k _ => ?_
    rw [cat_at x W1 b1 (lidx_main_v16 i k) b k h0 rfl, w2_at W2 (ridx_main_v16 i k) k j rfl h1]
  rw [hs]
  rfl

/-- The second dense layer with its rectifier. -/
theorem hid2_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (W2 : (⟨S32x512, .f32⟩ : BufTy).Contents (Elt Ideal)) (b2 : (⟨S32, .f32⟩ : BufTy).Contents (Elt Ideal))
    (W3 : (⟨S32x32, .f32⟩ : BufTy).Contents (Elt Ideal)) (b3 : (⟨S32, .f32⟩ : BufTy).Contents (Elt Ideal))
    (i : S2048x32.Idx) (b : Fin 2048) (j : Fin 32) (h0 : i 0 = b) (h1 : i 1 = j) :
    val_main_v26 (F := Ideal) x W1 b1 W2 b2 W3 b3 i
      = hid2 (front x W1 b 0) (front x W1 b 1) (fun o => b1 (ix1 o)) (fun j k => W2 (ix2 j k))
          (fun j => b2 (ix1 j)) (fun j k => W3 (ix2 j k)) (fun j => b3 (ix1 j)) j := by
  rw [val_main_v26_apply, val_main_v25_apply, val_main_v22_apply, bias3_at b3 i j h1, zero3_at]
  unfold hid2
  have hs : (∑ k : Fin 32, (val_main_v20 (F := Ideal) x W1 b1 W2 b2) (lidx_main_v22 i k)
        * (val_main_v21 (F := Ideal) W3) (ridx_main_v22 i k))
      = ∑ k : Fin 32, hid1 (front x W1 b 0) (front x W1 b 1) (fun o => b1 (ix1 o)) (fun j k => W2 (ix2 j k))
          (fun j => b2 (ix1 j)) k * W3 (ix2 j k) := by
    refine Finset.sum_congr rfl fun k _ => ?_
    rw [hid1_at x W1 b1 W2 b2 (lidx_main_v22 i k) b k h0 rfl, w3_at W3 (ridx_main_v22 i k) k j rfl h1]
  rw [hs]
  rfl

/-- The last layer's bias broadcast over the batch rows. -/
theorem bias4_at (b4 : (⟨S1, .f32⟩ : BufTy).Contents (Elt Ideal)) (i : S2048x1.Idx) :
    val_main_v30 (F := Ideal) b4 i = b4 (ix1 0) := by
  rw [val_main_v30_apply, val_main_v29_apply]
  refine congrArg b4 (funext fun a => ?_)
  match a with
  | ⟨0, _⟩ => rfl

/-- The last layer before the logistic function. -/
theorem logit_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (W2 : (⟨S32x512, .f32⟩ : BufTy).Contents (Elt Ideal)) (b2 : (⟨S32, .f32⟩ : BufTy).Contents (Elt Ideal))
    (W3 : (⟨S32x32, .f32⟩ : BufTy).Contents (Elt Ideal)) (b3 : (⟨S32, .f32⟩ : BufTy).Contents (Elt Ideal))
    (W4 : (⟨S1x32, .f32⟩ : BufTy).Contents (Elt Ideal)) (b4 : (⟨S1, .f32⟩ : BufTy).Contents (Elt Ideal))
    (i : S2048x1.Idx) (b : Fin 2048) (h0 : i 0 = b) :
    val_main_v31 (F := Ideal) x W1 b1 W2 b2 W3 b3 W4 b4 i
      = logit (front x W1 b 0) (front x W1 b 1) (fun o => b1 (ix1 o)) (fun j k => W2 (ix2 j k))
          (fun j => b2 (ix1 j)) (fun j k => W3 (ix2 j k)) (fun j => b3 (ix1 j)) (fun k => W4 (ix2 0 k))
          (b4 (ix1 0)) := by
  rw [val_main_v31_apply, val_main_v28_apply, bias4_at b4 i]
  unfold logit
  have hs : (∑ k : Fin 32, (val_main_v26 (F := Ideal) x W1 b1 W2 b2 W3 b3) (lidx_main_v28 i k)
        * (val_main_v27 (F := Ideal) W4) (ridx_main_v28 i k))
      = ∑ k : Fin 32, hid2 (front x W1 b 0) (front x W1 b 1) (fun o => b1 (ix1 o)) (fun j k => W2 (ix2 j k))
          (fun j => b2 (ix1 j)) (fun j k => W3 (ix2 j k)) (fun j => b3 (ix1 j)) k * W4 (ix2 0 k) := by
    refine Finset.sum_congr rfl fun k _ => ?_
    rw [hid2_at x W1 b1 W2 b2 W3 b3 (lidx_main_v28 i k) b k h0 rfl, w4_at W4 (ridx_main_v28 i k) k rfl]
  rw [hs]
  rfl

/-- The f32 word `0x3F800000` denotes one. -/
theorem one32 : Ideal.ofBits .f32 0x3F800000#32 = 1 := by
  simp [Ideal.ofBits, Ideal.ieee, -EReal.coe_mul]; norm_num

/-- The constant one, first copy (the numerator's). -/
theorem one_a_at (i : S2048x1.Idx) : val_main_v36 (F := Ideal) i = 1 := by
  rw [val_main_v36_apply, val_main_cst_0_apply]; exact one32

/-- The constant one, second copy (the denominator's). -/
theorem one_b_at (i : S2048x1.Idx) : val_main_v34 (F := Ideal) i = 1 := by
  rw [val_main_v34_apply, val_main_cst_apply]; exact one32

/-- Division of one by one plus the exponential of the negation is the logistic function. -/
theorem logistic_expand (z : EReal) :
    FloatOps.hostDivf (F := Ideal) (φ := .f32) 1
        (FloatOps.addf 1 (FloatOps.hostUnary .exp (FloatOps.hostNegf z))) = Ideal.logistic z := rfl

/-- The reference's result at a batch row: `1 / (1 + exp (-z))` of the last layer's `z` is the logistic function. -/
theorem out_at (x : (⟨S2048x2x45056, .f32⟩ : BufTy).Contents (Elt Ideal))
    (W1 : (⟨S256x45056, .f32⟩ : BufTy).Contents (Elt Ideal)) (b1 : (⟨S256, .f32⟩ : BufTy).Contents (Elt Ideal))
    (W2 : (⟨S32x512, .f32⟩ : BufTy).Contents (Elt Ideal)) (b2 : (⟨S32, .f32⟩ : BufTy).Contents (Elt Ideal))
    (W3 : (⟨S32x32, .f32⟩ : BufTy).Contents (Elt Ideal)) (b3 : (⟨S32, .f32⟩ : BufTy).Contents (Elt Ideal))
    (W4 : (⟨S1x32, .f32⟩ : BufTy).Contents (Elt Ideal)) (b4 : (⟨S1, .f32⟩ : BufTy).Contents (Elt Ideal))
    (i : S2048x1.Idx) :
    val_main_v37 (F := Ideal) x W1 b1 W2 b2 W3 b3 W4 b4 i
      = tailRow (front x W1 (i 0) 0) (front x W1 (i 0) 1) (fun o => b1 (ix1 o)) (fun j k => W2 (ix2 j k))
          (fun j => b2 (ix1 j)) (fun j k => W3 (ix2 j k)) (fun j => b3 (ix1 j)) (fun k => W4 (ix2 0 k))
          (b4 (ix1 0)) := by
  rw [val_main_v37_apply, val_main_v35_apply, val_main_v33_apply, val_main_v32_apply,
    logit_at x W1 b1 W2 b2 W3 b3 W4 b4 i (i 0) rfl, one_a_at, one_b_at]
  unfold tailRow
  exact logistic_expand _

/-- The reference program computes the specification's network. -/
theorem ref_eq (x : (⟨S2048x2x45056, .f32⟩ : BufTy).Contents (Elt Ideal))
    (W1 : (⟨S256x45056, .f32⟩ : BufTy).Contents (Elt Ideal)) (b1 : (⟨S256, .f32⟩ : BufTy).Contents (Elt Ideal))
    (W2 : (⟨S32x512, .f32⟩ : BufTy).Contents (Elt Ideal)) (b2 : (⟨S32, .f32⟩ : BufTy).Contents (Elt Ideal))
    (W3 : (⟨S32x32, .f32⟩ : BufTy).Contents (Elt Ideal)) (b3 : (⟨S32, .f32⟩ : BufTy).Contents (Elt Ideal))
    (W4 : (⟨S1x32, .f32⟩ : BufTy).Contents (Elt Ideal)) (b4 : (⟨S1, .f32⟩ : BufTy).Contents (Elt Ideal)) :
    Cert.ReferenceIdeal.Read.val_main_v37 (F := Ideal) x W1 b1 W2 b2 W3 b3 W4 b4
      = Cert.Nnue.G x W1 b1 W2 b2 W3 b3 W4 b4 := by
  funext i
  rw [out_at x W1 b1 W2 b2 W3 b3 W4 b4 i]
  rfl

end Cert.Nnue.Ref

end
-- ==== Proof.lean ====
/-
  The claim: the blocked kernel and the plain reference compute the same scores on the extended reals.

  The kernel walks a 2 × 44 grid (batch tile × feature chunk). Per perspective it keeps a 1024 × 256 accumulator:
  cleared at a tile's first chunk, at every chunk increased by the product of the chunk's 1024 × 1024 block of
  features with the chunk's 256 × 1024 block of the first layer's weights, and at the tile's last chunk fed, with the
  other perspective's, through bias, rectifier, three small dense layers and the logistic function; the 1024 scores
  are written back once per tile. The reference contracts all 45056 features at once. On the extended reals a finite
  sum may be regrouped freely, so the 44 partial sums of 1024 products are the one sum of 45056 products, and from
  there on both programs apply the same operations to the same numbers (a change of float format is the identity,
  the matrix unit's product into a zero accumulator is the plain contraction, the kernel's logistic is the
  reference's 1 / (1 + exp (-z))). No finiteness of the inputs is used.

  The three frames: the kernel's runs are proved once, generic in the float instance, and read at the word-level
  instance and at the extended reals; the reference's frame is its run with the result dropped. Nothing was
  rewritten by the idealization, so there is nothing to preserve.
-/
import proofs.«139798_j43525198578243_2_alg».proof.Defs
import proofs.«139798_j43525198578243_2_alg».proof.Proof.Gen.Kernel
import proofs.«139798_j43525198578243_2_alg».proof.Proof.Gen.KernelIdeal
import proofs.«139798_j43525198578243_2_alg».proof.Proof.Gen.ReferenceIdeal
import proofs.«139798_j43525198578243_2_alg».proof.Proof.Gen.Pre_finite_inputs
import proofs.«139798_j43525198578243_2_alg».proof.Proof.RunBits
import proofs.«139798_j43525198578243_2_alg».proof.Proof.RunIdeal
import proofs.«139798_j43525198578243_2_alg».proof.Proof.FinalIdeal
import proofs.«139798_j43525198578243_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame (F := Bits) m ρ
theorem frame_ki : Cert.frame_KernelIdeal := fun m ρ _ => Cert.KernelIdeal.Gen.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the score array at the one function `Cert.Nnue.G` of the argument arrays: the kernel's by the
    blocks-to-array argument over its write-backs, the reference's by reading its operations one at a time. -/
theorem algebraic : Cert.algebraic_KernelIdeal_ReferenceIdeal := by
  intro m ρ m' ρ' _ hagree
  refine ⟨fun c => Cert.Nnue.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun _ h c => ⟨(h c).1.trans
        (Cert.KernelIdeal.Final.final (Cert.KernelIdeal.Gen.V1 m ρ) c _ _ _ _ _ _ _ _ _
          (Cert.KernelIdeal.Gen.V1_main_v0 m ρ c) (Cert.KernelIdeal.Gen.V1_main_arg1 m ρ c) (Cert.KernelIdeal.Gen.V1_main_arg2 m ρ c)
          (Cert.KernelIdeal.Gen.V1_main_arg3 m ρ c) (Cert.KernelIdeal.Gen.V1_main_arg4 m ρ c) (Cert.KernelIdeal.Gen.V1_main_arg5 m ρ c)
          (Cert.KernelIdeal.Gen.V1_main_arg6 m ρ c) (Cert.KernelIdeal.Gen.V1_main_arg7 m ρ c) (Cert.KernelIdeal.Gen.V1_main_arg8 m ρ c)),
        (h c).2⟩) (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.ReferenceIdeal.Read.val_main_v37_eq (F := Ideal) _ _ _ _ _ _ _ _ _).trans (Cert.Nnue.Ref.ref_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
